-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x1600000 : Shape := ⟨2, ![2, 1600000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64 .f32) (main_arg9 : FVec F S64x1 .f32) (main_arg10 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x1 .f32) (main_arg1 : IVec S2x1600000 32) (main_arg2 : FVec F S2x128 .f32) (main_arg3 : FVec F S128 .f32) (main_arg4 : FVec F S128x128 .f32) (main_arg5 : FVec F S128 .f32) (main_arg6 : FVec F S128x128 .f32) (main_arg7 : FVec F S128x64 .f32) (main_arg8 : FVec F S64 .f32) (main_arg9 : FVec F S64x1 .f32) (main_arg10 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x1 : Shape := ⟨2, ![50000, 1]⟩
abbrev S2x1600000 : Shape := ⟨2, ![2, 1600000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x2 : Shape := ⟨2, ![50000, 2]⟩
abbrev S1650000 : Shape := ⟨1, ![1650000]⟩
abbrev S1650000x1 : Shape := ⟨2, ![1650000, 1]⟩
abbrev S50000x128 : Shape := ⟨2, ![50000, 128]⟩
abbrev S2000x2 : Shape := ⟨2, ![2000, 2]⟩
abbrev S2000x128 : Shape := ⟨2, ![2000, 128]⟩
abbrev S1650000x128 : Shape := ⟨2, ![1650000, 128]⟩
abbrev S1x128 : Shape := ⟨2, ![1, 128]⟩
abbrev S1600000x128 : Shape := ⟨2, ![1600000, 128]⟩
abbrev S1x64 : Shape := ⟨2, ![1, 64]⟩
abbrev S1x1 : Shape := ⟨2, ![1, 1]⟩
abbrev S2000x64 : Shape := ⟨2, ![2000, 64]⟩
abbrev S2000x1 : Shape := ⟨2, ![2000, 1]⟩

abbrev nBuf : Space → Nat
  | .hbm => 112
  | .vmem => 18
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S50000x1, .f32⟩
  | .hbm, ⟨22, _⟩ => ⟨S50000x2, .f32⟩
  | .hbm, ⟨23, _⟩ => ⟨S50000, .i32⟩
  | .hbm, ⟨24, _⟩ => ⟨S1650000, .i32⟩
  | .hbm, ⟨25, _⟩ => ⟨S1650000, .i32⟩
  | .hbm, ⟨26, _⟩ => ⟨S_, .f32⟩
  | .hbm, ⟨27, _⟩ => ⟨S1650000, .f32⟩
  | .hbm, ⟨28, _⟩ => ⟨S_, .f32⟩
  | .hbm, ⟨29, _⟩ => ⟨S50000, .f32⟩
  | .hbm, ⟨30, _⟩ => ⟨S1650000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x128, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000, .f32⟩
  | .hbm, ⟨59, _⟩ => ⟨S1650000, .f32⟩
  | .hbm, ⟨60, _⟩ => ⟨S1650000x1, .f32⟩
  | .hbm, ⟨61, _⟩ => ⟨S_, .i32⟩
  | .hbm, ⟨62, _⟩ => ⟨S1650000, .i32⟩
  | .hbm, ⟨63, _⟩ => ⟨S1650000, .i1⟩
  | .hbm, ⟨64, _⟩ => ⟨S_, .i32⟩
  | .hbm, ⟨65, _⟩ => ⟨S1650000, .i32⟩
  | .hbm, ⟨66, _⟩ => ⟨S1650000, .i32⟩
  | .hbm, ⟨67, _⟩ => ⟨S1650000, .i32⟩
  | .hbm, ⟨68, _⟩ => ⟨S1650000x1, .i32⟩
  | .hbm, ⟨69, _⟩ => ⟨S1650000x128, .f32⟩
  | .hbm, ⟨70, _⟩ => ⟨S1650000x128, .f32⟩
  | .hbm, ⟨71, _⟩ => ⟨S1650000x128, .f32⟩
  | .hbm, ⟨72, _⟩ => ⟨S_, .f32⟩
  | .hbm, ⟨73, _⟩ => ⟨S50000x128, .f32⟩
  | .hbm, ⟨74, _⟩ => ⟨S1650000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000, .f32⟩
  | .hbm, ⟨84, _⟩ => ⟨S1600000x1, .i32⟩
  | .hbm, ⟨85, _⟩ => ⟨S50000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S50000x128, .f32⟩
  | .hbm, ⟨97, _⟩ => ⟨S1600000x1, .i32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x128, .bf16⟩
  | .hbm, ⟨106, _⟩ => ⟨S50000x128, .bf16⟩
  | .hbm, ⟨107, _⟩ => ⟨S1x128, .f32⟩
  | .hbm, ⟨108, _⟩ => ⟨S1x64, .f32⟩
  | .hbm, ⟨109, _⟩ => ⟨S1x1, .f32⟩
  | .hbm, ⟨110, _⟩ => ⟨S1x1, .f32⟩
  | .hbm, ⟨111, _⟩ => ⟨S_, .f32⟩
  | .local _ .vmem, ⟨0, _⟩ => ⟨S2000x2, .f32⟩
  | .local _ .vmem, ⟨1, _⟩ => ⟨S2000x2, .f32⟩
  | .local _ .vmem, ⟨2, _⟩ => ⟨S2x128, .f32⟩
  | .local _ .vmem, ⟨3, _⟩ => ⟨S2000x128, .f32⟩
  | .local _ .vmem, ⟨4, _⟩ => ⟨S2000x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .bf16⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v43 : BitVec 1 := Scalar.cmpi .eq arg0 c24_i32
  let v44 : BitVec 32 := Scalar.extui v43
  let c0_i32_27 : BitVec 32 := 0#32
  let v45 : BitVec 1 := Scalar.cmpi .ne v44 c0_i32_27
  v45

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  concatenates_S1600000_S50000_S1650000_d0 : Shape.Concatenates [S1600000, S50000] S1650000 0
  bcast_S_S1650000 : S_.BroadcastsInDim S1650000 (![] : Fin 0 → Fin S1650000.rank)
  bcast_S1650000_S1650000x1_0 : S1650000.BroadcastsInDim S1650000x1 (![0] : Fin 1 → Fin S1650000x1.rank)
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  shapeCasts_S128_S1x128 : S128.ShapeCasts S1x128
  shapeCasts_S64_S1x64 : S64.ShapeCasts S1x64
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  broadcasts_S1x1_S2000x1 : S1x1.Broadcasts S2000x1
  reduces_S2000x1_S1 : S2000x1.Reduces [0] S1
  shapeCasts_S1x1_S_ : S1x1.ShapeCasts S_
  scatter_S50000_S1600000x1_S1600000_n_0_0_1_wf : ScatterDims.WF S50000 S1600000x1 S1600000 [] [0] [0] 1
  scatter_S50000_S1650000x1_S1650000_n_0_0_1_wf : ScatterDims.WF S50000 S1650000x1 S1650000 [] [0] [0] 1
  dot_S2000x2_S2x128_S2000x128_1_0_0_1_n_n_wf : DotDims.WF S2000x2 S2x128 S2000x128 [1] [0] [0] [1] [] []
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S50000x2.size a
  hwx0_0 : ∀ i : grid0.Coords, EltTy.bits .f32 = 32 ∨ (Rect.block (s := S50000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S2000x2_S2x128_S2000x128_1_0_0_1_n_n : DotDims S2000x2 S2x128 S2000x128 where
  lhsContracting := [1]
  rhsContracting := [0]
  lhsNonContracting := [0]
  rhsNonContracting := [1]
  lhsBatch := []
  rhsBatch := []
  wf := dot_S2000x2_S2x128_S2000x128_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v9) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v72) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v76) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v77) S1x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S50000x1 : Shape := ⟨2, ![50000, 1]⟩
abbrev S2x1600000 : Shape := ⟨2, ![2, 1600000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x2 : Shape := ⟨2, ![50000, 2]⟩
abbrev S1650000 : Shape := ⟨1, ![1650000]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S1600000x128 : Shape := ⟨2, ![1600000, 128]⟩
abbrev S50000x64 : Shape := ⟨2, ![50000, 64]⟩
abbrev S1x64 : Shape := ⟨2, ![1, 64]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S50000x1, .f32⟩
  | .hbm, ⟨22, _⟩ => ⟨S50000x2, .f32⟩
  | .hbm, ⟨23, _⟩ => ⟨S50000, .i32⟩
  | .hbm, ⟨24, _⟩ => ⟨S1650000, .i32⟩
  | .hbm, ⟨25, _⟩ => ⟨S1650000, .i32⟩
  | .hbm, ⟨26, _⟩ => ⟨S_, .f32⟩
  | .hbm, ⟨27, _⟩ => ⟨S1650000, .f32⟩
  | .hbm, ⟨28, _⟩ => ⟨S_, .f32⟩
  | .hbm, ⟨29, _⟩ => ⟨S50000, .f32⟩
  | .hbm, ⟨30, _⟩ => ⟨S1650000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x128, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000, .f32⟩
  | .hbm, ⟨59, _⟩ => ⟨S1650000, .f32⟩
  | .hbm, ⟨60, _⟩ => ⟨S1650000x1, .f32⟩
  | .hbm, ⟨61, _⟩ => ⟨S_, .i32⟩
  | .hbm, ⟨62, _⟩ => ⟨S1650000, .i32⟩
  | .hbm, ⟨63, _⟩ => ⟨S1650000, .i1⟩
  | .hbm, ⟨64, _⟩ => ⟨S_, .i32⟩
  | .hbm, ⟨65, _⟩ => ⟨S1650000, .i32⟩
  | .hbm, ⟨66, _⟩ => ⟨S1650000, .i32⟩
  | .hbm, ⟨67, _⟩ => ⟨S1650000, .i32⟩
  | .hbm, ⟨68, _⟩ => ⟨S1650000x1, .i32⟩
  | .hbm, ⟨69, _⟩ => ⟨S1650000x128, .f32⟩
  | .hbm, ⟨70, _⟩ => ⟨S1650000x128, .f32⟩
  | .hbm, ⟨71, _⟩ => ⟨S1650000x128, .f32⟩
  | .hbm, ⟨72, _⟩ => ⟨S_, .f32⟩
  | .hbm, ⟨73, _⟩ => ⟨S50000x128, .f32⟩
  | .hbm, ⟨74, _⟩ => ⟨S1650000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000, .f32⟩
  | .hbm, ⟨84, _⟩ => ⟨S1600000x1, .i32⟩
  | .hbm, ⟨85, _⟩ => ⟨S50000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S50000x128, .f32⟩
  | .hbm, ⟨97, _⟩ => ⟨S1600000x1, .i32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | .hbm, ⟨118, _⟩ => ⟨S50000x1, .f32⟩
  | .hbm, ⟨119, _⟩ => ⟨S1x1, .f32⟩
  | .hbm, ⟨120, _⟩ => ⟨S50000x1, .f32⟩
  | .hbm, ⟨121, _⟩ => ⟨S50000x1, .f32⟩
  | .hbm, ⟨122, _⟩ => ⟨S_, .f32⟩
  | .hbm, ⟨123, _⟩ => ⟨S_, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  concatenates_S1600000_S50000_S1650000_d0 : Shape.Concatenates [S1600000, S50000] S1650000 0
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S_d0_1 : S50000x1.ReducesTo [0, 1] S_
  h_S_ : 0 < S_.numel
  scatter_S50000_S1600000x1_S1600000_n_0_0_1_wf : ScatterDims.WF S50000 S1600000x1 S1600000 [] [0] [0] 1
  scatter_S50000_S1650000x1_S1650000_n_0_0_1_wf : ScatterDims.WF S50000 S1650000x1 S1650000 [] [0] [0] 1
  dot_S50000x2_S2x128_S50000x128_1_0_0_1_n_n_wf : DotDims.WF S50000x2 S2x128 S50000x128 [1] [0] [0] [1] [] []
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x2_S2x128_S50000x128_1_0_0_1_n_n : DotDims S50000x2 S2x128 S50000x128 where
  lhsContracting := [1]
  rhsContracting := [0]
  lhsNonContracting := [0]
  rhsNonContracting := [1]
  lhsBatch := []
  rhsBatch := []
  wf := dot_S50000x2_S2x128_S50000x128_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.K.R0.lean ====
/-
  The first kernel region: the dense layer `h = xin · W` of the graph convolution, computed tile by tile.
  The pipeline walks 25 grid points; at point `t` it stages rows `2000·t … 2000·t + 1999` of the node-feature
  matrix `xin` (50000 × 2), the whole weight matrix `W` (2 × 128), runs the body, and writes the body's
  2000 × 128 result back as rows `2000·t …` of `h`. The body loads both staged blocks and stores their matrix
  product over the whole output block; nothing else is touched. This module states, at any float instance and
  for any contents `V` of the buffers when the region is entered, what each staging buffer holds around the body
  and that the body meets the pipeline's obligation at every point.
-/
import proofs.«103519_j18056042512980_1_alg».proof.Proof.Gen.Kernel.Launch
import proofs.«103519_j18056042512980_1_alg».proof.Proof.Gen.Kernel.Skeleton
import proofs.«103519_j18056042512980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the staged arrays -/

/-- The block of window `w`'s array that grid point `t` stages, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Whatever proof data has `V`'s array behind the row-block window and leaves that window's buffer as staged:
    the body finds the point's row block in it, whether or not a fetch happened at that very point. -/
theorem xin_block_found {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window, whose one block is the whole matrix at every point. -/
theorem weight_block_found {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The whole 2000 × 128 output block, as a rectangle. -/
abbrev hRect : Rect S2000x128 := Rect.unit (s := S2000x128) ![0, 0] S2000x128.size inb_S2000x128_S2000x128_0_0
abbrev xinRect : Rect S2000x2 := Rect.unit (s := S2000x2) ![0, 0] S2000x2.size inb_S2000x2_S2000x2_0_0
abbrev wRect : Rect S2x128 := Rect.unit (s := S2x128) ![0, 0] S2x128.size inb_S2x128_S2x128_0_0

/-- What the body leaves in the output block's buffer: the product of the two staged blocks, stored over the
    whole block. -/
def hBlock (x : Vec F S2000x2 .f32) (w : Vec F S2x128 .f32) : Vec F S2000x128 .f32 :=
  View.canon [⟨hRect, k0_pay1 (View.ld x xinRect) (View.ld w wRect)⟩]

/-- The one store covers the output block. -/
theorem hBlock_cover (p0 : Vec F S2000x128 .f32) (y : S2000x128.Idx) :
    ∃ pc ∈ ([⟨hRect, p0⟩] : List (View.Piece (Elt F) S2000x128 .f32)), y ∈ pc.1.set :=
  View.cover_of_tiled [⟨hRect, p0⟩] S2000x128.size (by rfl) y

set_option maxHeartbeats 1000000 in
/-- The body on whole staging buffers: the two inputs are read and handed back unchanged, the output buffer ends
    holding `hBlock` of them. -/
theorem sound_kernel0 (c : Dev nD) (E : Set ℕ) (i : grid0.Coords) (arg1 : Memref sig .tc .vmem S2000x2 .f32) (harg1 : arg1.IsWhole)
    (arg2 : Memref sig .tc .vmem S2x128 .f32) (harg2 : arg2.IsWhole) (arg3 : Memref sig .tc .vmem S2000x128 .f32) (harg3 : arg3.IsWhole)
    (x : Vec F S2000x2 .f32) (w : Vec F S2x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (hBlock x w)) -∗ K ⟨⟩))
      ⊢ wp frame (wpE (defs₀ (F := F)) Variants.none c none) E (cc0__gcn_linear_kernel i arg1 harg1 arg2 harg2 arg3 harg3) K := by
  simp only [cc0__gcn_linear_kernel_eq_skeleton]; unfold cc0__gcn_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (hBlock_cover _)

/-! ## The proof data of the region -/

/-- Arrays as the region finds them; after the body at point `t` each input buffer still holds its block and the
    output buffer the product of the two blocks; the scoped rest and the generator register ride along untouched;
    nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hBlock (iblk0 V c 0 t) (iblk0 V c 1 t) := by dsimp only [dat0]

theorem before0_0 (c : Dev nD) (t : Fin cfg0.N) (d) : (dat0 V c).before 0 t d = iblk0 V c 0 t :=
  xin_block_found V (dat0 V c) (A_eq0 V c 0) (after0_0 V c) t d
theorem before0_1 (c : Dev nD) (t : Fin cfg0.N) (d) : (dat0 V c).before 1 t d = iblk0 V c 1 t :=
  weight_block_found V (dat0 V c) (A_eq0 V c 1) (after0_1 V c) t d

/-! ## The obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Segs.lean ====
/-
  The two kernel regions as segments of the host program's run. Between two items of the host program a core
  holds every unscoped buffer at known contents, its generator register at some state, and owes no transfer.
  A region takes its windows' arrays out of that state, runs its pipeline, and puts the arrays back: the input
  arrays as found, the output array at what the write-backs of all grid points leave. The contents on entry
  (`We`) and on exit (`Wx`) are parameters, tied only by "the output array holds the folded write-backs and
  every other buffer is as it was". The second region's after-contents and invariant are parameters too, with the three facts
  the record needs (the body obligation, and the two ends of the invariant).
-/
import proofs.«103519_j18056042512980_1_alg».proof.Proof.Gen.Kernel.Launch
import proofs.«103519_j18056042512980_1_alg».proof.Proof.Gen.Kernel.Skeleton
import proofs.«103519_j18056042512980_1_alg».proof.Proof.Gen.Kernel.Points
import proofs.«103519_j18056042512980_1_alg».proof.Proof.K.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What every segment shares -/

/-- No pallas_call here has a prefetched table. -/
abbrev admH : (p : Fin 2) → (pcfgs (F := F) p).Adm := fun p => (cfgs p).toPCfg_adm
/-- No core waits on another: no level is assigned. -/
abbrev Lh : GSem nD τ sig → Finset Unit := fun _ => ∅
abbrev lvh : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

variable (We0 Wx0 We1 Wx1 : Dev nD → Valuation τ sig (Elt F))

/-- Contents read at the TensorCore's own references. -/
abbrev atTc (W : Dev nD → Valuation τ sig (Elt F)) : (c : Dev nD) → (b : Ref sig .tc) → Buf (Elt F) ((c : Thread nD τ).loc b) := fun c b => W c b

-- What the second region's body leaves in each window's staging buffer at each point, and the region's invariant
-- between points: the two things its proof data is built from.
variable (aft1 : (c : Dev nD) → (w : Fin cfg1.W) → (t : Fin cfg1.N) → (cfg1.win w).block.Idx → Elt F (cfg1.win w).elt)
  (inv1 : (c : Dev nD) → Fin (cfg1.N + 1) → sProp (MT nD τ sig Unit (Elt F) ℕ (UR sig nD τ) ℕ))

/-- The second region's proof data: arrays as found at `We1`, the given after-contents and invariant, nothing owed,
    whole shares. -/
def D1 (c : Dev nD) : Dat τ (Elt F) Unit ℕ (UR sig nD τ) ℕ cfg1 c where
  A w := atTc We1 c (Pipeline.arrRef spec1 w)
  after w t := aft1 c w t
  Φ t := inv1 c t
  q _ := fullShare
  owed _ := 0

/-- Both pipelines' proof data: the first region's at its entry contents, the second's as given. -/
def pdatsG : (p : Fin 2) → (c : Dev nD) → Dat τ (Elt F) Unit ℕ (UR sig nD τ) ℕ (Pipeline.pin (pcfgs (F := F)) admH p) c
  | ⟨0, _⟩ => fun c => dat0 (atTc We0) c
  | ⟨1, _⟩ => fun c => D1 We1 aft1 inv1 c

/-! ## The first region -/

set_option backward.isDefEq.respectTransparency.types false in
/-- Region 0 between "every unscoped buffer at `We0`" and "every unscoped buffer at `Wx0`". -/
def reg0 (hout : ∀ c, atTc Wx0 c main_v21 = (dat0 (atTc We0) c).arrAt 2 cfg0.N)
    (hne : ∀ c (b : Ref sig .tc), b ≠ main_v21 → atTc Wx0 c b = atTc We0 c b) :
    Pipeline.RegionSeg (pcfgs (F := F)) admH (pdatsG We0 We1 aft1 inv1) () defs₀ Variants.none Lh lvh 0 where
  win := launch0.win.to₀
  block_pos := launch0.block_pos
  stage_whole := launch0.stage_whole
  K := PEmpty
  osem k := k.elim
  ho := Pipeline.OwnSemFacts.none _
  hbody c := (body_obligation0 (atTc We0) c).loose
  hwaits := Pipeline.hwaits_of_owed_zero _ _ _ _ Lh lvh 0 fun _ _ => rfl
  pre c := iprop(StableHlo.held (c : Thread nD τ) (Pipeline.ucRefs τ sig) (We0 c) ∗ Rr c)
  post c := iprop(StableHlo.held (c : Thread nD τ) (Pipeline.ucRefs τ sig) (Wx0 c) ∗ Rr c)
  X c := iprop(∃ r, prngReg c r)
  Y c := iprop(∃ r, prngReg c r)
  Z c := Pipeline.unscopedRest (Ix := Unit) (Name := ℕ) (U := UR sig nD τ) (Lvl := ℕ) spec0 c (atTc We0 c)
  hentry c := by
    rw [Pipeline.ownSems0_none]
    have hsplit := Pipeline.arrays_of_unscopedBufs (p := 0) (pcfgs (F := F)) admH (pdatsG We0 We1 aft1 inv1) launch0.win launch0.arr_whole c
      ((pdatsG We0 We1 aft1 inv1 0 c).share_full fun _ => rfl) (atTc We0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG We0 We1 aft1 inv1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsG We0 We1 aft1 inv1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsG We0 We1 aft1 inv1) ((pdatsG We0 We1 aft1 inv1 0 c).share_full fun _ => rfl)
      (atTc We0 c) (atTc Wx0 c) ((pdatsG We0 We1 aft1 inv1 0 c).arrAt · cfg0.N)
      (fun w => by
        fin_cases w
        · exact ((pdatsG We0 We1 aft1 inv1 0 c).arrAt_in 0 rfl _).trans (hne c main_v9 (by decide)).symm
        · exact ((pdatsG We0 We1 aft1 inv1 0 c).arrAt_in 1 rfl _).trans (hne c main_arg2 (by decide)).symm
        · exact (hout c).symm)
      (fun b hb => hne c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

set_option maxHeartbeats 2000000 in
set_option backward.isDefEq.respectTransparency.types false in
/-- Region 1 between "every unscoped buffer at `We1`" and "every unscoped buffer at `Wx1`", given that the body meets its
    obligation over that proof data and that the invariant starts from and ends in
    "the scoped rest at anything, the generator register at some state". -/
def reg1 (hbody : ∀ c, BodyObligation (D1 We1 aft1 inv1 c) (defs₀ (F := F)) Variants.none () Set.univ)
    (hΦin : ∀ c, Pipeline.ΦA spec1 c ⊢ inv1 c 0) (hΦout : ∀ c, inv1 c (Fin.last cfg1.N) ⊢ Pipeline.ΦA spec1 c)
    (hout : ∀ c, atTc Wx1 c main_v77 = (D1 We1 aft1 inv1 c).arrAt 9 cfg1.N)
    (hne : ∀ c (b : Ref sig .tc), b ≠ main_v77 → atTc Wx1 c b = atTc We1 c b) :
    Pipeline.RegionSeg (pcfgs (F := F)) admH (pdatsG We0 We1 aft1 inv1) () defs₀ Variants.none Lh lvh 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ Lh lvh 1 fun _ _ => rfl
  pre c := iprop(StableHlo.held (c : Thread nD τ) (Pipeline.ucRefs τ sig) (We1 c) ∗ Rr c)
  post c := iprop(StableHlo.held (c : Thread nD τ) (Pipeline.ucRefs τ sig) (Wx1 c) ∗ Rr c)
  X c := iprop(∃ r, prngReg c r)
  Y c := iprop(∃ r, prngReg c r)
  Z c := Pipeline.unscopedRest (Ix := Unit) (Name := ℕ) (U := UR sig nD τ) (Lvl := ℕ) spec1 c (atTc We1 c)
  hentry c := by
    rw [Pipeline.ownSems0_none]
    have hsplit := Pipeline.arrays_of_unscopedBufs (p := 1) (pcfgs (F := F)) admH (pdatsG We0 We1 aft1 inv1) launch1.win launch1.arr_whole c
      ((pdatsG We0 We1 aft1 inv1 1 c).share_full fun _ => rfl) (atTc We1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG We0 We1 aft1 inv1 1 c).Φ 0 = inv1 c 0 from rfl]
    refine .trans ?_ (hΦin c)
    unfold Pipeline.ΦA
    iintro ⟨Hp, -, Hr⟩
    isplitl [Hr]; · iexact Hr
    iexact Hp
  hout c := by
    rw [Pipeline.ownSems0_none, show (pdatsG We0 We1 aft1 inv1 1 c).Φ (Fin.last _) = inv1 c (Fin.last cfg1.N) from rfl]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsG We0 We1 aft1 inv1) ((pdatsG We0 We1 aft1 inv1 1 c).share_full fun _ => rfl)
      (atTc We1 c) (atTc Wx1 c) ((pdatsG We0 We1 aft1 inv1 1 c).arrAt · cfg1.N)
      (fun w => by
        fin_cases w
        · exact ((pdatsG We0 We1 aft1 inv1 1 c).arrAt_in 0 rfl _).trans (hne c main_v72 (by decide)).symm
        · exact ((pdatsG We0 We1 aft1 inv1 1 c).arrAt_in 1 rfl _).trans (hne c main_v73 (by decide)).symm
        · exact ((pdatsG We0 We1 aft1 inv1 1 c).arrAt_in 2 rfl _).trans (hne c main_arg4 (by decide)).symm
        · exact ((pdatsG We0 We1 aft1 inv1 1 c).arrAt_in 3 rfl _).trans (hne c main_v74 (by decide)).symm
        · exact ((pdatsG We0 We1 aft1 inv1 1 c).arrAt_in 4 rfl _).trans (hne c main_arg6 (by decide)).symm
        · exact ((pdatsG We0 We1 aft1 inv1 1 c).arrAt_in 5 rfl _).trans (hne c main_arg7 (by decide)).symm
        · exact ((pdatsG We0 We1 aft1 inv1 1 c).arrAt_in 6 rfl _).trans (hne c main_v75 (by decide)).symm
        · exact ((pdatsG We0 We1 aft1 inv1 1 c).arrAt_in 7 rfl _).trans (hne c main_arg9 (by decide)).symm
        · exact ((pdatsG We0 We1 aft1 inv1 1 c).arrAt_in 8 rfl _).trans (hne c main_v76 (by decide)).symm
        · exact (hout c).symm)
      (fun b hb => hne c b fun h => hb (h ▸ Finset.mem_image.mpr ⟨9, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R1a.lean ====
import proofs.«103519_j18056042512980_1_alg».proof.Proof.Gen.Kernel.Launch
import proofs.«103519_j18056042512980_1_alg».proof.Proof.Gen.Kernel.Skeleton
import proofs.«103519_j18056042512980_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the second pipeline), at the buffer contents `V` found at its entry: what its run shares -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's current staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid coordinate, in closed form -/

/-- The first conditional's condition (zero the accumulator): the coordinate is 0. -/
abbrev condFirst (i : grid1.Coords) : Prop := (Scalar.cmpi .ne (Scalar.extui (Scalar.cmpi .eq (BitVec.ofNat 32 (i 0).val) 0#32)) 0#32) = 1#1
theorem hcondFirst : ∀ t : Fin cfg1.N, condFirst (grid1.coords t) ↔ t.val % 25 = 0 :=
  (by decide +kernel : ∀ t : Fin grid1.N, condFirst (grid1.coords t) ↔ t.val % 25 = 0)

/-- The second conditional's condition (copy the accumulator out): the coordinate is 24. -/
abbrev condLast (i : grid1.Coords) : Prop := k1_cond2 i = 1#1
theorem hcondLast : ∀ t : Fin cfg1.N, condLast (grid1.coords t) ↔ t.val % 25 = 24 :=
  (by decide +kernel : ∀ t : Fin grid1.N, condLast (grid1.coords t) ↔ t.val % 25 = 24)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
/-- Away from the last point the output window is idle and is not written back. -/
theorem idleAt1_9 : ∀ t : Fin cfg1.N, ¬condLast (grid1.coords t) → cfg1.idle 9 (grid1.coords t) = true := by decide +kernel
theorem noFlush1_9 : ∀ t : Fin cfg1.N, ¬condLast (grid1.coords t) → (cfg1.win 9).flush t = false := by decide +kernel
/-- At the last point it is live. -/
theorem liveAt1_9 : ∀ t : Fin cfg1.N, condLast (grid1.coords t) → cfg1.idle 9 (grid1.coords t) = false := by decide +kernel

/-! ## The memrefs the body is called with -/
abbrev ms1_0 (t : Fin cfg1.N) : Memref sig .tc .vmem S2000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
/-- The accumulator: a whole scoped buffer of the kernel's own, carried from point to point. -/
abbrev scM1 : Memref sig .tc .vmem S1x1 .f32 := Memref.whole cc1_scratch0
abbrev VS1 : View sig .tc .vmem S1x1 .f32 := scM1.view
/-- The output window's one staging buffer, through which its contents are stated. -/
abbrev VO1 : View sig .tc .vmem S1x1 .f32 := (Memref.whole cc1_stg9_0 : Memref sig .tc .vmem S1x1 .f32).view

/-! ## The region invariant with the accumulator singled out -/

/-- The core's scoped buffers that are no staging buffer of this region, the accumulator's place taken by `X`. -/
def restS (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

theorem PhiA1_eq (c : Dev nD) :
    (Pipeline.ΦA spec1 c : sProp 𝕄)
      = iprop(restS (F := F) c (iprop(∃ d, owns (c : Thread nD τ) scM1 fullShare d)) ∗ (∃ r, prngReg c r)) := by
  unfold Pipeline.ΦA restS; rw [scopedRest1_eq]; simp only [scM1, owns_whole]; try rfl

end Cert.Kernel.Hand

end
-- ==== Proof.K.R1r.lean ====
import proofs.«103519_j18056042512980_1_alg».proof.Proof.K.R1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body run whole, in each of its three control cases -/

set_option maxHeartbeats 4000000 in
/-- The body at the first point (the accumulator is zeroed first; nothing is copied out): on whole memrefs, the inputs' at their contents, it runs to
    the inputs as they were, the accumulator with the pieces `LS0` written, the output's buffer untouched; the pieces (last store first)
    are what the run finds. -/
noncomputable def kernelRun1_A (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__sage_mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__sage_mlp_kernel_eq_skeleton]; unfold cc1__sage_mlp_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

set_option maxHeartbeats 4000000 in
/-- The body at a middle point (the accumulator is neither zeroed nor copied out): on whole memrefs, the inputs' at their contents, it runs to
    the inputs as they were, the accumulator with the pieces `LS0` written, the output's buffer untouched; the pieces (last store first)
    are what the run finds. -/
noncomputable def kernelRun1_B (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__sage_mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__sage_mlp_kernel_eq_skeleton]; unfold cc1__sage_mlp_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

set_option maxHeartbeats 4000000 in
/-- The body at the last point (the accumulator is not zeroed; it is copied to the output at the end): on whole memrefs, the inputs' at their contents, it runs to
    the inputs as they were, the accumulator with the pieces `LS0` written and the output's buffer with the pieces `L9` written; the pieces (last store first)
    are what the run finds. -/
noncomputable def kernelRun1_C (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    Σ' (L9 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1__sage_mlp_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__sage_mlp_kernel_eq_skeleton]; unfold cc1__sage_mlp_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.Kernel.Hand

end
-- ==== Proof.K.R1.lean ====
import proofs.«103519_j18056042512980_1_alg».proof.Proof.K.R1r
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the accumulator and the output hold point by point, the proof data, the body obligation -/

/-! ## What each case leaves in the accumulator (and, at the last point, in the output's buffer) -/

/-- The pieces case A writes into the accumulator cover it (one whole-buffer store). -/
theorem scover1_A (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8).2.1 S1x1.size (by sl_kernel_rfl) y

/-- What case A leaves in the accumulator: its pieces read back. -/
def sout1_A (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) : Vec F S1x1 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8).2.1)

/-- The pieces case B writes into the accumulator cover it (one whole-buffer store). -/
theorem scover1_B (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1 S1x1.size (by sl_kernel_rfl) y

/-- What case B leaves in the accumulator: its pieces read back. -/
def sout1_B (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) : Vec F S1x1 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1)

/-- The pieces case C writes into the accumulator cover it (one whole-buffer store). -/
theorem scover1_C (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1 S1x1.size (by sl_kernel_rfl) y

/-- What case C leaves in the accumulator: its pieces read back. -/
def sout1_C (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) : Vec F S1x1 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1)

/-- The pieces the last case writes into the output's buffer cover it. -/
theorem cover1_C_9 (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).1 S1x1.size (by sl_kernel_rfl) y

/-- What the last case leaves in the output's buffer. -/
def out1_C_9 (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) : Vec F S1x1 .f32 :=
  VO1.read (Elt F) (VO1.writes (Elt F) VO1.junk (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).1)

/-! ## The pieces found, as the payloads of the inputs' blocks and the accumulator's contents -/

/-- The zero offsets of a whole-buffer access, however spelt. -/
theorem hz11 : (![0, 0] : Fin 2 → Nat) = fun _ => 0 := funext fun a => by fin_cases a <;> rfl

/-- A middle point leaves in the accumulator its contents plus the block's partial sum. -/
theorem sout1_B_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    sout1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0 = k1_pay1 (k1_pay3 x7) (k1_pay4 x8) (k1_pay5 x0 x1 x2 x4 x3 x5 x6) (constant S2000x1 .f32 0x00000000#32) xs0 := by
  unfold sout1_B
  rw [View.read_writes_eq_canon _ _ _ (scover1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0)]
  unfold kernelRun1_B
  dsimp only
  sl_unfold_words
  rw [View.canon_unit_zero (S := S1x1) hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-- So does the last point. -/
theorem sout1_C_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    sout1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0 = k1_pay1 (k1_pay3 x7) (k1_pay4 x8) (k1_pay5 x0 x1 x2 x4 x3 x5 x6) (constant S2000x1 .f32 0x00000000#32) xs0 := by
  unfold sout1_C
  rw [View.read_writes_eq_canon _ _ _ (scover1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0)]
  unfold kernelRun1_C
  dsimp only
  sl_unfold_words
  rw [View.canon_unit_zero (S := S1x1) hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-- The first point zeroes the accumulator, reads the zero back and adds the block's partial sum to it. -/
theorem sout1_A_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) :
    sout1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 = k1_pay1 (k1_pay3 x7) (k1_pay4 x8) (k1_pay5 x0 x1 x2 x4 x3 x5 x6) (constant S2000x1 .f32 0x00000000#32) (k1_pay2 (F := F)) := by
  unfold sout1_A
  rw [View.read_writes_eq_canon _ _ _ (scover1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8)]
  unfold kernelRun1_A
  dsimp only
  sl_unfold_words
  rw [View.canon_cons_unit_zero (S := S1x1) hz11, View.readCov_unit_zero (S := S1x1) _ hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-- The last point copies the accumulator's new contents into the output's buffer. -/
theorem out1_C_9_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    out1_C_9 c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0 = k1_pay1 (k1_pay3 x7) (k1_pay4 x8) (k1_pay5 x0 x1 x2 x4 x3 x5 x6) (constant S2000x1 .f32 0x00000000#32) xs0 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0)]
  unfold kernelRun1_C
  dsimp only
  sl_unfold_words
  rw [View.canon_unit_zero (S := S1x1) hz11, View.readCov_unit_zero (S := S1x1) _ hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-! ## The same at a grid point: the memrefs the pipeline passes there, the inputs' blocks there -/

def soutA_at (c : Dev nD) (t : Fin cfg1.N) (h1 : condFirst (grid1.coords t)) (h2 : ¬condLast (grid1.coords t)) : Vec F S1x1 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t)
def soutB_at (c : Dev nD) (t : Fin cfg1.N) (h1 : ¬condFirst (grid1.coords t)) (h2 : ¬condLast (grid1.coords t)) (xs : Vec F S1x1 .f32) : Vec F S1x1 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t) xs
def soutC_at (c : Dev nD) (t : Fin cfg1.N) (h1 : ¬condFirst (grid1.coords t)) (h2 : condLast (grid1.coords t)) (xs : Vec F S1x1 .f32) : Vec F S1x1 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t) xs
def outC_at (c : Dev nD) (t : Fin cfg1.N) (h1 : ¬condFirst (grid1.coords t)) (h2 : condLast (grid1.coords t)) (xs : Vec F S1x1 .f32) : Vec F S1x1 .f32 :=
  out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t) xs

/-- The grid has 25 points. -/
theorem lt25 (t : Fin cfg1.N) : t.val < 25 := lt_of_lt_of_eq t.isLt (show cfg1.N = 25 from N_1)
theorem first_of_zero (t : Fin cfg1.N) (h : t.val = 0) : condFirst (grid1.coords t) := (hcondFirst t).mpr (by rw [h])
theorem notFirst_of_pos (t : Fin cfg1.N) (h : t.val ≠ 0) : ¬condFirst (grid1.coords t) := fun hc => by
  have h1 := (hcondFirst t).mp hc; have hN := lt25 t; omega
theorem notLast_of_zero (t : Fin cfg1.N) (h : t.val = 0) : ¬condLast (grid1.coords t) := fun hc => by
  have h1 := (hcondLast t).mp hc; omega
theorem last_of (t : Fin cfg1.N) (h : t.val % 25 = 24) : condLast (grid1.coords t) := (hcondLast t).mpr h
theorem notLast_of (t : Fin cfg1.N) (h : ¬t.val % 25 = 24) : ¬condLast (grid1.coords t) := fun hc => h ((hcondLast t).mp hc)

/-! ## Point by point -/

/-- What the accumulator holds after the body at point `n`: at point 0 the first case's; afterwards the middle
    or the last case's over what the point before left. -/
def scrAt1 (c : Dev nD) : (n : ℕ) → n < cfg1.N → Vec F S1x1 .f32
  | 0, hn => soutA_at V c ⟨0, hn⟩ (first_of_zero ⟨0, hn⟩ rfl) (notLast_of_zero ⟨0, hn⟩ rfl)
  | n + 1, hn =>
    if h2 : (n + 1) % 25 = 24 then
      soutC_at V c ⟨n + 1, hn⟩ (notFirst_of_pos ⟨n + 1, hn⟩ (Nat.succ_ne_zero n)) (last_of ⟨n + 1, hn⟩ h2) (scrAt1 c n (Nat.lt_of_succ_lt hn))
    else
      soutB_at V c ⟨n + 1, hn⟩ (notFirst_of_pos ⟨n + 1, hn⟩ (Nat.succ_ne_zero n)) (notLast_of ⟨n + 1, hn⟩ h2) (scrAt1 c n (Nat.lt_of_succ_lt hn))

/-- What the output's staging buffer holds after the body at point `n`: at the last point what the body copies
    there; elsewhere the window is idle and the value is a placeholder nothing reads. -/
def outAt1 (c : Dev nD) : (n : ℕ) → n < cfg1.N → Vec F S1x1 .f32
  | 0, _ => VO1.read (Elt F) VO1.junk
  | n + 1, hn =>
    if h2 : (n + 1) % 25 = 24 then
      outC_at V c ⟨n + 1, hn⟩ (notFirst_of_pos ⟨n + 1, hn⟩ (Nat.succ_ne_zero n)) (last_of ⟨n + 1, hn⟩ h2) (scrAt1 V c n (Nat.lt_of_succ_lt hn))
    else
      VO1.read (Elt F) VO1.junk

theorem scrAt1_A (c : Dev nD) (t : Fin cfg1.N) (h0 : t.val = 0) :
    scrAt1 V c t.val t.isLt = soutA_at V c t (first_of_zero t h0) (notLast_of_zero t h0) := by
  obtain ⟨n, hn⟩ := t
  cases n with
  | zero => rfl
  | succ n => exact absurd h0 (Nat.succ_ne_zero n)

theorem scrAt1_B (c : Dev nD) (t : Fin cfg1.N) (h0 : t.val ≠ 0) (h2 : ¬t.val % 25 = 24) :
    scrAt1 V c t.val t.isLt = soutB_at V c t (notFirst_of_pos t h0) (notLast_of t h2) (scrAt1 V c (t.val - 1) (Nat.lt_of_le_of_lt (Nat.sub_le _ _) t.isLt)) := by
  obtain ⟨n, hn⟩ := t
  cases n with
  | zero => exact absurd rfl h0
  | succ n => exact (dif_neg h2).trans rfl

theorem scrAt1_C (c : Dev nD) (t : Fin cfg1.N) (h0 : t.val ≠ 0) (h2 : t.val % 25 = 24) :
    scrAt1 V c t.val t.isLt = soutC_at V c t (notFirst_of_pos t h0) (last_of t h2) (scrAt1 V c (t.val - 1) (Nat.lt_of_le_of_lt (Nat.sub_le _ _) t.isLt)) := by
  obtain ⟨n, hn⟩ := t
  cases n with
  | zero => exact absurd rfl h0
  | succ n => exact (dif_pos h2).trans rfl

theorem outAt1_C (c : Dev nD) (t : Fin cfg1.N) (h0 : t.val ≠ 0) (h2 : t.val % 25 = 24) :
    outAt1 V c t.val t.isLt = outC_at V c t (notFirst_of_pos t h0) (last_of t h2) (scrAt1 V c (t.val - 1) (Nat.lt_of_le_of_lt (Nat.sub_le _ _) t.isLt)) := by
  obtain ⟨n, hn⟩ := t
  cases n with
  | zero => exact absurd rfl h0
  | succ n => exact (dif_pos h2).trans rfl

/-! ## The invariant: the accumulator at what the point before left -/

def PhiS (c : Dev nD) : (n : ℕ) → n ≤ cfg1.N → sProp 𝕄
  | 0, _ => Pipeline.ΦA spec1 c
  | n + 1, hn => iprop(restS (F := F) c (owns (c : Thread nD τ) scM1 fullShare (scrAt1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restS (F := F) c (owns (c : Thread nD τ) scM1 fullShare (scrAt1 V c n hn)) ∗ (∃ r, prngReg c r)) := rfl

theorem PhiS_pos (c : Dev nD) (n : ℕ) (h : n ≤ cfg1.N) (hz : n ≠ 0) :
    PhiS V c n h = iprop(restS (F := F) c (owns (c : Thread nD τ) scM1 fullShare (scrAt1 V c (n - 1) (by omega))) ∗ (∃ r, prngReg c r)) := by
  cases n with
  | zero => exact absurd rfl hz
  | succ n => rfl

/-! ## The proof data -/

/-- The proof data of this pipeline on core `c`: the arrays as the region finds them; after the body each input's
    buffer at its block and the output's at `outAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => outAt1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = outAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
/-- The body at any point: the inputs' buffers hold their blocks; the point is the first, a middle or the last one;
    the invariant hands the body the accumulator (at anything at the first point, at what the point before left
    afterwards) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS V c (t.val + 1) t.isLt from rfl, PhiS_succ]
  have hN : t.val < 25 := lt25 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases hz : t.val = 0
  · have hl : ¬condLast (grid1.coords t) := notLast_of_zero t hz
    rw [Dat.leavesExact_idle (dat1 V c) 9 t (idleAt1_9 t hl) (noFlush1_9 t hl)]
    rw [scrAt1_A V c t hz]
    unfold soutA_at sout1_A; (try dsimp only)
    rw [PhiS_castSucc V c t, PhiS_zero V c _ _ hz, PhiA1_eq]; unfold restS
    iintro ⟨⟨⟨R0, R1, R2, R3, R4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ (first_of_zero t hz) hl (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, ⟨%es0, HS0⟩⟩
    isplitl [R0 R1 R2 R3 R4 HS0 Hg]
    · isplitl [R0 R1 R2 R3 R4 HS0]
      · isplitl [R0]; · iexact R0
        isplitl [R1]; · iexact R1
        isplitl [R2]; · iexact R2
        isplitl [R3]; · iexact R3
        isplitl [R4]; · iexact R4
        unfold owns; iexists _; isplitr
        swap; · iexact HS0
        ipureintro; exact View.read_writes_of_cover _ _ _ _ _ (scover1_A c _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h2 : t.val % 25 = 24
    · have hl : condLast (grid1.coords t) := last_of t h2
      rw [show (dat1 V c).leavesExact 9 t = owns (c : Thread nD τ) (ms1_9 t) fullShare ((dat1 V c).after 9 t) from by
        unfold Dat.leavesExact; rw [liveAt1_9 t hl], after1_9]
      rw [scrAt1_C V c t hz h2, outAt1_C V c t hz h2]
      unfold soutC_at outC_at sout1_C out1_C_9; (try dsimp only)
      rw [PhiS_castSucc V c t, PhiS_pos V c _ _ hz]; unfold restS
      iintro ⟨⟨⟨R0, R1, R2, R3, R4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ (notFirst_of_pos t hz) hl (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [R0 R1 R2 R3 R4 HS0 Hg]
      · isplitl [R0 R1 R2 R3 R4 HS0]
        · isplitl [R0]; · iexact R0
          isplitl [R1]; · iexact R1
          isplitl [R2]; · iexact R2
          isplitl [R3]; · iexact R3
          isplitl [R4]; · iexact R4
          unfold owns; iexists _; isplitr
          swap; · iexact HS0
          ipureintro; exact View.read_writes_of_cover _ _ _ _ _ (scover1_C c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _)
    · have hl : ¬condLast (grid1.coords t) := notLast_of t h2
      rw [Dat.leavesExact_idle (dat1 V c) 9 t (idleAt1_9 t hl) (noFlush1_9 t hl)]
      rw [scrAt1_B V c t hz h2]
      unfold soutB_at sout1_B; (try dsimp only)
      rw [PhiS_castSucc V c t, PhiS_pos V c _ _ hz]; unfold restS
      iintro ⟨⟨⟨R0, R1, R2, R3, R4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (notFirst_of_pos t hz) hl (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [R0 R1 R2 R3 R4 HS0 Hg]
      · isplitl [R0 R1 R2 R3 R4 HS0]
        · isplitl [R0]; · iexact R0
          isplitl [R1]; · iexact R1
          isplitl [R2]; · iexact R2
          isplitl [R3]; · iexact R3
          isplitl [R4]; · iexact R4
          unfold owns; iexists _; isplitr
          swap; · iexact HS0
          ipureintro; exact View.read_writes_of_cover _ _ _ _ _ (scover1_B c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold restS
  iintro ⟨⟨R0, R1, R2, R3, R4, HS0⟩, Hg⟩
  isplitl [R0 R1 R2 R3 R4 HS0]
  · isplitl [R0]; · iexact R0
    isplitl [R1]; · iexact R1
    isplitl [R2]; · iexact R2
    isplitl [R3]; · iexact R3
    isplitl [R4]; · iexact R4
    iexists _; iexact HS0
  iexact Hg

theorem hout1 (c : Dev nD) : (dat1 V c).Φ (Fin.last cfg1.N) ⊢ Pipeline.ΦA spec1 c :=
  Phi_out1 V c _ (by rw [Fin.val_last]; have : cfg1.N = 25 := N_1; omega)

/-! ## The value equations: the accumulator is a running sum of the blocks' partial sums, and the output is its last value -/

/-- After point 0 the accumulator holds zero plus the first block's partial sum. -/
theorem scrAt1_zero (c : Dev nD) (h0 : 0 < cfg1.N) :
    scrAt1 V c 0 h0 = k1_pay1 (k1_pay3 (iblk1 V c 7 ⟨0, h0⟩)) (k1_pay4 (iblk1 V c 8 ⟨0, h0⟩)) (k1_pay5 (iblk1 V c 0 ⟨0, h0⟩) (iblk1 V c 1 ⟨0, h0⟩) (iblk1 V c 2 ⟨0, h0⟩) (iblk1 V c 4 ⟨0, h0⟩) (iblk1 V c 3 ⟨0, h0⟩) (iblk1 V c 5 ⟨0, h0⟩) (iblk1 V c 6 ⟨0, h0⟩)) (constant S2000x1 .f32 0x00000000#32) (k1_pay2 (F := F)) :=
  (show scrAt1 V c 0 h0 = soutA_at V c ⟨0, h0⟩ (first_of_zero ⟨0, h0⟩ rfl) (notLast_of_zero ⟨0, h0⟩ rfl) from rfl).trans
    (sout1_A_eq c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩) (ms1_3 ⟨0, h0⟩) (hs1_3 ⟨0, h0⟩) (ms1_4 ⟨0, h0⟩) (hs1_4 ⟨0, h0⟩) (ms1_5 ⟨0, h0⟩) (hs1_5 ⟨0, h0⟩) (ms1_6 ⟨0, h0⟩) (hs1_6 ⟨0, h0⟩) (ms1_7 ⟨0, h0⟩) (hs1_7 ⟨0, h0⟩) (ms1_8 ⟨0, h0⟩) (hs1_8 ⟨0, h0⟩) (ms1_9 ⟨0, h0⟩) (hs1_9 ⟨0, h0⟩) scM1 (Memref.isWhole_whole _) (first_of_zero ⟨0, h0⟩ rfl) (notLast_of_zero ⟨0, h0⟩ rfl) (iblk1 V c 0 ⟨0, h0⟩) (iblk1 V c 1 ⟨0, h0⟩) (iblk1 V c 2 ⟨0, h0⟩) (iblk1 V c 3 ⟨0, h0⟩) (iblk1 V c 4 ⟨0, h0⟩) (iblk1 V c 5 ⟨0, h0⟩) (iblk1 V c 6 ⟨0, h0⟩) (iblk1 V c 7 ⟨0, h0⟩) (iblk1 V c 8 ⟨0, h0⟩))

/-- After point `n + 1` it holds what point `n` left plus that block's partial sum. -/
theorem scrAt1_succ (c : Dev nD) (n : ℕ) (hn : n + 1 < cfg1.N) :
    scrAt1 V c (n + 1) hn = k1_pay1 (k1_pay3 (iblk1 V c 7 ⟨n + 1, hn⟩)) (k1_pay4 (iblk1 V c 8 ⟨n + 1, hn⟩)) (k1_pay5 (iblk1 V c 0 ⟨n + 1, hn⟩) (iblk1 V c 1 ⟨n + 1, hn⟩) (iblk1 V c 2 ⟨n + 1, hn⟩) (iblk1 V c 4 ⟨n + 1, hn⟩) (iblk1 V c 3 ⟨n + 1, hn⟩) (iblk1 V c 5 ⟨n + 1, hn⟩) (iblk1 V c 6 ⟨n + 1, hn⟩)) (constant S2000x1 .f32 0x00000000#32) (scrAt1 V c n (Nat.lt_of_succ_lt hn)) := by
  by_cases h2 : (n + 1) % 25 = 24
  · exact (dif_pos h2).trans
      (sout1_C_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (notFirst_of_pos ⟨n + 1, hn⟩ (Nat.succ_ne_zero n)) (last_of ⟨n + 1, hn⟩ h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (scrAt1 V c n (Nat.lt_of_succ_lt hn)))
  · exact (dif_neg h2).trans
      (sout1_B_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (notFirst_of_pos ⟨n + 1, hn⟩ (Nat.succ_ne_zero n)) (notLast_of ⟨n + 1, hn⟩ h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (scrAt1 V c n (Nat.lt_of_succ_lt hn)))

/-- At a last point the output's buffer receives the accumulator's new contents. -/
theorem outAt1_eq_scrAt1 (c : Dev nD) (t : Fin cfg1.N) (h0 : t.val ≠ 0) (h2 : t.val % 25 = 24) :
    outAt1 V c t.val t.isLt = scrAt1 V c t.val t.isLt := by
  rw [outAt1_C V c t h0 h2, scrAt1_C V c t h0 h2]
  unfold outC_at soutC_at
  exact (out1_C_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (notFirst_of_pos t h0) (last_of t h2) (iblk1 V c 0 t) (iblk1 V c 1 t) (iblk1 V c 2 t) (iblk1 V c 3 t) (iblk1 V c 4 t) (iblk1 V c 5 t) (iblk1 V c 6 t) (iblk1 V c 7 t) (iblk1 V c 8 t) (scrAt1 V c (t.val - 1) (Nat.lt_of_le_of_lt (Nat.sub_le _ _) t.isLt))).trans
    (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (notFirst_of_pos t h0) (last_of t h2) (iblk1 V c 0 t) (iblk1 V c 1 t) (iblk1 V c 2 t) (iblk1 V c 3 t) (iblk1 V c 4 t) (iblk1 V c 5 t) (iblk1 V c 6 t) (iblk1 V c 7 t) (iblk1 V c 8 t) (scrAt1 V c (t.val - 1) (Nat.lt_of_le_of_lt (Nat.sub_le _ _) t.isLt))).symm

/-- At point 24 the output's buffer holds the accumulator's final contents. -/
theorem outAt1_last (c : Dev nD) (h : 24 < cfg1.N) : outAt1 V c 24 h = scrAt1 V c 24 h :=
  outAt1_eq_scrAt1 V c ⟨24, h⟩ (Nat.succ_ne_zero 23) rfl

end Cert.Kernel.Hand

end
-- ==== Proof.K.Run.lean ====
/-
  The whole run of the host program with its two kernel regions. The buffer contents between items are a fold
  from the launch memory: a stretch of host operations applies them; a region replaces its output array by what
  its grid points' write-backs leave and keeps everything else. Chaining the host stretches and the two regions
  gives: every weakly fair execution terminates, and at the end EVERY unscoped buffer holds the fold's last
  contents. Read at an argument array this is "unchanged" (no item writes an argument); read at the result it is
  the value of the program.
-/
import proofs.«103519_j18056042512980_1_alg».proof.Proof.Gen.Kernel.Launch
import proofs.«103519_j18056042512980_1_alg».proof.Proof.Gen.Kernel.Skeleton
import proofs.«103519_j18056042512980_1_alg».proof.Proof.Gen.Kernel.Points
import proofs.«103519_j18056042512980_1_alg».proof.Proof.Gen.Kernel.Regions
import proofs.«103519_j18056042512980_1_alg».proof.Proof.K.Segs
import proofs.«103519_j18056042512980_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The first region's output array after its last grid point, from the contents it was entered at. -/
def hOut (c : Dev nD) : Buf (Elt F) ((c : Thread nD τ).loc main_v21) := (dat0 (atTc (V2 m)) c).arrAt 2 cfg0.N

/-- The regions' unknowns with only the first one filled in: enough to state what the second region is entered at. -/
def outsA : Outs (F := F) := fun _ r c => if h : r = main_v21 then h ▸ hOut m c else m ((c : Thread nD τ).loc r)

/-- What the second region's body leaves in its staging buffers, and its invariant between points, from the contents
    it is entered at. -/
abbrev aftH (c : Dev nD) := (dat1 (atTc (V6 m (outsA m))) c).after
abbrev invH (c : Dev nD) := (dat1 (atTc (V6 m (outsA m))) c).Φ

/-- The second region's output array after its last grid point. -/
def sOut (c : Dev nD) : Buf (Elt F) ((c : Thread nD τ).loc main_v77) := (D1 (V6 m (outsA m)) (aftH m) (invH m) c).arrAt 9 cfg1.N

/-- Both filled in. -/
def outsH : Outs (F := F) := fun J r c => if J = 7 then (if h : r = main_v77 then h ▸ sOut m c else m ((c : Thread nD τ).loc r)) else outsA m J r c

theorem outsH_three (c : Dev nD) : outsH m 3 main_v21 c = hOut m c := by
  unfold outsH outsA; rw [if_neg (by decide), dif_pos rfl]
theorem outsA_three (c : Dev nD) : outsA m 3 main_v21 c = hOut m c := by
  unfold outsA; rw [dif_pos rfl]
theorem outsH_seven (c : Dev nD) : outsH m 7 main_v77 c = sOut m c := by
  unfold outsH; rw [if_pos rfl, dif_pos rfl]

/-- Up to the second region's entry the two agree. -/
theorem V3_outs (c : Dev nD) : V3 m (outsH m) c = V3 m (outsA m) c := by
  unfold V3; rw [outsH_three, outsA_three]
theorem V6_outs (c : Dev nD) : V6 m (outsH m) c = V6 m (outsA m) c := by
  unfold V6 V5 V4; rw [V3_outs]

/-! ## The regions' records at the fold's contents -/

/-- The second region's proof data, at the contents it is entered at: the data its body obligation was proved over. -/
theorem D1_eq (c : Dev nD) : D1 (V6 m (outsA m)) (aftH m) (invH m) c = dat1 (atTc (V6 m (outsA m))) c := rfl

theorem V3_at_out (c : Dev nD) : atTc (V3 m (outsH m)) c main_v21 = (dat0 (atTc (V2 m)) c).arrAt 2 cfg0.N := by
  show Function.update (V2 m c) (Proc.devRef .tc main_v21) (outsH m 3 main_v21 c) (Proc.devRef .tc main_v21) = _
  rw [Function.update_self, outsH_three]; rfl

theorem V7_at_out (c : Dev nD) : atTc (V7 m (outsH m)) c main_v77 = (D1 (V6 m (outsA m)) (aftH m) (invH m) c).arrAt 9 cfg1.N := by
  show Function.update (V6 m (outsH m) c) (Proc.devRef .tc main_v77) (outsH m 7 main_v77 c) (Proc.devRef .tc main_v77) = _
  rw [Function.update_self, outsH_seven]; rfl

/-- Region 0 from the contents after the first two host stretches to the same with `h` written. -/
def rec0 := reg0 (V2 m) (V3 m (outsH m)) (V6 m (outsA m)) (aftH m) (invH m) (V3_at_out m)
  (fun c b hb => V3_of m (outsH m) c b (by simpa using hb))

/-- Region 1 from the contents after the middle host stretches to the same with the scalar written. -/
def rec1 := reg1 (V2 m) (V6 m (outsA m)) (V7 m (outsH m)) (aftH m) (invH m)
  (fun c => body_obligation1 (atTc (V6 m (outsA m))) c)
  (fun c => hin1 (atTc (V6 m (outsA m))) c) (fun c => hout1 (atTc (V6 m (outsA m))) c)
  (V7_at_out m)
  (fun c b hb => (V7_of m (outsH m) c b (by simpa using hb)).trans (congrFun (V6_outs m c) (Proc.devRef .tc b)))

/-! ## The run -/

set_option backward.isDefEq.respectTransparency.types false in
/-- Every weakly fair execution of the host program terminates, and at the end every unscoped buffer of every core
    holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outsH m) c b) := by
  refine Pipeline.θ_run_regions_kit_dev (pcfgs (F := F)) adm (pdatsG (V2 m) (V6 m (outsA m)) (aftH m) (invH m)) () cellOf_inj emb₁ defs₀ Variants.none Lh lvh m ρ main
    (segs m (outsH m) Variants.none Lh lvh (fun _ c => Rr c) () (pdatsG (V2 m) (V6 m (outsA m)) (aftH m) (invH m)) (rec0 m) (rec1 m))
    (fun c Q => by
      rewrite [main_chain c, Pipeline.Seg.run_eq_chain,
        show (segs m (outsH m) Variants.none Lh lvh (fun _ c => Rr c) () (pdatsG (V2 m) (V6 m (outsA m)) (aftH m) (invH m)) (rec0 m) (rec1 m) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V8 m (outsH m) c) ∗ ∃ r, prngReg c r))
    (hch := fun c => ⟨.rfl, .rfl, .rfl, .rfl, .rfl, .rfl,
      (show iprop(StableHlo.held (c : Thread nD τ) (Pipeline.ucRefs τ sig) (V6 m (outsH m) c) ∗ Rr c)
          ⊢ iprop(StableHlo.held (c : Thread nD τ) (Pipeline.ucRefs τ sig) (V6 m (outsA m) c) ∗ Rr c) from by
        rw [V6_outs]),
      .rfl,
      (show iprop(StableHlo.held (c : Thread nD τ) (Pipeline.ucRefs τ sig) (V8 m (outsH m) c) ∗ Rr c)
          ⊢ iprop((StableHlo.held (c : Thread nD τ) (Pipeline.ucRefs τ sig) (V8 m (outsH m) c) ∗ ∃ r, prngReg c r)
              ∗ ∃ W, owes (c : Thread nD τ) (0 : CellTallies nD τ sig Unit) W) from by
        iintro ⟨Hh, Hp, Ho⟩
        isplitl [Hh Hp]
        · isplitl [Hh] <;> iassumption
        iexact Ho)⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m (outsH m) c b)
    (hfin := fun c s' => by
      iintro ⟨⟨Hh, -⟩, HSI⟩
      unfold StableHlo.held
      imodintro
      iapply (pointsTo_read_all (Pipeline.ucRefs τ sig) (fun b => (((c : Thread nD τ)).1, b)) (V8 m (outsH m) c) s')
      isplitl [Hh] <;> iassumption)
    (hQ := fun s h c => h c)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the run ends with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (V8_main_arg0 m (outsH m) c),
    (h c _ (mem_uc main_arg1 (by decide))).trans (V8_main_arg1 m (outsH m) c),
    (h c _ (mem_uc main_arg2 (by decide))).trans (V8_main_arg2 m (outsH m) c),
    (h c _ (mem_uc main_arg3 (by decide))).trans (V8_main_arg3 m (outsH m) c),
    (h c _ (mem_uc main_arg4 (by decide))).trans (V8_main_arg4 m (outsH m) c),
    (h c _ (mem_uc main_arg5 (by decide))).trans (V8_main_arg5 m (outsH m) c),
    (h c _ (mem_uc main_arg6 (by decide))).trans (V8_main_arg6 m (outsH m) c),
    (h c _ (mem_uc main_arg7 (by decide))).trans (V8_main_arg7 m (outsH m) c),
    (h c _ (mem_uc main_arg8 (by decide))).trans (V8_main_arg8 m (outsH m) c),
    (h c _ (mem_uc main_arg9 (by decide))).trans (V8_main_arg9 m (outsH m) c),
    (h c _ (mem_uc main_arg10 (by decide))).trans (V8_main_arg10 m (outsH m) c)⟩) (run_all m ρ)

end Cert.Kernel.Hand

end
-- ==== Proof.KI.R0.lean ====
/-
  The first kernel region: the dense layer `h = xin · W` of the graph convolution, computed tile by tile.
  The pipeline walks 25 grid points; at point `t` it stages rows `2000·t … 2000·t + 1999` of the node-feature
  matrix `xin` (50000 × 2), the whole weight matrix `W` (2 × 128), runs the body, and writes the body's
  2000 × 128 result back as rows `2000·t …` of `h`. The body loads both staged blocks and stores their matrix
  product over the whole output block; nothing else is touched. This module states, at any float instance and
  for any contents `V` of the buffers when the region is entered, what each staging buffer holds around the body
  and that the body meets the pipeline's obligation at every point.
-/
import proofs.«103519_j18056042512980_1_alg».proof.Proof.Gen.KernelIdeal.Launch
import proofs.«103519_j18056042512980_1_alg».proof.Proof.Gen.KernelIdeal.Skeleton
import proofs.«103519_j18056042512980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the staged arrays -/

/-- The block of window `w`'s array that grid point `t` stages, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Whatever proof data has `V`'s array behind the row-block window and leaves that window's buffer as staged:
    the body finds the point's row block in it, whether or not a fetch happened at that very point. -/
theorem xin_block_found {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window, whose one block is the whole matrix at every point. -/
theorem weight_block_found {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The whole 2000 × 128 output block, as a rectangle. -/
abbrev hRect : Rect S2000x128 := Rect.unit (s := S2000x128) ![0, 0] S2000x128.size inb_S2000x128_S2000x128_0_0
abbrev xinRect : Rect S2000x2 := Rect.unit (s := S2000x2) ![0, 0] S2000x2.size inb_S2000x2_S2000x2_0_0
abbrev wRect : Rect S2x128 := Rect.unit (s := S2x128) ![0, 0] S2x128.size inb_S2x128_S2x128_0_0

/-- What the body leaves in the output block's buffer: the product of the two staged blocks, stored over the
    whole block. -/
def hBlock (x : Vec F S2000x2 .f32) (w : Vec F S2x128 .f32) : Vec F S2000x128 .f32 :=
  View.canon [⟨hRect, k0_pay1 (View.ld x xinRect) (View.ld w wRect)⟩]

/-- The one store covers the output block. -/
theorem hBlock_cover (p0 : Vec F S2000x128 .f32) (y : S2000x128.Idx) :
    ∃ pc ∈ ([⟨hRect, p0⟩] : List (View.Piece (Elt F) S2000x128 .f32)), y ∈ pc.1.set :=
  View.cover_of_tiled [⟨hRect, p0⟩] S2000x128.size (by rfl) y

set_option maxHeartbeats 1000000 in
/-- The body on whole staging buffers: the two inputs are read and handed back unchanged, the output buffer ends
    holding `hBlock` of them. -/
theorem sound_kernel0 (c : Dev nD) (E : Set ℕ) (i : grid0.Coords) (arg1 : Memref sig .tc .vmem S2000x2 .f32) (harg1 : arg1.IsWhole)
    (arg2 : Memref sig .tc .vmem S2x128 .f32) (harg2 : arg2.IsWhole) (arg3 : Memref sig .tc .vmem S2000x128 .f32) (harg3 : arg3.IsWhole)
    (x : Vec F S2000x2 .f32) (w : Vec F S2x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (hBlock x w)) -∗ K ⟨⟩))
      ⊢ wp frame (wpE (defs₀ (F := F)) Variants.none c none) E (cc0__gcn_linear_kernel i arg1 harg1 arg2 harg2 arg3 harg3) K := by
  simp only [cc0__gcn_linear_kernel_eq_skeleton]; unfold cc0__gcn_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (hBlock_cover _)

/-! ## The proof data of the region -/

/-- Arrays as the region finds them; after the body at point `t` each input buffer still holds its block and the
    output buffer the product of the two blocks; the scoped rest and the generator register ride along untouched;
    nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hBlock (iblk0 V c 0 t) (iblk0 V c 1 t) := by dsimp only [dat0]

theorem before0_0 (c : Dev nD) (t : Fin cfg0.N) (d) : (dat0 V c).before 0 t d = iblk0 V c 0 t :=
  xin_block_found V (dat0 V c) (A_eq0 V c 0) (after0_0 V c) t d
theorem before0_1 (c : Dev nD) (t : Fin cfg0.N) (d) : (dat0 V c).before 1 t d = iblk0 V c 1 t :=
  weight_block_found V (dat0 V c) (A_eq0 V c 1) (after0_1 V c) t d

/-! ## The obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Segs.lean ====
/-
  The two kernel regions as segments of the host program's run. Between two items of the host program a core
  holds every unscoped buffer at known contents, its generator register at some state, and owes no transfer.
  A region takes its windows' arrays out of that state, runs its pipeline, and puts the arrays back: the input
  arrays as found, the output array at what the write-backs of all grid points leave. The contents on entry
  (`We`) and on exit (`Wx`) are parameters, tied only by "the output array holds the folded write-backs and
  every other buffer is as it was". The second region's after-contents and invariant are parameters too, with the three facts
  the record needs (the body obligation, and the two ends of the invariant).
-/
import proofs.«103519_j18056042512980_1_alg».proof.Proof.Gen.KernelIdeal.Launch
import proofs.«103519_j18056042512980_1_alg».proof.Proof.Gen.KernelIdeal.Skeleton
import proofs.«103519_j18056042512980_1_alg».proof.Proof.Gen.KernelIdeal.Points
import proofs.«103519_j18056042512980_1_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What every segment shares -/

/-- No pallas_call here has a prefetched table. -/
abbrev admH : (p : Fin 2) → (pcfgs (F := F) p).Adm := fun p => (cfgs p).toPCfg_adm
/-- No core waits on another: no level is assigned. -/
abbrev Lh : GSem nD τ sig → Finset Unit := fun _ => ∅
abbrev lvh : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

variable (We0 Wx0 We1 Wx1 : Dev nD → Valuation τ sig (Elt F))

/-- Contents read at the TensorCore's own references. -/
abbrev atTc (W : Dev nD → Valuation τ sig (Elt F)) : (c : Dev nD) → (b : Ref sig .tc) → Buf (Elt F) ((c : Thread nD τ).loc b) := fun c b => W c b

-- What the second region's body leaves in each window's staging buffer at each point, and the region's invariant
-- between points: the two things its proof data is built from.
variable (aft1 : (c : Dev nD) → (w : Fin cfg1.W) → (t : Fin cfg1.N) → (cfg1.win w).block.Idx → Elt F (cfg1.win w).elt)
  (inv1 : (c : Dev nD) → Fin (cfg1.N + 1) → sProp (MT nD τ sig Unit (Elt F) ℕ (UR sig nD τ) ℕ))

/-- The second region's proof data: arrays as found at `We1`, the given after-contents and invariant, nothing owed,
    whole shares. -/
def D1 (c : Dev nD) : Dat τ (Elt F) Unit ℕ (UR sig nD τ) ℕ cfg1 c where
  A w := atTc We1 c (Pipeline.arrRef spec1 w)
  after w t := aft1 c w t
  Φ t := inv1 c t
  q _ := fullShare
  owed _ := 0

/-- Both pipelines' proof data: the first region's at its entry contents, the second's as given. -/
def pdatsG : (p : Fin 2) → (c : Dev nD) → Dat τ (Elt F) Unit ℕ (UR sig nD τ) ℕ (Pipeline.pin (pcfgs (F := F)) admH p) c
  | ⟨0, _⟩ => fun c => dat0 (atTc We0) c
  | ⟨1, _⟩ => fun c => D1 We1 aft1 inv1 c

/-! ## The first region -/

set_option backward.isDefEq.respectTransparency.types false in
/-- Region 0 between "every unscoped buffer at `We0`" and "every unscoped buffer at `Wx0`". -/
def reg0 (hout : ∀ c, atTc Wx0 c main_v21 = (dat0 (atTc We0) c).arrAt 2 cfg0.N)
    (hne : ∀ c (b : Ref sig .tc), b ≠ main_v21 → atTc Wx0 c b = atTc We0 c b) :
    Pipeline.RegionSeg (pcfgs (F := F)) admH (pdatsG We0 We1 aft1 inv1) () defs₀ Variants.none Lh lvh 0 where
  win := launch0.win.to₀
  block_pos := launch0.block_pos
  stage_whole := launch0.stage_whole
  K := PEmpty
  osem k := k.elim
  ho := Pipeline.OwnSemFacts.none _
  hbody c := (body_obligation0 (atTc We0) c).loose
  hwaits := Pipeline.hwaits_of_owed_zero _ _ _ _ Lh lvh 0 fun _ _ => rfl
  pre c := iprop(StableHlo.held (c : Thread nD τ) (Pipeline.ucRefs τ sig) (We0 c) ∗ Rr c)
  post c := iprop(StableHlo.held (c : Thread nD τ) (Pipeline.ucRefs τ sig) (Wx0 c) ∗ Rr c)
  X c := iprop(∃ r, prngReg c r)
  Y c := iprop(∃ r, prngReg c r)
  Z c := Pipeline.unscopedRest (Ix := Unit) (Name := ℕ) (U := UR sig nD τ) (Lvl := ℕ) spec0 c (atTc We0 c)
  hentry c := by
    rw [Pipeline.ownSems0_none]
    have hsplit := Pipeline.arrays_of_unscopedBufs (p := 0) (pcfgs (F := F)) admH (pdatsG We0 We1 aft1 inv1) launch0.win launch0.arr_whole c
      ((pdatsG We0 We1 aft1 inv1 0 c).share_full fun _ => rfl) (atTc We0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG We0 We1 aft1 inv1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsG We0 We1 aft1 inv1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsG We0 We1 aft1 inv1) ((pdatsG We0 We1 aft1 inv1 0 c).share_full fun _ => rfl)
      (atTc We0 c) (atTc Wx0 c) ((pdatsG We0 We1 aft1 inv1 0 c).arrAt · cfg0.N)
      (fun w => by
        fin_cases w
        · exact ((pdatsG We0 We1 aft1 inv1 0 c).arrAt_in 0 rfl _).trans (hne c main_v9 (by decide)).symm
        · exact ((pdatsG We0 We1 aft1 inv1 0 c).arrAt_in 1 rfl _).trans (hne c main_arg2 (by decide)).symm
        · exact (hout c).symm)
      (fun b hb => hne c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

set_option maxHeartbeats 2000000 in
set_option backward.isDefEq.respectTransparency.types false in
/-- Region 1 between "every unscoped buffer at `We1`" and "every unscoped buffer at `Wx1`", given that the body meets its
    obligation over that proof data and that the invariant starts from and ends in
    "the scoped rest at anything, the generator register at some state". -/
def reg1 (hbody : ∀ c, BodyObligation (D1 We1 aft1 inv1 c) (defs₀ (F := F)) Variants.none () Set.univ)
    (hΦin : ∀ c, Pipeline.ΦA spec1 c ⊢ inv1 c 0) (hΦout : ∀ c, inv1 c (Fin.last cfg1.N) ⊢ Pipeline.ΦA spec1 c)
    (hout : ∀ c, atTc Wx1 c main_v77 = (D1 We1 aft1 inv1 c).arrAt 9 cfg1.N)
    (hne : ∀ c (b : Ref sig .tc), b ≠ main_v77 → atTc Wx1 c b = atTc We1 c b) :
    Pipeline.RegionSeg (pcfgs (F := F)) admH (pdatsG We0 We1 aft1 inv1) () defs₀ Variants.none Lh lvh 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ Lh lvh 1 fun _ _ => rfl
  pre c := iprop(StableHlo.held (c : Thread nD τ) (Pipeline.ucRefs τ sig) (We1 c) ∗ Rr c)
  post c := iprop(StableHlo.held (c : Thread nD τ) (Pipeline.ucRefs τ sig) (Wx1 c) ∗ Rr c)
  X c := iprop(∃ r, prngReg c r)
  Y c := iprop(∃ r, prngReg c r)
  Z c := Pipeline.unscopedRest (Ix := Unit) (Name := ℕ) (U := UR sig nD τ) (Lvl := ℕ) spec1 c (atTc We1 c)
  hentry c := by
    rw [Pipeline.ownSems0_none]
    have hsplit := Pipeline.arrays_of_unscopedBufs (p := 1) (pcfgs (F := F)) admH (pdatsG We0 We1 aft1 inv1) launch1.win launch1.arr_whole c
      ((pdatsG We0 We1 aft1 inv1 1 c).share_full fun _ => rfl) (atTc We1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG We0 We1 aft1 inv1 1 c).Φ 0 = inv1 c 0 from rfl]
    refine .trans ?_ (hΦin c)
    unfold Pipeline.ΦA
    iintro ⟨Hp, -, Hr⟩
    isplitl [Hr]; · iexact Hr
    iexact Hp
  hout c := by
    rw [Pipeline.ownSems0_none, show (pdatsG We0 We1 aft1 inv1 1 c).Φ (Fin.last _) = inv1 c (Fin.last cfg1.N) from rfl]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsG We0 We1 aft1 inv1) ((pdatsG We0 We1 aft1 inv1 1 c).share_full fun _ => rfl)
      (atTc We1 c) (atTc Wx1 c) ((pdatsG We0 We1 aft1 inv1 1 c).arrAt · cfg1.N)
      (fun w => by
        fin_cases w
        · exact ((pdatsG We0 We1 aft1 inv1 1 c).arrAt_in 0 rfl _).trans (hne c main_v72 (by decide)).symm
        · exact ((pdatsG We0 We1 aft1 inv1 1 c).arrAt_in 1 rfl _).trans (hne c main_v73 (by decide)).symm
        · exact ((pdatsG We0 We1 aft1 inv1 1 c).arrAt_in 2 rfl _).trans (hne c main_arg4 (by decide)).symm
        · exact ((pdatsG We0 We1 aft1 inv1 1 c).arrAt_in 3 rfl _).trans (hne c main_v74 (by decide)).symm
        · exact ((pdatsG We0 We1 aft1 inv1 1 c).arrAt_in 4 rfl _).trans (hne c main_arg6 (by decide)).symm
        · exact ((pdatsG We0 We1 aft1 inv1 1 c).arrAt_in 5 rfl _).trans (hne c main_arg7 (by decide)).symm
        · exact ((pdatsG We0 We1 aft1 inv1 1 c).arrAt_in 6 rfl _).trans (hne c main_v75 (by decide)).symm
        · exact ((pdatsG We0 We1 aft1 inv1 1 c).arrAt_in 7 rfl _).trans (hne c main_arg9 (by decide)).symm
        · exact ((pdatsG We0 We1 aft1 inv1 1 c).arrAt_in 8 rfl _).trans (hne c main_v76 (by decide)).symm
        · exact (hout c).symm)
      (fun b hb => hne c b fun h => hb (h ▸ Finset.mem_image.mpr ⟨9, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R1a.lean ====
import proofs.«103519_j18056042512980_1_alg».proof.Proof.Gen.KernelIdeal.Launch
import proofs.«103519_j18056042512980_1_alg».proof.Proof.Gen.KernelIdeal.Skeleton
import proofs.«103519_j18056042512980_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the second pipeline), at the buffer contents `V` found at its entry: what its run shares -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's current staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid coordinate, in closed form -/

/-- The first conditional's condition (zero the accumulator): the coordinate is 0. -/
abbrev condFirst (i : grid1.Coords) : Prop := (Scalar.cmpi .ne (Scalar.extui (Scalar.cmpi .eq (BitVec.ofNat 32 (i 0).val) 0#32)) 0#32) = 1#1
theorem hcondFirst : ∀ t : Fin cfg1.N, condFirst (grid1.coords t) ↔ t.val % 25 = 0 :=
  (by decide +kernel : ∀ t : Fin grid1.N, condFirst (grid1.coords t) ↔ t.val % 25 = 0)

/-- The second conditional's condition (copy the accumulator out): the coordinate is 24. -/
abbrev condLast (i : grid1.Coords) : Prop := k1_cond2 i = 1#1
theorem hcondLast : ∀ t : Fin cfg1.N, condLast (grid1.coords t) ↔ t.val % 25 = 24 :=
  (by decide +kernel : ∀ t : Fin grid1.N, condLast (grid1.coords t) ↔ t.val % 25 = 24)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
/-- Away from the last point the output window is idle and is not written back. -/
theorem idleAt1_9 : ∀ t : Fin cfg1.N, ¬condLast (grid1.coords t) → cfg1.idle 9 (grid1.coords t) = true := by decide +kernel
theorem noFlush1_9 : ∀ t : Fin cfg1.N, ¬condLast (grid1.coords t) → (cfg1.win 9).flush t = false := by decide +kernel
/-- At the last point it is live. -/
theorem liveAt1_9 : ∀ t : Fin cfg1.N, condLast (grid1.coords t) → cfg1.idle 9 (grid1.coords t) = false := by decide +kernel

/-! ## The memrefs the body is called with -/
abbrev ms1_0 (t : Fin cfg1.N) : Memref sig .tc .vmem S2000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
/-- The accumulator: a whole scoped buffer of the kernel's own, carried from point to point. -/
abbrev scM1 : Memref sig .tc .vmem S1x1 .f32 := Memref.whole cc1_scratch0
abbrev VS1 : View sig .tc .vmem S1x1 .f32 := scM1.view
/-- The output window's one staging buffer, through which its contents are stated. -/
abbrev VO1 : View sig .tc .vmem S1x1 .f32 := (Memref.whole cc1_stg9_0 : Memref sig .tc .vmem S1x1 .f32).view

/-! ## The region invariant with the accumulator singled out -/

/-- The core's scoped buffers that are no staging buffer of this region, the accumulator's place taken by `X`. -/
def restS (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

theorem PhiA1_eq (c : Dev nD) :
    (Pipeline.ΦA spec1 c : sProp 𝕄)
      = iprop(restS (F := F) c (iprop(∃ d, owns (c : Thread nD τ) scM1 fullShare d)) ∗ (∃ r, prngReg c r)) := by
  unfold Pipeline.ΦA restS; rw [scopedRest1_eq]; simp only [scM1, owns_whole]; try rfl

end Cert.KernelIdeal.Hand

end
-- ==== Proof.KI.R1r.lean ====
import proofs.«103519_j18056042512980_1_alg».proof.Proof.KI.R1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body run whole, in each of its three control cases -/

set_option maxHeartbeats 4000000 in
/-- The body at the first point (the accumulator is zeroed first; nothing is copied out): on whole memrefs, the inputs' at their contents, it runs to
    the inputs as they were, the accumulator with the pieces `LS0` written, the output's buffer untouched; the pieces (last store first)
    are what the run finds. -/
noncomputable def kernelRun1_A (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__sage_mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__sage_mlp_kernel_eq_skeleton]; unfold cc1__sage_mlp_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

set_option maxHeartbeats 4000000 in
/-- The body at a middle point (the accumulator is neither zeroed nor copied out): on whole memrefs, the inputs' at their contents, it runs to
    the inputs as they were, the accumulator with the pieces `LS0` written, the output's buffer untouched; the pieces (last store first)
    are what the run finds. -/
noncomputable def kernelRun1_B (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__sage_mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__sage_mlp_kernel_eq_skeleton]; unfold cc1__sage_mlp_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

set_option maxHeartbeats 4000000 in
/-- The body at the last point (the accumulator is not zeroed; it is copied to the output at the end): on whole memrefs, the inputs' at their contents, it runs to
    the inputs as they were, the accumulator with the pieces `LS0` written and the output's buffer with the pieces `L9` written; the pieces (last store first)
    are what the run finds. -/
noncomputable def kernelRun1_C (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    Σ' (L9 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1__sage_mlp_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__sage_mlp_kernel_eq_skeleton]; unfold cc1__sage_mlp_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.KernelIdeal.Hand

end
-- ==== Proof.KI.R1.lean ====
import proofs.«103519_j18056042512980_1_alg».proof.Proof.KI.R1r
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the accumulator and the output hold point by point, the proof data, the body obligation -/

/-! ## What each case leaves in the accumulator (and, at the last point, in the output's buffer) -/

/-- The pieces case A writes into the accumulator cover it (one whole-buffer store). -/
theorem scover1_A (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8).2.1 S1x1.size (by sl_kernel_rfl) y

/-- What case A leaves in the accumulator: its pieces read back. -/
def sout1_A (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) : Vec F S1x1 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8).2.1)

/-- The pieces case B writes into the accumulator cover it (one whole-buffer store). -/
theorem scover1_B (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1 S1x1.size (by sl_kernel_rfl) y

/-- What case B leaves in the accumulator: its pieces read back. -/
def sout1_B (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) : Vec F S1x1 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1)

/-- The pieces case C writes into the accumulator cover it (one whole-buffer store). -/
theorem scover1_C (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1 S1x1.size (by sl_kernel_rfl) y

/-- What case C leaves in the accumulator: its pieces read back. -/
def sout1_C (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) : Vec F S1x1 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).2.1)

/-- The pieces the last case writes into the output's buffer cover it. -/
theorem cover1_C_9 (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).1 S1x1.size (by sl_kernel_rfl) y

/-- What the last case leaves in the output's buffer. -/
def out1_C_9 (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) : Vec F S1x1 .f32 :=
  VO1.read (Elt F) (VO1.writes (Elt F) VO1.junk (kernelRun1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0).1)

/-! ## The pieces found, as the payloads of the inputs' blocks and the accumulator's contents -/

/-- The zero offsets of a whole-buffer access, however spelt. -/
theorem hz11 : (![0, 0] : Fin 2 → Nat) = fun _ => 0 := funext fun a => by fin_cases a <;> rfl

/-- A middle point leaves in the accumulator its contents plus the block's partial sum. -/
theorem sout1_B_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    sout1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0 = k1_pay1 (k1_pay3 x7) (k1_pay4 x8) (k1_pay5 x0 x1 x2 x4 x3 x5 x6) (constant S2000x1 .f32 0x00000000#32) xs0 := by
  unfold sout1_B
  rw [View.read_writes_eq_canon _ _ _ (scover1_B c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0)]
  unfold kernelRun1_B
  dsimp only
  sl_unfold_words
  rw [View.canon_unit_zero (S := S1x1) hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-- So does the last point. -/
theorem sout1_C_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    sout1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0 = k1_pay1 (k1_pay3 x7) (k1_pay4 x8) (k1_pay5 x0 x1 x2 x4 x3 x5 x6) (constant S2000x1 .f32 0x00000000#32) xs0 := by
  unfold sout1_C
  rw [View.read_writes_eq_canon _ _ _ (scover1_C c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0)]
  unfold kernelRun1_C
  dsimp only
  sl_unfold_words
  rw [View.canon_unit_zero (S := S1x1) hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-- The first point zeroes the accumulator, reads the zero back and adds the block's partial sum to it. -/
theorem sout1_A_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : ¬condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) :
    sout1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 = k1_pay1 (k1_pay3 x7) (k1_pay4 x8) (k1_pay5 x0 x1 x2 x4 x3 x5 x6) (constant S2000x1 .f32 0x00000000#32) (k1_pay2 (F := F)) := by
  unfold sout1_A
  rw [View.read_writes_eq_canon _ _ _ (scover1_A c i arg1 harg1 arg2 harg2 arg3 harg3 arg4 harg4 arg5 harg5 arg6 harg6 arg7 harg7 arg8 harg8 arg9 harg9 arg10 harg10 arg11 harg11 hc1 hc2 x0 x1 x2 x3 x4 x5 x6 x7 x8)]
  unfold kernelRun1_A
  dsimp only
  sl_unfold_words
  rw [View.canon_cons_unit_zero (S := S1x1) hz11, View.readCov_unit_zero (S := S1x1) _ hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-- The last point copies the accumulator's new contents into the output's buffer. -/
theorem out1_C_9_eq (c : Dev nD) (i : grid1.Coords) (arg1 : Memref sig .tc .vmem S2000x128 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condLast i)
    (x0 : Vec F S2000x128 .bf16) (x1 : Vec F S2000x128 .bf16) (x2 : Vec F S128x128 .f32) (x3 : Vec F S1x128 .f32) (x4 : Vec F S128x128 .f32) (x5 : Vec F S128x64 .f32) (x6 : Vec F S1x64 .f32) (x7 : Vec F S64x1 .f32) (x8 : Vec F S1x1 .f32) (xs0 : Vec F S1x1 .f32) :
    out1_C_9 c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0 = k1_pay1 (k1_pay3 x7) (k1_pay4 x8) (k1_pay5 x0 x1 x2 x4 x3 x5 x6) (constant S2000x1 .f32 0x00000000#32) xs0 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 hc1 hc2 x0 x1 x2 x3 x4 x5 x6 x7 x8 xs0)]
  unfold kernelRun1_C
  dsimp only
  sl_unfold_words
  rw [View.canon_unit_zero (S := S1x1) hz11, View.readCov_unit_zero (S := S1x1) _ hz11]
  simp only [View.readAt_eq_ld, harg1.read_unread, harg2.read_unread, harg3.read_unread, harg4.read_unread, harg5.read_unread, harg6.read_unread, harg7.read_unread, harg8.read_unread, harg9.read_unread, harg11.read_unread, View.ld_unit_zero (S := S2000x128) hz11, View.ld_unit_zero (S := S128x128) hz11, View.ld_unit_zero (S := S1x128) hz11, View.ld_unit_zero (S := S128x64) hz11, View.ld_unit_zero (S := S1x64) hz11, View.ld_unit_zero (S := S64x1) hz11, View.ld_unit_zero (S := S1x1) hz11]

/-! ## The same at a grid point: the memrefs the pipeline passes there, the inputs' blocks there -/

def soutA_at (c : Dev nD) (t : Fin cfg1.N) (h1 : condFirst (grid1.coords t)) (h2 : ¬condLast (grid1.coords t)) : Vec F S1x1 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t)
def soutB_at (c : Dev nD) (t : Fin cfg1.N) (h1 : ¬condFirst (grid1.coords t)) (h2 : ¬condLast (grid1.coords t)) (xs : Vec F S1x1 .f32) : Vec F S1x1 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t) xs
def soutC_at (c : Dev nD) (t : Fin cfg1.N) (h1 : ¬condFirst (grid1.coords t)) (h2 : condLast (grid1.coords t)) (xs : Vec F S1x1 .f32) : Vec F S1x1 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t) xs
def outC_at (c : Dev nD) (t : Fin cfg1.N) (h1 : ¬condFirst (grid1.coords t)) (h2 : condLast (grid1.coords t)) (xs : Vec F S1x1 .f32) : Vec F S1x1 .f32 :=
  out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) h1 h2 (iblk1 V c 0 t) (iblk1 V c 1 t) (iblk1 V c 2 t) (iblk1 V c 3 t) (iblk1 V c 4 t) (iblk1 V c 5 t) (iblk1 V c 6 t) (iblk1 V c 7 t) (iblk1 V c 8 t) xs

/-- The grid has 25 points. -/
theorem lt25 (t : Fin cfg1.N) : t.val < 25 := lt_of_lt_of_eq t.isLt (show cfg1.N = 25 from N_1)
theorem first_of_zero (t : Fin cfg1.N) (h : t.val = 0) : condFirst (grid1.coords t) := (hcondFirst t).mpr (by rw [h])
theorem notFirst_of_pos (t : Fin cfg1.N) (h : t.val ≠ 0) : ¬condFirst (grid1.coords t) := fun hc => by
  have h1 := (hcondFirst t).mp hc; have hN := lt25 t; omega
theorem notLast_of_zero (t : Fin cfg1.N) (h : t.val = 0) : ¬condLast (grid1.coords t) := fun hc => by
  have h1 := (hcondLast t).mp hc; omega
theorem last_of (t : Fin cfg1.N) (h : t.val % 25 = 24) : condLast (grid1.coords t) := (hcondLast t).mpr h
theorem notLast_of (t : Fin cfg1.N) (h : ¬t.val % 25 = 24) : ¬condLast (grid1.coords t) := fun hc => h ((hcondLast t).mp hc)

/-! ## Point by point -/

/-- What the accumulator holds after the body at point `n`: at point 0 the first case's; afterwards the middle
    or the last case's over what the point before left. -/
def scrAt1 (c : Dev nD) : (n : ℕ) → n < cfg1.N → Vec F S1x1 .f32
  | 0, hn => soutA_at V c ⟨0, hn⟩ (first_of_zero ⟨0, hn⟩ rfl) (notLast_of_zero ⟨0, hn⟩ rfl)
  | n + 1, hn =>
    if h2 : (n + 1) % 25 = 24 then
      soutC_at V c ⟨n + 1, hn⟩ (notFirst_of_pos ⟨n + 1, hn⟩ (Nat.succ_ne_zero n)) (last_of ⟨n + 1, hn⟩ h2) (scrAt1 c n (Nat.lt_of_succ_lt hn))
    else
      soutB_at V c ⟨n + 1, hn⟩ (notFirst_of_pos ⟨n + 1, hn⟩ (Nat.succ_ne_zero n)) (notLast_of ⟨n + 1, hn⟩ h2) (scrAt1 c n (Nat.lt_of_succ_lt hn))

/-- What the output's staging buffer holds after the body at point `n`: at the last point what the body copies
    there; elsewhere the window is idle and the value is a placeholder nothing reads. -/
def outAt1 (c : Dev nD) : (n : ℕ) → n < cfg1.N → Vec F S1x1 .f32
  | 0, _ => VO1.read (Elt F) VO1.junk
  | n + 1, hn =>
    if h2 : (n + 1) % 25 = 24 then
      outC_at V c ⟨n + 1, hn⟩ (notFirst_of_pos ⟨n + 1, hn⟩ (Nat.succ_ne_zero n)) (last_of ⟨n + 1, hn⟩ h2) (scrAt1 V c n (Nat.lt_of_succ_lt hn))
    else
      VO1.read (Elt F) VO1.junk

theorem scrAt1_A (c : Dev nD) (t : Fin cfg1.N) (h0 : t.val = 0) :
    scrAt1 V c t.val t.isLt = soutA_at V c t (first_of_zero t h0) (notLast_of_zero t h0) := by
  obtain ⟨n, hn⟩ := t
  cases n with
  | zero => rfl
  | succ n => exact absurd h0 (Nat.succ_ne_zero n)

theorem scrAt1_B (c : Dev nD) (t : Fin cfg1.N) (h0 : t.val ≠ 0) (h2 : ¬t.val % 25 = 24) :
    scrAt1 V c t.val t.isLt = soutB_at V c t (notFirst_of_pos t h0) (notLast_of t h2) (scrAt1 V c (t.val - 1) (Nat.lt_of_le_of_lt (Nat.sub_le _ _) t.isLt)) := by
  obtain ⟨n, hn⟩ := t
  cases n with
  | zero => exact absurd rfl h0
  | succ n => exact (dif_neg h2).trans rfl

theorem scrAt1_C (c : Dev nD) (t : Fin cfg1.N) (h0 : t.val ≠ 0) (h2 : t.val % 25 = 24) :
    scrAt1 V c t.val t.isLt = soutC_at V c t (notFirst_of_pos t h0) (last_of t h2) (scrAt1 V c (t.val - 1) (Nat.lt_of_le_of_lt (Nat.sub_le _ _) t.isLt)) := by
  obtain ⟨n, hn⟩ := t
  cases n with
  | zero => exact absurd rfl h0
  | succ n => exact (dif_pos h2).trans rfl

theorem outAt1_C (c : Dev nD) (t : Fin cfg1.N) (h0 : t.val ≠ 0) (h2 : t.val % 25 = 24) :
    outAt1 V c t.val t.isLt = outC_at V c t (notFirst_of_pos t h0) (last_of t h2) (scrAt1 V c (t.val - 1) (Nat.lt_of_le_of_lt (Nat.sub_le _ _) t.isLt)) := by
  obtain ⟨n, hn⟩ := t
  cases n with
  | zero => exact absurd rfl h0
  | succ n => exact (dif_pos h2).trans rfl

/-! ## The invariant: the accumulator at what the point before left -/

def PhiS (c : Dev nD) : (n : ℕ) → n ≤ cfg1.N → sProp 𝕄
  | 0, _ => Pipeline.ΦA spec1 c
  | n + 1, hn => iprop(restS (F := F) c (owns (c : Thread nD τ) scM1 fullShare (scrAt1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restS (F := F) c (owns (c : Thread nD τ) scM1 fullShare (scrAt1 V c n hn)) ∗ (∃ r, prngReg c r)) := rfl

theorem PhiS_pos (c : Dev nD) (n : ℕ) (h : n ≤ cfg1.N) (hz : n ≠ 0) :
    PhiS V c n h = iprop(restS (F := F) c (owns (c : Thread nD τ) scM1 fullShare (scrAt1 V c (n - 1) (by omega))) ∗ (∃ r, prngReg c r)) := by
  cases n with
  | zero => exact absurd rfl hz
  | succ n => rfl

/-! ## The proof data -/

/-- The proof data of this pipeline on core `c`: the arrays as the region finds them; after the body each input's
    buffer at its block and the output's at `outAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => outAt1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = outAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
/-- The body at any point: the inputs' buffers hold their blocks; the point is the first, a middle or the last one;
    the invariant hands the body the accumulator (at anything at the first point, at what the point before left
    afterwards) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS V c (t.val + 1) t.isLt from rfl, PhiS_succ]
  have hN : t.val < 25 := lt25 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases hz : t.val = 0
  · have hl : ¬condLast (grid1.coords t) := notLast_of_zero t hz
    rw [Dat.leavesExact_idle (dat1 V c) 9 t (idleAt1_9 t hl) (noFlush1_9 t hl)]
    rw [scrAt1_A V c t hz]
    unfold soutA_at sout1_A; (try dsimp only)
    rw [PhiS_castSucc V c t, PhiS_zero V c _ _ hz, PhiA1_eq]; unfold restS
    iintro ⟨⟨⟨R0, R1, R2, R3, R4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ (first_of_zero t hz) hl (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, ⟨%es0, HS0⟩⟩
    isplitl [R0 R1 R2 R3 R4 HS0 Hg]
    · isplitl [R0 R1 R2 R3 R4 HS0]
      · isplitl [R0]; · iexact R0
        isplitl [R1]; · iexact R1
        isplitl [R2]; · iexact R2
        isplitl [R3]; · iexact R3
        isplitl [R4]; · iexact R4
        unfold owns; iexists _; isplitr
        swap; · iexact HS0
        ipureintro; exact View.read_writes_of_cover _ _ _ _ _ (scover1_A c _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h2 : t.val % 25 = 24
    · have hl : condLast (grid1.coords t) := last_of t h2
      rw [show (dat1 V c).leavesExact 9 t = owns (c : Thread nD τ) (ms1_9 t) fullShare ((dat1 V c).after 9 t) from by
        unfold Dat.leavesExact; rw [liveAt1_9 t hl], after1_9]
      rw [scrAt1_C V c t hz h2, outAt1_C V c t hz h2]
      unfold soutC_at outC_at sout1_C out1_C_9; (try dsimp only)
      rw [PhiS_castSucc V c t, PhiS_pos V c _ _ hz]; unfold restS
      iintro ⟨⟨⟨R0, R1, R2, R3, R4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ (notFirst_of_pos t hz) hl (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [R0 R1 R2 R3 R4 HS0 Hg]
      · isplitl [R0 R1 R2 R3 R4 HS0]
        · isplitl [R0]; · iexact R0
          isplitl [R1]; · iexact R1
          isplitl [R2]; · iexact R2
          isplitl [R3]; · iexact R3
          isplitl [R4]; · iexact R4
          unfold owns; iexists _; isplitr
          swap; · iexact HS0
          ipureintro; exact View.read_writes_of_cover _ _ _ _ _ (scover1_C c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _)
    · have hl : ¬condLast (grid1.coords t) := notLast_of t h2
      rw [Dat.leavesExact_idle (dat1 V c) 9 t (idleAt1_9 t hl) (noFlush1_9 t hl)]
      rw [scrAt1_B V c t hz h2]
      unfold soutB_at sout1_B; (try dsimp only)
      rw [PhiS_castSucc V c t, PhiS_pos V c _ _ hz]; unfold restS
      iintro ⟨⟨⟨R0, R1, R2, R3, R4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (notFirst_of_pos t hz) hl (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [R0 R1 R2 R3 R4 HS0 Hg]
      · isplitl [R0 R1 R2 R3 R4 HS0]
        · isplitl [R0]; · iexact R0
          isplitl [R1]; · iexact R1
          isplitl [R2]; · iexact R2
          isplitl [R3]; · iexact R3
          isplitl [R4]; · iexact R4
          unfold owns; iexists _; isplitr
          swap; · iexact HS0
          ipureintro; exact View.read_writes_of_cover _ _ _ _ _ (scover1_B c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold restS
  iintro ⟨⟨R0, R1, R2, R3, R4, HS0⟩, Hg⟩
  isplitl [R0 R1 R2 R3 R4 HS0]
  · isplitl [R0]; · iexact R0
    isplitl [R1]; · iexact R1
    isplitl [R2]; · iexact R2
    isplitl [R3]; · iexact R3
    isplitl [R4]; · iexact R4
    iexists _; iexact HS0
  iexact Hg

theorem hout1 (c : Dev nD) : (dat1 V c).Φ (Fin.last cfg1.N) ⊢ Pipeline.ΦA spec1 c :=
  Phi_out1 V c _ (by rw [Fin.val_last]; have : cfg1.N = 25 := N_1; omega)

/-! ## The value equations: the accumulator is a running sum of the blocks' partial sums, and the output is its last value -/

/-- After point 0 the accumulator holds zero plus the first block's partial sum. -/
theorem scrAt1_zero (c : Dev nD) (h0 : 0 < cfg1.N) :
    scrAt1 V c 0 h0 = k1_pay1 (k1_pay3 (iblk1 V c 7 ⟨0, h0⟩)) (k1_pay4 (iblk1 V c 8 ⟨0, h0⟩)) (k1_pay5 (iblk1 V c 0 ⟨0, h0⟩) (iblk1 V c 1 ⟨0, h0⟩) (iblk1 V c 2 ⟨0, h0⟩) (iblk1 V c 4 ⟨0, h0⟩) (iblk1 V c 3 ⟨0, h0⟩) (iblk1 V c 5 ⟨0, h0⟩) (iblk1 V c 6 ⟨0, h0⟩)) (constant S2000x1 .f32 0x00000000#32) (k1_pay2 (F := F)) :=
  (show scrAt1 V c 0 h0 = soutA_at V c ⟨0, h0⟩ (first_of_zero ⟨0, h0⟩ rfl) (notLast_of_zero ⟨0, h0⟩ rfl) from rfl).trans
    (sout1_A_eq c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩) (ms1_3 ⟨0, h0⟩) (hs1_3 ⟨0, h0⟩) (ms1_4 ⟨0, h0⟩) (hs1_4 ⟨0, h0⟩) (ms1_5 ⟨0, h0⟩) (hs1_5 ⟨0, h0⟩) (ms1_6 ⟨0, h0⟩) (hs1_6 ⟨0, h0⟩) (ms1_7 ⟨0, h0⟩) (hs1_7 ⟨0, h0⟩) (ms1_8 ⟨0, h0⟩) (hs1_8 ⟨0, h0⟩) (ms1_9 ⟨0, h0⟩) (hs1_9 ⟨0, h0⟩) scM1 (Memref.isWhole_whole _) (first_of_zero ⟨0, h0⟩ rfl) (notLast_of_zero ⟨0, h0⟩ rfl) (iblk1 V c 0 ⟨0, h0⟩) (iblk1 V c 1 ⟨0, h0⟩) (iblk1 V c 2 ⟨0, h0⟩) (iblk1 V c 3 ⟨0, h0⟩) (iblk1 V c 4 ⟨0, h0⟩) (iblk1 V c 5 ⟨0, h0⟩) (iblk1 V c 6 ⟨0, h0⟩) (iblk1 V c 7 ⟨0, h0⟩) (iblk1 V c 8 ⟨0, h0⟩))

/-- After point `n + 1` it holds what point `n` left plus that block's partial sum. -/
theorem scrAt1_succ (c : Dev nD) (n : ℕ) (hn : n + 1 < cfg1.N) :
    scrAt1 V c (n + 1) hn = k1_pay1 (k1_pay3 (iblk1 V c 7 ⟨n + 1, hn⟩)) (k1_pay4 (iblk1 V c 8 ⟨n + 1, hn⟩)) (k1_pay5 (iblk1 V c 0 ⟨n + 1, hn⟩) (iblk1 V c 1 ⟨n + 1, hn⟩) (iblk1 V c 2 ⟨n + 1, hn⟩) (iblk1 V c 4 ⟨n + 1, hn⟩) (iblk1 V c 3 ⟨n + 1, hn⟩) (iblk1 V c 5 ⟨n + 1, hn⟩) (iblk1 V c 6 ⟨n + 1, hn⟩)) (constant S2000x1 .f32 0x00000000#32) (scrAt1 V c n (Nat.lt_of_succ_lt hn)) := by
  by_cases h2 : (n + 1) % 25 = 24
  · exact (dif_pos h2).trans
      (sout1_C_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (notFirst_of_pos ⟨n + 1, hn⟩ (Nat.succ_ne_zero n)) (last_of ⟨n + 1, hn⟩ h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (scrAt1 V c n (Nat.lt_of_succ_lt hn)))
  · exact (dif_neg h2).trans
      (sout1_B_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (notFirst_of_pos ⟨n + 1, hn⟩ (Nat.succ_ne_zero n)) (notLast_of ⟨n + 1, hn⟩ h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (scrAt1 V c n (Nat.lt_of_succ_lt hn)))

/-- At a last point the output's buffer receives the accumulator's new contents. -/
theorem outAt1_eq_scrAt1 (c : Dev nD) (t : Fin cfg1.N) (h0 : t.val ≠ 0) (h2 : t.val % 25 = 24) :
    outAt1 V c t.val t.isLt = scrAt1 V c t.val t.isLt := by
  rw [outAt1_C V c t h0 h2, scrAt1_C V c t h0 h2]
  unfold outC_at soutC_at
  exact (out1_C_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (notFirst_of_pos t h0) (last_of t h2) (iblk1 V c 0 t) (iblk1 V c 1 t) (iblk1 V c 2 t) (iblk1 V c 3 t) (iblk1 V c 4 t) (iblk1 V c 5 t) (iblk1 V c 6 t) (iblk1 V c 7 t) (iblk1 V c 8 t) (scrAt1 V c (t.val - 1) (Nat.lt_of_le_of_lt (Nat.sub_le _ _) t.isLt))).trans
    (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (notFirst_of_pos t h0) (last_of t h2) (iblk1 V c 0 t) (iblk1 V c 1 t) (iblk1 V c 2 t) (iblk1 V c 3 t) (iblk1 V c 4 t) (iblk1 V c 5 t) (iblk1 V c 6 t) (iblk1 V c 7 t) (iblk1 V c 8 t) (scrAt1 V c (t.val - 1) (Nat.lt_of_le_of_lt (Nat.sub_le _ _) t.isLt))).symm

/-- At point 24 the output's buffer holds the accumulator's final contents. -/
theorem outAt1_last (c : Dev nD) (h : 24 < cfg1.N) : outAt1 V c 24 h = scrAt1 V c 24 h :=
  outAt1_eq_scrAt1 V c ⟨24, h⟩ (Nat.succ_ne_zero 23) rfl

end Cert.KernelIdeal.Hand

end
-- ==== Proof.KI.Run.lean ====
/-
  The whole run of the host program with its two kernel regions. The buffer contents between items are a fold
  from the launch memory: a stretch of host operations applies them; a region replaces its output array by what
  its grid points' write-backs leave and keeps everything else. Chaining the host stretches and the two regions
  gives: every weakly fair execution terminates, and at the end EVERY unscoped buffer holds the fold's last
  contents. Read at an argument array this is "unchanged" (no item writes an argument); read at the result it is
  the value of the program.
-/
import proofs.«103519_j18056042512980_1_alg».proof.Proof.Gen.KernelIdeal.Launch
import proofs.«103519_j18056042512980_1_alg».proof.Proof.Gen.KernelIdeal.Skeleton
import proofs.«103519_j18056042512980_1_alg».proof.Proof.Gen.KernelIdeal.Points
import proofs.«103519_j18056042512980_1_alg».proof.Proof.Gen.KernelIdeal.Regions
import proofs.«103519_j18056042512980_1_alg».proof.Proof.KI.Segs
import proofs.«103519_j18056042512980_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The first region's output array after its last grid point, from the contents it was entered at. -/
def hOut (c : Dev nD) : Buf (Elt F) ((c : Thread nD τ).loc main_v21) := (dat0 (atTc (V2 m)) c).arrAt 2 cfg0.N

/-- The regions' unknowns with only the first one filled in: enough to state what the second region is entered at. -/
def outsA : Outs (F := F) := fun _ r c => if h : r = main_v21 then h ▸ hOut m c else m ((c : Thread nD τ).loc r)

/-- What the second region's body leaves in its staging buffers, and its invariant between points, from the contents
    it is entered at. -/
abbrev aftH (c : Dev nD) := (dat1 (atTc (V6 m (outsA m))) c).after
abbrev invH (c : Dev nD) := (dat1 (atTc (V6 m (outsA m))) c).Φ

/-- The second region's output array after its last grid point. -/
def sOut (c : Dev nD) : Buf (Elt F) ((c : Thread nD τ).loc main_v77) := (D1 (V6 m (outsA m)) (aftH m) (invH m) c).arrAt 9 cfg1.N

/-- Both filled in. -/
def outsH : Outs (F := F) := fun J r c => if J = 7 then (if h : r = main_v77 then h ▸ sOut m c else m ((c : Thread nD τ).loc r)) else outsA m J r c

theorem outsH_three (c : Dev nD) : outsH m 3 main_v21 c = hOut m c := by
  unfold outsH outsA; rw [if_neg (by decide), dif_pos rfl]
theorem outsA_three (c : Dev nD) : outsA m 3 main_v21 c = hOut m c := by
  unfold outsA; rw [dif_pos rfl]
theorem outsH_seven (c : Dev nD) : outsH m 7 main_v77 c = sOut m c := by
  unfold outsH; rw [if_pos rfl, dif_pos rfl]

/-- Up to the second region's entry the two agree. -/
theorem V3_outs (c : Dev nD) : V3 m (outsH m) c = V3 m (outsA m) c := by
  unfold V3; rw [outsH_three, outsA_three]
theorem V6_outs (c : Dev nD) : V6 m (outsH m) c = V6 m (outsA m) c := by
  unfold V6 V5 V4; rw [V3_outs]

/-! ## The regions' records at the fold's contents -/

/-- The second region's proof data, at the contents it is entered at: the data its body obligation was proved over. -/
theorem D1_eq (c : Dev nD) : D1 (V6 m (outsA m)) (aftH m) (invH m) c = dat1 (atTc (V6 m (outsA m))) c := rfl

theorem V3_at_out (c : Dev nD) : atTc (V3 m (outsH m)) c main_v21 = (dat0 (atTc (V2 m)) c).arrAt 2 cfg0.N := by
  show Function.update (V2 m c) (Proc.devRef .tc main_v21) (outsH m 3 main_v21 c) (Proc.devRef .tc main_v21) = _
  rw [Function.update_self, outsH_three]; rfl

theorem V7_at_out (c : Dev nD) : atTc (V7 m (outsH m)) c main_v77 = (D1 (V6 m (outsA m)) (aftH m) (invH m) c).arrAt 9 cfg1.N := by
  show Function.update (V6 m (outsH m) c) (Proc.devRef .tc main_v77) (outsH m 7 main_v77 c) (Proc.devRef .tc main_v77) = _
  rw [Function.update_self, outsH_seven]; rfl

/-- Region 0 from the contents after the first two host stretches to the same with `h` written. -/
def rec0 := reg0 (V2 m) (V3 m (outsH m)) (V6 m (outsA m)) (aftH m) (invH m) (V3_at_out m)
  (fun c b hb => V3_of m (outsH m) c b (by simpa using hb))

/-- Region 1 from the contents after the middle host stretches to the same with the scalar written. -/
def rec1 := reg1 (V2 m) (V6 m (outsA m)) (V7 m (outsH m)) (aftH m) (invH m)
  (fun c => body_obligation1 (atTc (V6 m (outsA m))) c)
  (fun c => hin1 (atTc (V6 m (outsA m))) c) (fun c => hout1 (atTc (V6 m (outsA m))) c)
  (V7_at_out m)
  (fun c b hb => (V7_of m (outsH m) c b (by simpa using hb)).trans (congrFun (V6_outs m c) (Proc.devRef .tc b)))

/-! ## The run -/

set_option backward.isDefEq.respectTransparency.types false in
/-- Every weakly fair execution of the host program terminates, and at the end every unscoped buffer of every core
    holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outsH m) c b) := by
  refine Pipeline.θ_run_regions_kit_dev (pcfgs (F := F)) adm (pdatsG (V2 m) (V6 m (outsA m)) (aftH m) (invH m)) () cellOf_inj emb₁ defs₀ Variants.none Lh lvh m ρ main
    (segs m (outsH m) Variants.none Lh lvh (fun _ c => Rr c) () (pdatsG (V2 m) (V6 m (outsA m)) (aftH m) (invH m)) (rec0 m) (rec1 m))
    (fun c Q => by
      rewrite [main_chain c, Pipeline.Seg.run_eq_chain,
        show (segs m (outsH m) Variants.none Lh lvh (fun _ c => Rr c) () (pdatsG (V2 m) (V6 m (outsA m)) (aftH m) (invH m)) (rec0 m) (rec1 m) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V8 m (outsH m) c) ∗ ∃ r, prngReg c r))
    (hch := fun c => ⟨.rfl, .rfl, .rfl, .rfl, .rfl, .rfl,
      (show iprop(StableHlo.held (c : Thread nD τ) (Pipeline.ucRefs τ sig) (V6 m (outsH m) c) ∗ Rr c)
          ⊢ iprop(StableHlo.held (c : Thread nD τ) (Pipeline.ucRefs τ sig) (V6 m (outsA m) c) ∗ Rr c) from by
        rw [V6_outs]),
      .rfl,
      (show iprop(StableHlo.held (c : Thread nD τ) (Pipeline.ucRefs τ sig) (V8 m (outsH m) c) ∗ Rr c)
          ⊢ iprop((StableHlo.held (c : Thread nD τ) (Pipeline.ucRefs τ sig) (V8 m (outsH m) c) ∗ ∃ r, prngReg c r)
              ∗ ∃ W, owes (c : Thread nD τ) (0 : CellTallies nD τ sig Unit) W) from by
        iintro ⟨Hh, Hp, Ho⟩
        isplitl [Hh Hp]
        · isplitl [Hh] <;> iassumption
        iexact Ho)⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m (outsH m) c b)
    (hfin := fun c s' => by
      iintro ⟨⟨Hh, -⟩, HSI⟩
      unfold StableHlo.held
      imodintro
      iapply (pointsTo_read_all (Pipeline.ucRefs τ sig) (fun b => (((c : Thread nD τ)).1, b)) (V8 m (outsH m) c) s')
      isplitl [Hh] <;> iassumption)
    (hQ := fun s h c => h c)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the run ends with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (V8_main_arg0 m (outsH m) c),
    (h c _ (mem_uc main_arg1 (by decide))).trans (V8_main_arg1 m (outsH m) c),
    (h c _ (mem_uc main_arg2 (by decide))).trans (V8_main_arg2 m (outsH m) c),
    (h c _ (mem_uc main_arg3 (by decide))).trans (V8_main_arg3 m (outsH m) c),
    (h c _ (mem_uc main_arg4 (by decide))).trans (V8_main_arg4 m (outsH m) c),
    (h c _ (mem_uc main_arg5 (by decide))).trans (V8_main_arg5 m (outsH m) c),
    (h c _ (mem_uc main_arg6 (by decide))).trans (V8_main_arg6 m (outsH m) c),
    (h c _ (mem_uc main_arg7 (by decide))).trans (V8_main_arg7 m (outsH m) c),
    (h c _ (mem_uc main_arg8 (by decide))).trans (V8_main_arg8 m (outsH m) c),
    (h c _ (mem_uc main_arg9 (by decide))).trans (V8_main_arg9 m (outsH m) c),
    (h c _ (mem_uc main_arg10 (by decide))).trans (V8_main_arg10 m (outsH m) c)⟩) (run_all m ρ)

end Cert.KernelIdeal.Hand

end
-- ==== Proof.Spec.lean ====
/-
  The per-node value head of the graph network, as functions over plain index types on the extended reals:
  the GCN input projection of one node (`gcnrow`), and the SAGE layer followed by the two-layer value head of
  one node (`a2row`, `h1row`, `vrow`). Every sum runs over a literal `Fin` type and every operation is the
  extended reals' own, so both programs' element-level readings land on these terms syntactically.
-/
import Idealize.ShloMosaic.PureOps.Ideal
import Idealize.ShloMosaic.Lib.ValueIdx

noncomputable section

open scoped BigOperators

namespace Cert.Spec

/-- One node's GCN projection at output feature `q`: the node's two input features against column `q` of the weight. -/
def gcnrow (x : Fin 2 → EReal) (w : Fin 2 → Fin 128 → EReal) (q : Fin 128) : EReal :=
  ∑ k, x k * w k q

/-- The SAGE layer of one node at feature `k`: the aggregated neighbour row against `wl`, plus the bias, plus the
    node's own row against `wr` — grouped as both programs add them, `(agg·wl + bl) + a1·wr`. -/
def a2row (agg a1 : Fin 128 → EReal) (wl wr : Fin 128 → Fin 128 → EReal) (bl : Fin 128 → EReal) (k : Fin 128) : EReal :=
  (∑ l, agg l * wl l k) + bl k + ∑ l, a1 l * wr l k

/-- The hidden layer of the value head of one node at unit `j`: `relu (a2·wv1 + bv1)`. -/
def h1row (agg a1 : Fin 128 → EReal) (wl wr : Fin 128 → Fin 128 → EReal) (bl : Fin 128 → EReal)
    (wv1 : Fin 128 → Fin 64 → EReal) (bv1 : Fin 64 → EReal) (j : Fin 64) : EReal :=
  max ((∑ k, a2row agg a1 wl wr bl k * wv1 k j) + bv1 j) 0

/-- The value of one node: `h1·wv2 + bv2`. -/
def vrow (agg a1 : Fin 128 → EReal) (wl wr : Fin 128 → Fin 128 → EReal) (bl : Fin 128 → EReal)
    (wv1 : Fin 128 → Fin 64 → EReal) (bv1 : Fin 64 → EReal) (wv2 : Fin 64 → EReal) (bv2 : EReal) : EReal :=
  (∑ j, h1row agg a1 wl wr bl wv1 bv1 j * wv2 j) + bv2

/-- A sum over a one-element range is its one term. -/
theorem sum_fin_one (f : Fin 1 → EReal) : ∑ b : Fin 1, f b = f 0 := by
  simp

end Cert.Spec

end
-- ==== Proof.KI.Pay.lean ====
/-
  The two kernel bodies' arithmetic read at an index, on the extended reals: each matrix product into a zero
  accumulator is the sum over its contraction coordinate, a bias row broadcast over the block reads its one row, the
  format changes are the identity, the lane sum over the block's rows is a sum over `Fin 2000`; so the first body's
  result at `(p, q)` is `Spec.gcnrow`, the second body's hidden layer at `(r, j)` is `Spec.h1row` of row `r`, and
  the accumulator after the body holds its value before plus the sum over the block's rows of `Spec.vrow`.
-/
import proofs.«103519_j18056042512980_1_alg».proof.Proof.Spec
import proofs.«103519_j18056042512980_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

theorem mm_gcn_l0 (i : S2000x128.Idx) (q : dot_S2000x2_S2x128_S2000x128_1_0_0_1_n_n.contr.Idx) : (dot_S2000x2_S2x128_S2000x128_1_0_0_1_n_n.lhsIdx i q 0).val = (i 0).val := by
  unfold DotDims.lhsIdx
  rw [dif_neg (show ¬(0 : Fin S2000x2.rank) ∈ dot_S2000x2_S2x128_S2000x128_1_0_0_1_n_n.lhsBatch by decide), dif_pos (show (0 : Fin S2000x2.rank) ∈ dot_S2000x2_S2x128_S2000x128_1_0_0_1_n_n.lhsNonContracting by decide)]
  rfl
theorem mm_gcn_r1 (i : S2000x128.Idx) (q : dot_S2000x2_S2x128_S2000x128_1_0_0_1_n_n.contr.Idx) : (dot_S2000x2_S2x128_S2000x128_1_0_0_1_n_n.rhsIdx i q 1).val = (i 1).val := by
  unfold DotDims.rhsIdx
  rw [dif_neg (show ¬(1 : Fin S2x128.rank) ∈ dot_S2000x2_S2x128_S2000x128_1_0_0_1_n_n.rhsBatch by decide), dif_pos (show (1 : Fin S2x128.rank) ∈ dot_S2000x2_S2x128_S2000x128_1_0_0_1_n_n.rhsNonContracting by decide)]
  rfl
/-- The matrix product of a `[2000, 2]` by a `[2, 128]` vector into a zero accumulator, read at `(p, q)`: the sum over the
    contraction coordinate of the products. -/
theorem mm_gcn {φ₁ φ₂ : FTy} (l : FVec Ideal S2000x2 φ₁) (r : FVec Ideal S2x128 φ₂) (p : Fin 2000) (q : Fin 128) :
    matmul dot_S2000x2_S2x128_S2000x128_1_0_0_1_n_n none l r (constant (F := Ideal) S2000x128 .f32 0x00000000#32) (ix2 p q)
      = ∑ k : Fin 2, l (ix2 p k) * r (ix2 k q) := by
  simp only [matmul]
  rw [Ideal.matmul_constant_zero_apply, ← Equiv.sum_comp (contrEquiv1 dot_S2000x2_S2x128_S2000x128_1_0_0_1_n_n 2 rfl rfl).symm]
  refine Finset.sum_congr rfl fun k _ => ?_
  have hk := contrEquiv1_symm_val dot_S2000x2_S2x128_S2000x128_1_0_0_1_n_n 2 rfl rfl k
  have el : dot_S2000x2_S2x128_S2000x128_1_0_0_1_n_n.lhsIdx (ix2 p q) ((contrEquiv1 dot_S2000x2_S2x128_S2000x128_1_0_0_1_n_n 2 rfl rfl).symm k) = ix2 p k := funext fun a => Fin.ext (by
    match a with
    | ⟨0, _⟩ => exact mm_gcn_l0 _ _
    | ⟨1, _⟩ => exact (dot_S2000x2_S2x128_S2000x128_1_0_0_1_n_n.lhsIdx_val_of_single rfl _ _).trans hk)
  have er : dot_S2000x2_S2x128_S2000x128_1_0_0_1_n_n.rhsIdx (ix2 p q) ((contrEquiv1 dot_S2000x2_S2x128_S2000x128_1_0_0_1_n_n 2 rfl rfl).symm k) = ix2 k q := funext fun a => Fin.ext (by
    match a with
    | ⟨0, _⟩ => exact (dot_S2000x2_S2x128_S2000x128_1_0_0_1_n_n.rhsIdx_val_of_single rfl _ _).trans hk
    | ⟨1, _⟩ => exact mm_gcn_r1 _ _)
  rw [el, er]

theorem mm_sage_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm_sage_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
/-- The matrix product of a `[2000, 128]` by a `[128, 128]` vector into a zero accumulator, read at `(p, q)`: the sum over the
    contraction coordinate of the products. -/
theorem mm_sage {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mm_sage_l0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact mm_sage_r1 _ _)
  rw [el, er]

theorem mm_hid_l0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mm_hid_r1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl
/-- The matrix product of a `[2000, 128]` by a `[128, 64]` vector into a zero accumulator, read at `(p, q)`: the sum over the
    contraction coordinate of the products. -/
theorem mm_hid {φ₁ φ₂ : FTy} (l : FVec Ideal S2000x128 φ₁) (r : FVec Ideal S128x64 φ₂) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact mm_hid_l0 _ _
    | ⟨1, _⟩ => exact (dot_S2000x128_S128x64_S2000x64_1_0_0_1_n_n.lhsIdx_val_of_single rfl _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (dot_S2000x128_S128x64_S2000x64_1_0_0_1_n_n.rhsIdx_val_of_single rfl _ _).trans hk
    | ⟨1, _⟩ => exact mm_hid_r1 _ _)
  rw [el, er]

theorem mm_out_l0 (i : S2000x1.Idx) (q : dot_S2000x64_S64x1_S2000x1_1_0_0_1_n_n.contr.Idx) : (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem mm_out_r1 (i : S2000x1.Idx) (q : dot_S2000x64_S64x1_S2000x1_1_0_0_1_n_n.contr.Idx) : (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl
/-- The matrix product of a `[2000, 64]` by a `[64, 1]` vector into a zero accumulator, read at `(p, q)`: the sum over the
    contraction coordinate of the products. -/
theorem mm_out {φ₁ φ₂ : FTy} (l : FVec Ideal S2000x64 φ₁) (r : FVec Ideal S64x1 φ₂) (p : Fin 2000) (q : Fin 1) :
    matmul dot_S2000x64_S64x1_S2000x1_1_0_0_1_n_n none l r (constant (F := Ideal) S2000x1 .f32 0x00000000#32) (ix2 p q)
      = ∑ k : Fin 64, l (ix2 p k) * r (ix2 k q) := by
  simp only [matmul]
  rw [Ideal.matmul_constant_zero_apply, ← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 p q) ((contrEquiv1 dot_S2000x64_S64x1_S2000x1_1_0_0_1_n_n 64 rfl rfl).symm k) = ix2 p k := funext fun a => Fin.ext (by
    match a with
    | ⟨0, _⟩ => exact mm_out_l0 _ _
    | ⟨1, _⟩ => exact (dot_S2000x64_S64x1_S2000x1_1_0_0_1_n_n.lhsIdx_val_of_single rfl _ _).trans hk)
  have er : dot_S2000x64_S64x1_S2000x1_1_0_0_1_n_n.rhsIdx (ix2 p q) ((contrEquiv1 dot_S2000x64_S64x1_S2000x1_1_0_0_1_n_n 64 rfl rfl).symm k) = ix2 k q := funext fun a => Fin.ext (by
    match a with
    | ⟨0, _⟩ => exact (dot_S2000x64_S64x1_S2000x1_1_0_0_1_n_n.rhsIdx_val_of_single rfl _ _).trans hk
    | ⟨1, _⟩ => exact mm_out_r1 _ _)
  rw [el, er]

/-- The zero word of `f32` denotes the extended real `0`. -/
theorem ofBits_zero : (FloatOps.ofBits (F := Ideal) .f32 0x00000000#32 : EReal) = 0 := Ideal.ofBits_zero_f32

/-- The first body's result at `(p, q)`: node `p`'s two features against column `q` of the weight. -/
theorem pay0_apply (x : Vec Ideal S2000x2 .f32) (w : Vec Ideal S2x128 .f32) (p : Fin 2000) (q : Fin 128) :
    k0_pay1 (F := Ideal) x w (ix2 p q) = Spec.gcnrow (fun k => x (ix2 p k)) (fun k q => w (ix2 k q)) q := by
  unfold k0_pay1
  simp only [shapeCast_self]
  refine (mm_gcn _ _ p q).trans ?_
  rfl

/-- The second body's hidden layer at `(r, j)`: `Spec.h1row` of row `r` of the two feature blocks. -/
theorem pay5_apply (v3 v5 : Vec Ideal S2000x128 .bf16) (v7 v9 : Vec Ideal S128x128 .f32) (v11 : Vec Ideal S1x128 .f32)
    (v18 : Vec Ideal S128x64 .f32) (v20 : Vec Ideal S1x64 .f32) (r : Fin 2000) (j : Fin 64) :
    k1_pay5 (F := Ideal) v3 v5 v7 v9 v11 v18 v20 (ix2 r j)
      = Spec.h1row (fun l => v3 (ix2 r l)) (fun l => v5 (ix2 r l)) (fun l k => v7 (ix2 l k)) (fun l k => v9 (ix2 l k))
          (fun k => v11 (ix2 0 k)) (fun k j => v18 (ix2 k j)) (fun j => v20 (ix2 0 j)) j := by
  unfold k1_pay5
  simp only [shapeCast_self]
  simp only [truncf_apply, maximumf_apply, addf_apply, broadcast_apply, mm_hid, mm_sage, broadcastTo_1b_ab_apply, ofBits_zero]
  rfl

/-- The lane sum over the rows of a `[2000, 1]` vector, at its one index: the sum over `Fin 2000` of the column. -/
theorem laneSum (src : FVec Ideal S2000x1 .f32) (hφ : FKind.Formats .f32) (hacc : (0x00000000#32 : BitVec 32) = FKind.add.neutral .f32 hφ) :
    multiReduction .add [0] S1 src 0x00000000#32 reduces_S2000x1_S1 hφ hacc (ix1 0) = ∑ r : Fin 2000, src (ix2 r 0) := by
  refine (Ideal.multiReduction_add_single src _ reduces_S2000x1_S1 _ _ (ix1 0)).trans ?_
  refine Finset.sum_congr rfl fun k _ => congrArg src (funext fun a => Fin.ext ?_)
  match a with
  | ⟨0, _⟩ => rfl
  | ⟨1, _⟩ => rfl

/-- The accumulator the second body stores: its value before, plus the sum over the block's rows of `Spec.vrow`. -/
theorem pay1_apply (v3 v5 : Vec Ideal S2000x128 .bf16) (v7 v9 : Vec Ideal S128x128 .f32) (v11 : Vec Ideal S1x128 .f32)
    (v18 : Vec Ideal S128x64 .f32) (v20 : Vec Ideal S1x64 .f32) (v28 : Vec Ideal S64x1 .f32) (v30 : Vec Ideal S1x1 .f32)
    (s : Vec Ideal S1x1 .f32) :
    k1_pay1 (F := Ideal) (k1_pay3 v28) (k1_pay4 v30) (k1_pay5 v3 v5 v7 v9 v11 v18 v20)
        (constant S2000x1 .f32 0x00000000#32) s (ix2 0 0)
      = s (ix2 0 0) + ∑ r : Fin 2000,
          Spec.vrow (fun l => v3 (ix2 r l)) (fun l => v5 (ix2 r l)) (fun l k => v7 (ix2 l k)) (fun l k => v9 (ix2 l k))
            (fun k => v11 (ix2 0 k)) (fun k j => v18 (ix2 k j)) (fun j => v20 (ix2 0 j)) (fun j => v28 (ix2 j 0))
            (v30 (ix2 0 0)) := by
  unfold k1_pay1 k1_pay3 k1_pay4
  simp only [shapeCast_self]
  simp only [addf_apply, shapeCast_a_1a_apply]
  refine (congrArg (s (ix2 0 0) + ·) (laneSum _ _ _)).trans ?_
  simp only [addf_apply, mm_out, broadcastTo_1b_ab_apply, pay5_apply, truncf_apply]
  rfl

/-- The value the accumulator is reset to at the first grid point: zero. -/
theorem pay2_apply : k1_pay2 (F := Ideal) (ix2 0 0) = 0 := by
  unfold k1_pay2
  simp only [shapeCast_self, broadcast_apply]
  exact ofBits_zero

end Cert.KernelIdeal.Pay

end
-- ==== Proof.KI.Val0.lean ====
/-
  What the first region leaves in `h`: at the extended reals, the whole 50000 × 128 array is `xin · W`, entry by
  entry. Grid point `t` writes back rows `2000·t … 2000·t + 1999`; the body's payload at row `p`, column `q` of the
  block is the two-term sum over the block's row `p` of `xin` against column `q` of `W`; the block's row `p` is row
  `2000·t + p` of `xin`; and the 25 blocks tile the array.
-/
import proofs.«103519_j18056042512980_1_alg».proof.Proof.KI.R0
import proofs.«103519_j18056042512980_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The product `xin · W` as one function of the array index. -/
def hWhole (xin : S50000x2.Idx → EReal) (w : S2x128.Idx → EReal) : S50000x128.Idx → EReal := fun i =>
  Cert.Spec.gcnrow (fun k => xin (ix2 (⟨(i 0).val, idx2_lt0 i⟩ : Fin 50000) k)) (fun k q => w (ix2 k q)) ⟨(i 1).val, idx2_lt1 i⟩

/-- Where the three windows' blocks sit at grid point `t`: the row-block windows at block row `t`, the weight at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of `xin` staged at point `t` is row `2000·t + p` of `xin`. -/
theorem xin_block_row (c : Dev nD) (t : Fin cfg0.N) (p : Fin 2000) (k : Fin 2) (r : Fin 50000) (hr : r.val = 2000 * t.val + p.val) :
    (iblk0 V c 0 t : Vec Ideal S2000x2 .f32) (ix2 p k) = (V c main_v9 : S50000x2.Idx → EReal) (ix2 r k) := by
  obtain ⟨e0, e1, -⟩ := where0 t
  unfold iblk0
  rw [View.read_apply]
  show V c main_v9 _ = V c main_v9 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 2 + 1 * k.val = k.val; rw [e1]; omega

/-- The weight's one block is the weight. -/
theorem w_block (c : Dev nD) (t : Fin cfg0.N) (k : Fin 2) (q : Fin 128) :
    (iblk0 V c 1 t : Vec Ideal S2x128 .f32) (ix2 k q) = (V c main_arg2 : S2x128.Idx → EReal) (ix2 k q) := by
  obtain ⟨-, -, e0, e1, -⟩ := where0 t
  unfold iblk0
  rw [View.read_apply]
  show V c main_arg2 _ = V c main_arg2 _
  congr 1
  funext a
  apply Fin.ext
  match a with
  | ⟨0, _⟩ => show win0_1.index t (0 : Fin 2) * 2 + 1 * k.val = k.val; rw [e0]; omega
  | ⟨1, _⟩ => show win0_1.index t (1 : Fin 2) * 128 + 1 * q.val = q.val; rw [e1]; omega

/-- What point `t` writes back is block `t` of `xin · W`. -/
theorem h_flushed (c : Dev nD) (t : Fin cfg0.N) :
    (dat0 V c).flushed 2 t = ((cfg0.win 2).blk t).view.read (Elt Ideal) (hWhole (V c main_v9) (V c main_arg2)) := by
  obtain ⟨-, -, -, -, e0, e1⟩ := where0 t
  show (cfg0.win 2).cut (grid0.coords t) ((dat0 V c).after 2 t) = _
  rw [after0_2]
  unfold hBlock
  rw [View.canon_unit_zero hz2]
  simp only [View.ld_unit_zero (S := S2000x2) hz2, View.ld_unit_zero (S := S2x128) hz2]
  funext j
  obtain ⟨p, q, rfl⟩ : ∃ (p : Fin 2000) (q : Fin 128), j = ix2 p q := ⟨j 0, j 1, eq_ix2 j⟩
  have hN : cfg0.N = 25 := N_0
  have ht : t.val < 25 := hN ▸ t.isLt
  have key : ∀ (i : S50000x128.Idx), (i 0).val = 2000 * t.val + p.val → (i 1).val = q.val →
      Cert.Spec.gcnrow (fun k => (iblk0 V c 0 t : Vec Ideal S2000x2 .f32) (ix2 p k)) (fun k q => (iblk0 V c 1 t : Vec Ideal S2x128 .f32) (ix2 k q)) q
        = hWhole (V c main_v9) (V c main_arg2) i := by
    intro i h0 h1
    unfold hWhole Cert.Spec.gcnrow
    refine Finset.sum_congr rfl fun k _ => ?_
    beta_reduce
    rw [xin_block_row V c t p k ⟨(i 0).val, idx2_lt0 i⟩ h0, w_block V c t k q]
    have hq : (⟨(i 1).val, idx2_lt1 i⟩ : Fin 128) = q := Fin.ext h1
    rw [hq]
  refine (Cert.KernelIdeal.Pay.pay0_apply _ _ p q).trans ?_
  rw [View.read_apply]
  have hrow : ((((cfg0.win 2).blk t).view.emb (ix2 p q)) 0).val = 2000 * t.val + p.val := by
    show win0_2.index t (0 : Fin 2) * 2000 + 1 * p.val = _; rw [e0]; omega
  have hcol : ((((cfg0.win 2).blk t).view.emb (ix2 p q)) 1).val = q.val := by
    show win0_2.index t (1 : Fin 2) * 128 + 1 * q.val = _; rw [e1]; omega
  exact key _ hrow hcol

/-- An index of `h` lies in point `t`'s block exactly when its row lies in that block's 2000 rows. -/
theorem h_mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v21).slice (win0_2.rect t)).set ↔ _
  rw [View.set_slice_whole, Rect.mem_set_unit]
  exact Iff.rfl

/-- After the region, `h` holds `xin · W`. -/
theorem h_final (c : Dev nD) : (dat0 V c).arrAt 2 cfg0.N = hWhole (V c main_v9) (V c main_arg2) :=
  (dat0 V c).arrAt_eq_of_cover 2 _ (fun t _ => h_flushed V c t) fun i => by
    have hi0 : (i 0).val < 50000 := idx2_lt0 i
    have hi1 : (i 1).val < 128 := idx2_lt1 i
    have hN : cfg0.N = 25 := N_0
    refine ⟨⟨(i 0).val / 2000, by rw [hN]; omega⟩, flush0_2 _, ?_⟩
    rw [h_mem_blk]
    obtain ⟨-, -, -, -, e0, e1⟩ := where0 ⟨(i 0).val / 2000, by rw [hN]; omega⟩
    intro a
    match a with
    | ⟨0, _⟩ => show win0_2.index _ (0 : Fin 2) * 2000 ≤ (i 0).val ∧ (i 0).val < win0_2.index _ (0 : Fin 2) * 2000 + 2000; rw [e0]; dsimp only; omega
    | ⟨1, _⟩ => show win0_2.index _ (1 : Fin 2) * 128 ≤ (i 1).val ∧ (i 1).val < win0_2.index _ (1 : Fin 2) * 128 + 128; rw [e1]; omega

end Cert.KernelIdeal.Hand

end
-- ==== Proof.Regroup.lean ====
/-
  Regrouping the sum over the 50000 nodes by blocks of 2000 rows: the sum over `Fin 50000` is the sum over the 25
  blocks of the sums over each block's 2000 rows, row `r` of block `t` being node `2000 * t + r`; and a running
  total that starts at `0 +` block 0's sum and adds one block's sum per step holds, after the last block, `0 +` the
  whole sum. Addition on the extended reals is commutative and associative, so nothing here asks for finiteness.
-/
import proofs.«103519_j18056042512980_1_alg».proof.Proof.Spec

noncomputable section

open scoped BigOperators

namespace Cert.Spec

/-- Row `r` of block `t` is below `a * b`. -/
theorem blockIdx_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left _ ht
    _ = a * b := Nat.mul_comm _ _

/-- A sum over `Fin (a * b)` is the sum over the `a` blocks of the sums over each block's `b` elements. -/
theorem sum_blocks {M : Type*} [AddCommMonoid M] (a b : ℕ) (f : Fin (a * b) → M) :
    ∑ i, f i = ∑ t : Fin a, ∑ r : Fin b, f ⟨b * t.val + r.val, blockIdx_lt t.isLt r.isLt⟩ := by
  rw [← Equiv.sum_comp finProdFinEquiv f, Fintype.sum_prod_type]
  refine Finset.sum_congr rfl fun t _ => Finset.sum_congr rfl fun r _ => congrArg f (Fin.ext ?_)
  show r.val + b * t.val = b * t.val + r.val
  exact Nat.add_comm _ _

/-- Node `2000 * t + r` of block `t < 25` and row `r < 2000` is below 50000. -/
theorem node_lt {t r : ℕ} (ht : t < 25) (hr : r < 2000) : 2000 * t + r < 50000 := by omega

/-- The sum over the 50000 nodes, block by block. -/
theorem sum_nodes (f : Fin 50000 → EReal) :
    ∑ i, f i = ∑ t : Fin 25, ∑ r : Fin 2000, f ⟨2000 * t.val + r.val, node_lt t.isLt r.isLt⟩ :=
  sum_blocks 25 2000 f

/-- A running total over the blocks: it starts at `0 + B 0` and adds `B (n + 1)` at step `n + 1`; after block `n`
    it holds `0 +` the sum of the blocks up to `n`. -/
theorem acc_partial (B : ℕ → EReal) (acc : ℕ → EReal) (N : ℕ) (h0 : acc 0 = 0 + B 0)
    (hs : ∀ n, n + 1 < N → acc (n + 1) = acc n + B (n + 1)) :
    ∀ n, n < N → acc n = 0 + ∑ t ∈ Finset.range (n + 1), B t := by
  intro n
  induction n with
  | zero => intro _; rw [h0, Finset.sum_range_one]
  | succ n ih =>
    intro hn
    rw [hs n hn, ih (Nat.lt_of_succ_lt hn), Finset.sum_range_succ _ (n + 1), add_assoc]

/-- The running total over the 25 blocks of 2000 rows, with each block's sum named `B t`: after the last block it is
    `0 +` the sum over all 50000 nodes. -/
theorem acc_total_of_blocks (f : Fin 50000 → EReal) (acc : ℕ → EReal) (B : Fin 25 → EReal)
    (hB : ∀ t : Fin 25, B t = ∑ r : Fin 2000, f ⟨2000 * t.val + r.val, node_lt t.isLt r.isLt⟩)
    (h0 : acc 0 = 0 + B 0)
    (hs : ∀ n (h : n + 1 < 25), acc (n + 1) = acc n + B ⟨n + 1, h⟩) :
    acc 24 = 0 + ∑ i : Fin 50000, f i := by
  have hp := acc_partial (fun t => if h : t < 25 then B ⟨t, h⟩ else 0) acc 25
    (by rw [h0]; rfl) (fun n hn => by rw [hs n hn, dif_pos hn]) 24 (by decide)
  rw [hp, sum_nodes, ← Fin.sum_univ_eq_sum_range (fun t => if h : t < 25 then B ⟨t, h⟩ else 0) 25]
  refine congrArg (0 + ·) (Finset.sum_congr rfl fun t _ => ?_)
  rw [dif_pos t.isLt]
  exact hB t

/-- The same with the blocks' sums written out: block 0's rows are the nodes `r`, block `n + 1`'s the nodes
    `2000 * (n + 1) + r`. -/
theorem acc_total (f : Fin 50000 → EReal) (acc : ℕ → EReal)
    (h0 : acc 0 = 0 + ∑ r : Fin 2000, f ⟨r.val, by have := r.isLt; omega⟩)
    (hs : ∀ n (h : n + 1 < 25), acc (n + 1) = acc n + ∑ r : Fin 2000, f ⟨2000 * (n + 1) + r.val, node_lt h r.isLt⟩) :
    acc 24 = 0 + ∑ i : Fin 50000, f i :=
  acc_total_of_blocks f acc (fun t => ∑ r : Fin 2000, f ⟨2000 * t.val + r.val, node_lt t.isLt r.isLt⟩)
    (fun _ => rfl)
    (by rw [h0]; exact congrArg (0 + ·) (Finset.sum_congr rfl fun r _ => congrArg f (Fin.ext (by show r.val = 2000 * 0 + r.val; omega))))
    (fun n h => hs n h)

end Cert.Spec

end
-- ==== Proof.KI.Val1.lean ====
/-
  What the second region leaves in its (1 × 1) result: the sum over all 50000 nodes of the value head's output.
  The accumulator after grid point `n` is the accumulator before it plus the sum over the point's 2000 rows of the
  per-node value; it is zero before the first point; the one write-back, at the last point, copies it out. Each
  point's row block of the two node-feature matrices is rows `2000·n …` of those matrices and every other operand's
  one block is the operand itself, so the 25 partial sums regroup into the sum over all rows.
-/
import proofs.«103519_j18056042512980_1_alg».proof.Proof.KI.R1
import proofs.«103519_j18056042512980_1_alg».proof.Proof.KI.Pay
import proofs.«103519_j18056042512980_1_alg».proof.Proof.Regroup
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- One node's value, from the region's operand arrays as it finds them. -/
def nodeVal (c : Dev nD) (r : Fin 50000) : EReal :=
  Cert.Spec.vrow (fun l => (V c main_v72 : S50000x128.Idx → EReal) (ix2 r l)) (fun l => (V c main_v73 : S50000x128.Idx → EReal) (ix2 r l))
    (fun l k => (V c main_arg4 : S128x128.Idx → EReal) (ix2 l k)) (fun l k => (V c main_arg6 : S128x128.Idx → EReal) (ix2 l k))
    (fun k => (V c main_v74 : S1x128.Idx → EReal) (ix2 0 k))
    (fun k j => (V c main_arg7 : S128x64.Idx → EReal) (ix2 k j)) (fun j => (V c main_v75 : S1x64.Idx → EReal) (ix2 0 j))
    (fun j => (V c main_arg9 : S64x1.Idx → EReal) (ix2 j 0)) ((V c main_v76 : S1x1.Idx → EReal) (ix2 0 0))

/-! ## Where the windows' blocks sit -/

/-- The two row-block windows sit at block row `t`; every other window's one block is at the origin. -/
theorem s_where_rows : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)
theorem s_where2 : ∀ t : Fin cfg1.N, win1_2.index t (0 : Fin 2) = 0 ∧ win1_2.index t (1 : Fin 2) = 0 :=
  (by decide +kernel : ∀ t : Fin grid1.N, _)
theorem s_where3 : ∀ t : Fin cfg1.N, win1_3.index t (0 : Fin 2) = 0 ∧ win1_3.index t (1 : Fin 2) = 0 :=
  (by decide +kernel : ∀ t : Fin grid1.N, _)
theorem s_where4 : ∀ t : Fin cfg1.N, win1_4.index t (0 : Fin 2) = 0 ∧ win1_4.index t (1 : Fin 2) = 0 :=
  (by decide +kernel : ∀ t : Fin grid1.N, _)
theorem s_where5 : ∀ t : Fin cfg1.N, win1_5.index t (0 : Fin 2) = 0 ∧ win1_5.index t (1 : Fin 2) = 0 :=
  (by decide +kernel : ∀ t : Fin grid1.N, _)
theorem s_where6 : ∀ t : Fin cfg1.N, win1_6.index t (0 : Fin 2) = 0 ∧ win1_6.index t (1 : Fin 2) = 0 :=
  (by decide +kernel : ∀ t : Fin grid1.N, _)
theorem s_where7 : ∀ t : Fin cfg1.N, win1_7.index t (0 : Fin 2) = 0 ∧ win1_7.index t (1 : Fin 2) = 0 :=
  (by decide +kernel : ∀ t : Fin grid1.N, _)
theorem s_where8 : ∀ t : Fin cfg1.N, win1_8.index t (0 : Fin 2) = 0 ∧ win1_8.index t (1 : Fin 2) = 0 :=
  (by decide +kernel : ∀ t : Fin grid1.N, _)
theorem s_where9 : ∀ t : Fin cfg1.N, win1_9.index t (0 : Fin 2) = 0 ∧ win1_9.index t (1 : Fin 2) = 0 :=
  (by decide +kernel : ∀ t : Fin grid1.N, _)

/-! ## The blocks read off the arrays -/

/-- Row `p` of the row block staged at point `t` is row `2000·t + p` of the array. -/
theorem s_blk0 (c : Dev nD) (t : Fin cfg1.N) (p : Fin 2000) (l : Fin 128) (i : Fin 50000) (hi : i.val = 2000 * t.val + p.val) :
    (iblk1 V c 0 t : Vec Ideal S2000x128 .bf16) (ix2 p l) = (V c main_v72 : S50000x128.Idx → EReal) (ix2 i l) := by
  obtain ⟨e0, e1, -, -⟩ := s_where_rows t
  unfold iblk1
  rw [View.read_apply]
  show V c main_v72 _ = V c main_v72 _
  congr 1
  funext a
  apply Fin.ext
  match a with
  | ⟨0, _⟩ => show win1_0.index t (0 : Fin 2) * 2000 + 1 * p.val = i.val; rw [e0, hi]; omega
  | ⟨1, _⟩ => show win1_0.index t (1 : Fin 2) * 128 + 1 * l.val = l.val; rw [e1]; omega

/-- Row `p` of the row block staged at point `t` is row `2000·t + p` of the array. -/
theorem s_blk1 (c : Dev nD) (t : Fin cfg1.N) (p : Fin 2000) (l : Fin 128) (i : Fin 50000) (hi : i.val = 2000 * t.val + p.val) :
    (iblk1 V c 1 t : Vec Ideal S2000x128 .bf16) (ix2 p l) = (V c main_v73 : S50000x128.Idx → EReal) (ix2 i l) := by
  obtain ⟨-, -, e0, e1⟩ := s_where_rows t
  unfold iblk1
  rw [View.read_apply]
  show V c main_v73 _ = V c main_v73 _
  congr 1
  funext a
  apply Fin.ext
  match a with
  | ⟨0, _⟩ => show win1_1.index t (0 : Fin 2) * 2000 + 1 * p.val = i.val; rw [e0, hi]; omega
  | ⟨1, _⟩ => show win1_1.index t (1 : Fin 2) * 128 + 1 * l.val = l.val; rw [e1]; omega

/-- This operand's one block is the operand. -/
theorem s_blk2 (c : Dev nD) (t : Fin cfg1.N) (p : Fin 128) (q : Fin 128) :
    (iblk1 V c 2 t : Vec Ideal S128x128 .f32) (ix2 p q) = (V c main_arg4 : S128x128.Idx → EReal) (ix2 p q) := by
  obtain ⟨e0, e1⟩ := s_where2 t
  unfold iblk1
  rw [View.read_apply]
  show V c main_arg4 _ = V c main_arg4 _
  congr 1
  funext a
  apply Fin.ext
  match a with
  | ⟨0, _⟩ => show win1_2.index t (0 : Fin 2) * 128 + 1 * p.val = p.val; rw [e0]; omega
  | ⟨1, _⟩ => show win1_2.index t (1 : Fin 2) * 128 + 1 * q.val = q.val; rw [e1]; omega

/-- This operand's one block is the operand. -/
theorem s_blk3 (c : Dev nD) (t : Fin cfg1.N) (p : Fin 1) (q : Fin 128) :
    (iblk1 V c 3 t : Vec Ideal S1x128 .f32) (ix2 p q) = (V c main_v74 : S1x128.Idx → EReal) (ix2 p q) := by
  obtain ⟨e0, e1⟩ := s_where3 t
  unfold iblk1
  rw [View.read_apply]
  show V c main_v74 _ = V c main_v74 _
  congr 1
  funext a
  apply Fin.ext
  match a with
  | ⟨0, _⟩ => show win1_3.index t (0 : Fin 2) * 1 + 1 * p.val = p.val; rw [e0]; omega
  | ⟨1, _⟩ => show win1_3.index t (1 : Fin 2) * 128 + 1 * q.val = q.val; rw [e1]; omega

/-- This operand's one block is the operand. -/
theorem s_blk4 (c : Dev nD) (t : Fin cfg1.N) (p : Fin 128) (q : Fin 128) :
    (iblk1 V c 4 t : Vec Ideal S128x128 .f32) (ix2 p q) = (V c main_arg6 : S128x128.Idx → EReal) (ix2 p q) := by
  obtain ⟨e0, e1⟩ := s_where4 t
  unfold iblk1
  rw [View.read_apply]
  show V c main_arg6 _ = V c main_arg6 _
  congr 1
  funext a
  apply Fin.ext
  match a with
  | ⟨0, _⟩ => show win1_4.index t (0 : Fin 2) * 128 + 1 * p.val = p.val; rw [e0]; omega
  | ⟨1, _⟩ => show win1_4.index t (1 : Fin 2) * 128 + 1 * q.val = q.val; rw [e1]; omega

/-- This operand's one block is the operand. -/
theorem s_blk5 (c : Dev nD) (t : Fin cfg1.N) (p : Fin 128) (q : Fin 64) :
    (iblk1 V c 5 t : Vec Ideal S128x64 .f32) (ix2 p q) = (V c main_arg7 : S128x64.Idx → EReal) (ix2 p q) := by
  obtain ⟨e0, e1⟩ := s_where5 t
  unfold iblk1
  rw [View.read_apply]
  show V c main_arg7 _ = V c main_arg7 _
  congr 1
  funext a
  apply Fin.ext
  match a with
  | ⟨0, _⟩ => show win1_5.index t (0 : Fin 2) * 128 + 1 * p.val = p.val; rw [e0]; omega
  | ⟨1, _⟩ => show win1_5.index t (1 : Fin 2) * 64 + 1 * q.val = q.val; rw [e1]; omega

/-- This operand's one block is the operand. -/
theorem s_blk6 (c : Dev nD) (t : Fin cfg1.N) (p : Fin 1) (q : Fin 64) :
    (iblk1 V c 6 t : Vec Ideal S1x64 .f32) (ix2 p q) = (V c main_v75 : S1x64.Idx → EReal) (ix2 p q) := by
  obtain ⟨e0, e1⟩ := s_where6 t
  unfold iblk1
  rw [View.read_apply]
  show V c main_v75 _ = V c main_v75 _
  congr 1
  funext a
  apply Fin.ext
  match a with
  | ⟨0, _⟩ => show win1_6.index t (0 : Fin 2) * 1 + 1 * p.val = p.val; rw [e0]; omega
  | ⟨1, _⟩ => show win1_6.index t (1 : Fin 2) * 64 + 1 * q.val = q.val; rw [e1]; omega

/-- This operand's one block is the operand. -/
theorem s_blk7 (c : Dev nD) (t : Fin cfg1.N) (p : Fin 64) (q : Fin 1) :
    (iblk1 V c 7 t : Vec Ideal S64x1 .f32) (ix2 p q) = (V c main_arg9 : S64x1.Idx → EReal) (ix2 p q) := by
  obtain ⟨e0, e1⟩ := s_where7 t
  unfold iblk1
  rw [View.read_apply]
  show V c main_arg9 _ = V c main_arg9 _
  congr 1
  funext a
  apply Fin.ext
  match a with
  | ⟨0, _⟩ => show win1_7.index t (0 : Fin 2) * 64 + 1 * p.val = p.val; rw [e0]; omega
  | ⟨1, _⟩ => show win1_7.index t (1 : Fin 2) * 1 + 1 * q.val = q.val; rw [e1]; omega

/-- This operand's one block is the operand. -/
theorem s_blk8 (c : Dev nD) (t : Fin cfg1.N) (p : Fin 1) (q : Fin 1) :
    (iblk1 V c 8 t : Vec Ideal S1x1 .f32) (ix2 p q) = (V c main_v76 : S1x1.Idx → EReal) (ix2 p q) := by
  obtain ⟨e0, e1⟩ := s_where8 t
  unfold iblk1
  rw [View.read_apply]
  show V c main_v76 _ = V c main_v76 _
  congr 1
  funext a
  apply Fin.ext
  match a with
  | ⟨0, _⟩ => show win1_8.index t (0 : Fin 2) * 1 + 1 * p.val = p.val; rw [e0]; omega
  | ⟨1, _⟩ => show win1_8.index t (1 : Fin 2) * 1 + 1 * q.val = q.val; rw [e1]; omega

/-- One row of a point's blocks gives the value of the node it is a row of. -/
theorem s_point (c : Dev nD) (t : Fin cfg1.N) (r : Fin 2000) (i : Fin 50000) (hi : i.val = 2000 * t.val + r.val) :
    Cert.Spec.vrow (fun l => (iblk1 V c 0 t : Vec Ideal S2000x128 .bf16) (ix2 r l)) (fun l => (iblk1 V c 1 t : Vec Ideal S2000x128 .bf16) (ix2 r l))
      (fun l k => (iblk1 V c 2 t : Vec Ideal S128x128 .f32) (ix2 l k)) (fun l k => (iblk1 V c 4 t : Vec Ideal S128x128 .f32) (ix2 l k))
      (fun k => (iblk1 V c 3 t : Vec Ideal S1x128 .f32) (ix2 0 k))
      (fun k j => (iblk1 V c 5 t : Vec Ideal S128x64 .f32) (ix2 k j)) (fun j => (iblk1 V c 6 t : Vec Ideal S1x64 .f32) (ix2 0 j))
      (fun j => (iblk1 V c 7 t : Vec Ideal S64x1 .f32) (ix2 j 0)) ((iblk1 V c 8 t : Vec Ideal S1x1 .f32) (ix2 0 0))
      = nodeVal V c i := by
  have a0 : (fun l => (iblk1 V c 0 t : Vec Ideal S2000x128 .bf16) (ix2 r l)) = fun l => (V c main_v72 : S50000x128.Idx → EReal) (ix2 i l) :=
    funext fun l => s_blk0 V c t r l i hi
  have a1 : (fun l => (iblk1 V c 1 t : Vec Ideal S2000x128 .bf16) (ix2 r l)) = fun l => (V c main_v73 : S50000x128.Idx → EReal) (ix2 i l) :=
    funext fun l => s_blk1 V c t r l i hi
  have a2 : (fun l k => (iblk1 V c 2 t : Vec Ideal S128x128 .f32) (ix2 l k)) = fun l k => (V c main_arg4 : S128x128.Idx → EReal) (ix2 l k) :=
    funext fun l => funext fun k => s_blk2 V c t l k
  have a4 : (fun l k => (iblk1 V c 4 t : Vec Ideal S128x128 .f32) (ix2 l k)) = fun l k => (V c main_arg6 : S128x128.Idx → EReal) (ix2 l k) :=
    funext fun l => funext fun k => s_blk4 V c t l k
  have a3 : (fun k => (iblk1 V c 3 t : Vec Ideal S1x128 .f32) (ix2 0 k)) = fun k => (V c main_v74 : S1x128.Idx → EReal) (ix2 0 k) :=
    funext fun k => s_blk3 V c t 0 k
  have a5 : (fun k j => (iblk1 V c 5 t : Vec Ideal S128x64 .f32) (ix2 k j)) = fun k j => (V c main_arg7 : S128x64.Idx → EReal) (ix2 k j) :=
    funext fun k => funext fun j => s_blk5 V c t k j
  have a6 : (fun j => (iblk1 V c 6 t : Vec Ideal S1x64 .f32) (ix2 0 j)) = fun j => (V c main_v75 : S1x64.Idx → EReal) (ix2 0 j) :=
    funext fun j => s_blk6 V c t 0 j
  have a7 : (fun j => (iblk1 V c 7 t : Vec Ideal S64x1 .f32) (ix2 j 0)) = fun j => (V c main_arg9 : S64x1.Idx → EReal) (ix2 j 0) :=
    funext fun j => s_blk7 V c t j 0
  have a8 : (iblk1 V c 8 t : Vec Ideal S1x1 .f32) (ix2 0 0) = (V c main_v76 : S1x1.Idx → EReal) (ix2 0 0) := s_blk8 V c t 0 0
  unfold nodeVal
  rw [a0, a1, a2, a4, a3, a5, a6, a7, a8]

/-! ## The accumulator is the running sum over the nodes seen so far -/

theorem s_N : cfg1.N = 25 := N_1

/-- The accumulator's one entry after point `n` (zero past the grid). -/
def s_acc (c : Dev nD) (n : ℕ) : EReal :=
  if h : n < cfg1.N then (scrAt1 V c n h : Vec Ideal S1x1 .f32) (ix2 0 0) else 0

theorem s_acc_zero (c : Dev nD) :
    s_acc V c 0 = 0 + ∑ r : Fin 2000, nodeVal V c ⟨r.val, by have := r.isLt; omega⟩ := by
  have h0 : 0 < cfg1.N := by rw [s_N]; decide
  unfold s_acc
  rw [dif_pos h0, scrAt1_zero]
  refine (Cert.KernelIdeal.Pay.pay1_apply _ _ _ _ _ _ _ _ _ _).trans ?_
  rw [Cert.KernelIdeal.Pay.pay2_apply]
  exact congrArg (0 + ·) (Finset.sum_congr rfl fun r _ => s_point V c ⟨0, h0⟩ r ⟨r.val, by have := r.isLt; omega⟩ (by show r.val = 2000 * 0 + r.val; omega))

theorem s_acc_succ (c : Dev nD) (n : ℕ) (h : n + 1 < 25) :
    s_acc V c (n + 1) = s_acc V c n + ∑ r : Fin 2000, nodeVal V c ⟨2000 * (n + 1) + r.val, Cert.Spec.node_lt h r.isLt⟩ := by
  have hn1 : n + 1 < cfg1.N := by rw [s_N]; exact h
  unfold s_acc
  rw [dif_pos hn1, dif_pos (Nat.lt_of_succ_lt hn1), scrAt1_succ]
  refine (Cert.KernelIdeal.Pay.pay1_apply _ _ _ _ _ _ _ _ _ _).trans ?_
  exact congrArg (_ + ·) (Finset.sum_congr rfl fun r _ => s_point V c ⟨n + 1, hn1⟩ r ⟨2000 * (n + 1) + r.val, Cert.Spec.node_lt h r.isLt⟩ rfl)

/-- After the last point the accumulator holds the sum over all the nodes. -/
theorem s_acc_total (c : Dev nD) : s_acc V c 24 = 0 + ∑ i : Fin 50000, nodeVal V c i :=
  Cert.Spec.acc_total (nodeVal V c) (s_acc V c) (s_acc_zero V c) (s_acc_succ V c)

/-! ## The one write-back -/

/-- A (1 × 1) index is the origin. -/
theorem s_idx11 (j : S1x1.Idx) : j = ix2 0 0 := by
  funext a
  match a with
  | ⟨0, _⟩ => exact Fin.ext (by have h := idx2_lt0 j; show (j 0).val = 0; omega)
  | ⟨1, _⟩ => exact Fin.ext (by have h := idx2_lt1 j; show (j 1).val = 0; omega)

/-- After the last point the output's buffer holds the sum over all the nodes. -/
theorem s_out_last (c : Dev nD) (h : 24 < cfg1.N) (j : S1x1.Idx) :
    (outAt1 V c 24 h : Vec Ideal S1x1 .f32) j = 0 + ∑ i : Fin 50000, nodeVal V c i := by
  have e := s_acc_total V c
  unfold s_acc at e
  rw [dif_pos h] at e
  rw [s_idx11 j, outAt1_last]
  exact e

/-- The write-back at the last point writes the sum over all the nodes. -/
theorem s_flushed (c : Dev nD) (t : Fin cfg1.N) (hf : (cfg1.win 9).flush t = true) :
    (dat1 V c).flushed 9 t = ((cfg1.win 9).blk t).view.read (Elt Ideal) (fun _ => 0 + ∑ i : Fin 50000, nodeVal V c i) := by
  have h24 : t.val = 24 := by have h1 := (flush1_9 t).mp hf; have h2 := lt25 t; omega
  have h24' : 24 < cfg1.N := by rw [s_N]; decide
  obtain rfl : t = ⟨24, h24'⟩ := Fin.ext h24
  show (cfg1.win 9).cut (grid1.coords ⟨24, h24'⟩) ((dat1 V c).after 9 ⟨24, h24'⟩) = _
  rw [after1_9]
  funext j
  rw [View.read_apply]
  exact s_out_last V c h24' _

/-- An index of the result lies in a point's block when it lies within the block's extents. -/
theorem s_mem_blk (t : Fin cfg1.N) (i : S1x1.Idx) :
    i ∈ ((cfg1.win 9).blk t).view.set ↔ ∀ a : Fin 2, win1_9.index t a * S1x1.size a ≤ (i a).val ∧ (i a).val < win1_9.index t a * S1x1.size a + S1x1.size a := by
  show i ∈ ((View.whole main_v77).slice (win1_9.rect t)).set ↔ _
  rw [View.set_slice_whole, Rect.mem_set_unit]
  exact Iff.rfl

/-- After the region the (1 × 1) result holds the sum over all the nodes of the per-node value. -/
theorem s_final (c : Dev nD) : (dat1 V c).arrAt 9 cfg1.N = fun _ => 0 + ∑ i : Fin 50000, nodeVal V c i :=
  (dat1 V c).arrAt_eq_of_cover 9 _ (s_flushed V c) fun i => by
    have h24' : 24 < cfg1.N := by rw [s_N]; decide
    have hi0 : (i 0).val < 1 := idx2_lt0 i
    have hi1 : (i 1).val < 1 := idx2_lt1 i
    refine ⟨⟨24, h24'⟩, (flush1_9 _).mpr rfl, ?_⟩
    rw [s_mem_blk]
    obtain ⟨e0, e1⟩ := s_where9 ⟨24, h24'⟩
    intro a
    match a with
    | ⟨0, _⟩ => show win1_9.index _ (0 : Fin 2) * 1 ≤ (i 0).val ∧ (i 0).val < win1_9.index _ (0 : Fin 2) * 1 + 1; rw [e0]; omega
    | ⟨1, _⟩ => show win1_9.index _ (1 : Fin 2) * 1 ≤ (i 1).val ∧ (i 1).val < win1_9.index _ (1 : Fin 2) * 1 + 1; rw [e1]; omega

end Cert.KernelIdeal.Hand

end
-- ==== Proof.KI.Host.lean ====
/-
  The host operations the kernel program runs between its two regions are, operation for operation, the
  reference's: the degree column and the self-loop index lists before the first region; after it the symmetric
  normalisation, the gather of neighbour rows, their scatter-sum and the bias; the maximum against zero; then the
  mean aggregation over neighbours. So what the kernel program holds in the first region's input, and in the two
  feature arrays the second region reads, is what the reference computes at the same places, given that the first
  region leaves the reference's projection in its output. Each stretch is read over an arbitrary valuation of the
  buffers from what that valuation holds at the buffers the stretch reads; the stretches are then chained.
-/
import proofs.«103519_j18056042512980_1_alg».proof.Proof.Gen.KernelIdeal.Regions
import proofs.«103519_j18056042512980_1_alg».proof.Proof.RefReadP
import Idealize.ShloMosaic.Lib.StableHlo.Run
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.ReadP

variable (m : (ℓ : Loc nD τ sig) → Buf (Elt Ideal) ℓ) (c : Dev nD) (outs : Outs (F := Ideal))

/-- Two concatenations of two operands each along the same axis into the same shape agree when their operands do. -/
theorem concat2_congr {α : Type} (T : Shape) (a : Fin T.rank) (S1 S2 : Shape) (A A' : S1.Idx → α) (B B' : S2.Idx → α)
    (h : Shape.Concatenates [S1, S2] T a) (hA : A = A') (hB : B = B') :
    concatenate T a [⟨S1, A⟩, ⟨S2, B⟩] h = concatenate T a [⟨S1, A'⟩, ⟨S2, B'⟩] h := by subst hA hB; rfl

/-- On the extended reals a narrowing change of float format is the identity. -/
theorem truncf_id {s : Shape} {φ ψ : FTy} (a : FVec Ideal s φ) (h : ψ.bits < φ.bits) : (truncf ψ a h : FVec Ideal s ψ) = a :=
  funext fun _ => rfl

/-! ## The first stretch, from the launch contents -/

set_option maxHeartbeats 400000 in
theorem s0_v1 : V1 (F := Ideal) m c (Proc.devRef .tc main_v1) = val_main_v1 (F := Ideal) (m ((c.tc : Thread nD τ).loc main_arg1)) := by
  show StableHlo.after hostOps0 (V0 m c) _ = _
  after_results
  rfl

set_option maxHeartbeats 400000 in
theorem s0_v3 : V1 (F := Ideal) m c (Proc.devRef .tc main_v3) = val_main_v3 (F := Ideal) (m ((c.tc : Thread nD τ).loc main_arg1)) := by
  show StableHlo.after hostOps0 (V0 m c) _ = _
  after_results
  rfl

set_option maxHeartbeats 400000 in
theorem s0_v4 : V1 (F := Ideal) m c (Proc.devRef .tc main_v4) = val_main_v4 (F := Ideal) := by
  show StableHlo.after hostOps0 (V0 m c) _ = _
  after_results
  rfl

set_option maxHeartbeats 400000 in
theorem s0_cst_4 : V1 (F := Ideal) m c (Proc.devRef .tc main_cst_4) = val_main_cst_4 (F := Ideal) := by
  show StableHlo.after hostOps0 (V0 m c) _ = _
  after_results
  rfl

set_option maxHeartbeats 400000 in
theorem s0_v9 : V1 (F := Ideal) m c (Proc.devRef .tc main_v9) = val_main_v9 (F := Ideal) (m ((c.tc : Thread nD τ).loc main_arg0)) (m ((c.tc : Thread nD τ).loc main_arg1)) := by
  show StableHlo.after hostOps0 (V0 m c) _ = _
  after_results
  unfold val_main_v9
  exact concat2_congr _ _ _ _ _ _ _ _ _ (by rfl) (by rfl)

set_option maxHeartbeats 400000 in
theorem s0_v11 : V1 (F := Ideal) m c (Proc.devRef .tc main_v11) = val_main_v11 (F := Ideal) (m ((c.tc : Thread nD τ).loc main_arg1)) := by
  show StableHlo.after hostOps0 (V0 m c) _ = _
  after_results
  unfold val_main_v11
  exact concat2_congr _ _ _ _ _ _ _ _ _ (by rfl) (by rfl)

set_option maxHeartbeats 400000 in
theorem s0_v12 : V1 (F := Ideal) m c (Proc.devRef .tc main_v12) = val_main_v12 (F := Ideal) (m ((c.tc : Thread nD τ).loc main_arg1)) := by
  show StableHlo.after hostOps0 (V0 m c) _ = _
  after_results
  unfold val_main_v12
  exact concat2_congr _ _ _ _ _ _ _ _ _ (by rfl) (by rfl)

set_option maxHeartbeats 400000 in
theorem s0_v16 : V1 (F := Ideal) m c (Proc.devRef .tc main_v16) = val_main_v16 (F := Ideal) (m ((c.tc : Thread nD τ).loc main_arg1)) := by
  unfold val_main_v16 val_main_v15
  rw [← s0_v12 m c]
  after_results
  rfl

set_option maxHeartbeats 400000 in
theorem s0_v18 : V1 (F := Ideal) m c (Proc.devRef .tc main_v18) = val_main_v18 (F := Ideal) (m ((c.tc : Thread nD τ).loc main_arg1)) := by
  unfold val_main_v18
  rw [← s0_v16 m c]
  after_results
  rfl

set_option maxHeartbeats 400000 in
theorem s0_v19 : V1 (F := Ideal) m c (Proc.devRef .tc main_v19) = val_main_v19 (F := Ideal) (m ((c.tc : Thread nD τ).loc main_arg1)) := by
  unfold val_main_v19
  rw [← s0_v16 m c]
  after_results

section Stages

variable (W : Valuation τ sig (Elt Ideal))
/-- The select of the first call: from the comparison, the reciprocal square root and the zero constant. -/
theorem t01_v20 (x1 : (⟨S2x1600000, .i32⟩ : BufTy).Contents (Elt Ideal)) (h_v18 : W (Proc.devRef .tc main_v18) = val_main_v18 (F := Ideal) x1) (h_v19 : W (Proc.devRef .tc main_v19) = val_main_v19 (F := Ideal) x1) (h_cst_4 : W (Proc.devRef .tc main_cst_4) = val_main_cst_4 (F := Ideal)) :
    StableHlo.after hostOps0_1 W (Proc.devRef .tc main_v20) = val_main_v20 (F := Ideal) x1 := by
  after_results
  unfold val_main_v20 val_main_call0_v1 val_main_call0_v0
  rw [← h_v18, ← h_v19, ← h_cst_4]
  rfl

set_option maxHeartbeats 4000000 in
/-- The aggregation stretch: the normalised, gathered, scattered node features plus the bias. -/
theorem t1_v52 (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (h_v11 : W (Proc.devRef .tc main_v11) = val_main_v11 (F := Ideal) x1) (h_v12 : W (Proc.devRef .tc main_v12) = val_main_v12 (F := Ideal) x1) (h_v20 : W (Proc.devRef .tc main_v20) = val_main_v20 (F := Ideal) x1) (h_v21 : W (Proc.devRef .tc main_v21) = val_main_v21 (F := Ideal) x0 x1 x2)
    (h_arg3 : W (Proc.devRef .tc main_arg3) = x3) :
    StableHlo.after hostOps1 W (Proc.devRef .tc main_v52) = val_main_v52 (F := Ideal) x0 x1 x2 x3 := by
  after_results_simp
  rw [h_v11, h_v12, h_v20, h_v21, h_arg3]
  set_option maxHeartbeats 200000 in rfl

/-- The second call: the maximum against zero. -/
theorem t11_v53 (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (h_v52 : W (Proc.devRef .tc main_v52) = val_main_v52 (F := Ideal) x0 x1 x2 x3) :
    StableHlo.after hostOps1_1 W (Proc.devRef .tc main_v53) = val_main_v53 (F := Ideal) x0 x1 x2 x3 := by
  after_results
  unfold val_main_v53 val_main_call1_v0 val_main_call1_cst
  rw [← h_v52]
  rfl

set_option maxHeartbeats 4000000 in
/-- The mean-aggregation stretch, whose last step is a change of format, the identity on the extended reals. -/
theorem t12_v72 (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (h_v1 : W (Proc.devRef .tc main_v1) = val_main_v1 (F := Ideal) x1) (h_v3 : W (Proc.devRef .tc main_v3) = val_main_v3 (F := Ideal) x1) (h_v4 : W (Proc.devRef .tc main_v4) = val_main_v4 (F := Ideal)) (h_v53 : W (Proc.devRef .tc main_v53) = val_main_v53 (F := Ideal) x0 x1 x2 x3) :
    StableHlo.after hostOps1_2 W (Proc.devRef .tc main_v72) = val_main_v71 (F := Ideal) x0 x1 x2 x3 := by
  after_results_simp
  rw [h_v1, h_v3, h_v4, h_v53]
  refine (truncf_id (s := S50000x128) (φ := FTy.f32) (ψ := FTy.bf16) _ bitsLt_bf16_f32).trans ?_
  set_option maxHeartbeats 100000 in rfl

/-- The node's own features in the second region's format: again the identity on the extended reals. -/
theorem t12_v73 (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (h_v53 : W (Proc.devRef .tc main_v53) = val_main_v53 (F := Ideal) x0 x1 x2 x3) :
    StableHlo.after hostOps1_2 W (Proc.devRef .tc main_v73) = val_main_v53 (F := Ideal) x0 x1 x2 x3 := by
  after_results
  rw [h_v53]
  exact truncf_id _ _

end Stages

/-! ## The kernel's host chain is the reference's -/

/-- The first region's input: the node features beside the degree column, as the reference builds them. -/
theorem host_xin : V2 (F := Ideal) m c (Proc.devRef .tc main_v9) = val_main_v9 (F := Ideal) (m ((c.tc : Thread nD τ).loc main_arg0)) (m ((c.tc : Thread nD τ).loc main_arg1)) :=
  (V2_of m c main_v9 (by decide)).trans (s0_v9 m c)

theorem s2_v20 : V2 (F := Ideal) m c (Proc.devRef .tc main_v20) = val_main_v20 (F := Ideal) (m ((c.tc : Thread nD τ).loc main_arg1)) :=
  t01_v20 (V1 m c) _ (s0_v18 m c) (s0_v19 m c) (s0_cst_4 m c)

theorem s4_v52 (h21 : V3 (F := Ideal) m outs c (Proc.devRef .tc main_v21) = val_main_v21 (F := Ideal) (m ((c.tc : Thread nD τ).loc main_arg0)) (m ((c.tc : Thread nD τ).loc main_arg1)) (m ((c.tc : Thread nD τ).loc main_arg2))) : V4 (F := Ideal) m outs c (Proc.devRef .tc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) :=
  t1_v52 (V3 m outs c) _ _ _ _
    ((V3_of m outs c main_v11 (by decide)).trans ((V2_of m c main_v11 (by decide)).trans (s0_v11 m c)))
    ((V3_of m outs c main_v12 (by decide)).trans ((V2_of m c main_v12 (by decide)).trans (s0_v12 m c)))
    ((V3_of m outs c main_v20 (by decide)).trans (s2_v20 m c))
    h21
    ((V3_of m outs c main_arg3 (by decide)).trans ((V2_of m c main_arg3 (by decide)).trans (V1_of m c main_arg3 (by decide))))

theorem s5_v53 (h21 : V3 (F := Ideal) m outs c (Proc.devRef .tc main_v21) = val_main_v21 (F := Ideal) (m ((c.tc : Thread nD τ).loc main_arg0)) (m ((c.tc : Thread nD τ).loc main_arg1)) (m ((c.tc : Thread nD τ).loc main_arg2))) : V5 (F := Ideal) m outs c (Proc.devRef .tc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) :=
  t11_v53 (V4 m outs c) _ _ _ _ (s4_v52 m c outs h21)

/-- The aggregated neighbour features the second region reads are the reference's. -/
theorem host_agg (h21 : V3 (F := Ideal) m outs c (Proc.devRef .tc main_v21) = val_main_v21 (F := Ideal) (m ((c.tc : Thread nD τ).loc main_arg0)) (m ((c.tc : Thread nD τ).loc main_arg1)) (m ((c.tc : Thread nD τ).loc main_arg2))) : V6 (F := Ideal) m outs c (Proc.devRef .tc main_v72) = val_main_v71 (F := Ideal) (m ((c.tc : Thread nD τ).loc main_arg0)) (m ((c.tc : Thread nD τ).loc main_arg1)) (m ((c.tc : Thread nD τ).loc main_arg2)) (m ((c.tc : Thread nD τ).loc main_arg3)) :=
  t12_v72 (V5 m outs c) _ _ _ _
    ((V5_of m outs c main_v1 (by decide)).trans ((V4_of m outs c main_v1 (by decide)).trans ((V3_of m outs c main_v1 (by decide)).trans ((V2_of m c main_v1 (by decide)).trans (s0_v1 m c)))))
    ((V5_of m outs c main_v3 (by decide)).trans ((V4_of m outs c main_v3 (by decide)).trans ((V3_of m outs c main_v3 (by decide)).trans ((V2_of m c main_v3 (by decide)).trans (s0_v3 m c)))))
    ((V5_of m outs c main_v4 (by decide)).trans ((V4_of m outs c main_v4 (by decide)).trans ((V3_of m outs c main_v4 (by decide)).trans ((V2_of m c main_v4 (by decide)).trans (s0_v4 m c)))))
    (s5_v53 m c outs h21)

/-- The nodes' own features the second region reads are the reference's. -/
theorem host_a1 (h21 : V3 (F := Ideal) m outs c (Proc.devRef .tc main_v21) = val_main_v21 (F := Ideal) (m ((c.tc : Thread nD τ).loc main_arg0)) (m ((c.tc : Thread nD τ).loc main_arg1)) (m ((c.tc : Thread nD τ).loc main_arg2))) : V6 (F := Ideal) m outs c (Proc.devRef .tc main_v73) = val_main_v53 (F := Ideal) (m ((c.tc : Thread nD τ).loc main_arg0)) (m ((c.tc : Thread nD τ).loc main_arg1)) (m ((c.tc : Thread nD τ).loc main_arg2)) (m ((c.tc : Thread nD τ).loc main_arg3)) :=
  t12_v73 (V5 m outs c) _ _ _ _ (s5_v53 m c outs h21)

end Cert.KernelIdeal.Hand

end
-- ==== Proof.KI.HostSmall.lean ====
/-
  The host program's buffers that are arguments or plain re-layouts of arguments, read at the point where the
  second region is entered, and the program's result as a re-layout of that region's output: no host stretch and
  no region writes an argument; the three bias vectors are recast from [n] to [1, n]; the result drops the two
  unit axes of the region's (1 × 1) output.
-/
import proofs.«103519_j18056042512980_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD) (outs : Outs (F := Ideal))

theorem host_w2 : V2 m c (Proc.devRef .tc main_arg2) = m ((c.tc : Thread nD τ).loc main_arg2) :=
  (V2_of m c main_arg2 (by decide)).trans ((V1_of m c main_arg2 (by decide)).trans rfl)

/-- An argument array reaches the second region as launched. -/
theorem V6_arg (r : Ref sig .tc) (h0 : r ∉ hostOps0_W) (h1 : r ∉ hostOps0_1_W) (h3 : r ∉ ([main_v21] : List (Ref sig .tc)))
    (h4 : r ∉ hostOps1_W) (h5 : r ∉ hostOps1_1_W) (h6 : r ∉ hostOps1_2_W) :
    V6 m outs c (Proc.devRef .tc r) = m ((c.tc : Thread nD τ).loc r) :=
  (V6_of m outs c r h6).trans <| (V5_of m outs c r h5).trans <| (V4_of m outs c r h4).trans <| (V3_of m outs c r h3).trans <|
    (V2_of m c r h1).trans <| (V1_of m c r h0).trans rfl

theorem host_w4 : V6 m outs c (Proc.devRef .tc main_arg4) = m ((c.tc : Thread nD τ).loc main_arg4) :=
  V6_arg m c outs main_arg4 (by decide) (by decide) (by decide) (by decide) (by decide) (by decide)
theorem host_w6 : V6 m outs c (Proc.devRef .tc main_arg6) = m ((c.tc : Thread nD τ).loc main_arg6) :=
  V6_arg m c outs main_arg6 (by decide) (by decide) (by decide) (by decide) (by decide) (by decide)
theorem host_w7 : V6 m outs c (Proc.devRef .tc main_arg7) = m ((c.tc : Thread nD τ).loc main_arg7) :=
  V6_arg m c outs main_arg7 (by decide) (by decide) (by decide) (by decide) (by decide) (by decide)
theorem host_w9 : V6 m outs c (Proc.devRef .tc main_arg9) = m ((c.tc : Thread nD τ).loc main_arg9) :=
  V6_arg m c outs main_arg9 (by decide) (by decide) (by decide) (by decide) (by decide) (by decide)

/-- An argument array as the last host stretch before the second region finds it. -/
theorem V5_arg (r : Ref sig .tc) (h0 : r ∉ hostOps0_W) (h1 : r ∉ hostOps0_1_W) (h3 : r ∉ ([main_v21] : List (Ref sig .tc)))
    (h4 : r ∉ hostOps1_W) (h5 : r ∉ hostOps1_1_W) :
    V5 m outs c (Proc.devRef .tc r) = m ((c.tc : Thread nD τ).loc r) :=
  (V5_of m outs c r h5).trans <| (V4_of m outs c r h4).trans <| (V3_of m outs c r h3).trans <|
    (V2_of m c r h1).trans <| (V1_of m c r h0).trans rfl

set_option maxHeartbeats 400000 in
theorem host_bl (k : Fin 128) : (V6 m outs c (Proc.devRef .tc main_v74) : S1x128.Idx → EReal) (ix2 0 k)
    = (m ((c.tc : Thread nD τ).loc main_arg5) : S128.Idx → EReal) (ix1 k) := by
  show StableHlo.after hostOps1_2 (V5 m outs c) (Proc.devRef .tc main_v74) (ix2 0 k) = _
  generalize hW : V5 m outs c = W
  have hW5 : W (Proc.devRef .tc main_arg5) = m ((c.tc : Thread nD τ).loc main_arg5) := by
    rw [← hW]; exact V5_arg m c outs main_arg5 (by decide) (by decide) (by decide) (by decide) (by decide)
  after_results
  rw [hW5]
  exact shapeCast_a_1a_apply (m ((c.tc : Thread nD τ).loc main_arg5) : S128.Idx → EReal) shapeCasts_S128_S1x128 0 k

set_option maxHeartbeats 400000 in
theorem host_bv1 (j : Fin 64) : (V6 m outs c (Proc.devRef .tc main_v75) : S1x64.Idx → EReal) (ix2 0 j)
    = (m ((c.tc : Thread nD τ).loc main_arg8) : S64.Idx → EReal) (ix1 j) := by
  show StableHlo.after hostOps1_2 (V5 m outs c) (Proc.devRef .tc main_v75) (ix2 0 j) = _
  generalize hW : V5 m outs c = W
  have hW8 : W (Proc.devRef .tc main_arg8) = m ((c.tc : Thread nD τ).loc main_arg8) := by
    rw [← hW]; exact V5_arg m c outs main_arg8 (by decide) (by decide) (by decide) (by decide) (by decide)
  after_results
  rw [hW8]
  exact shapeCast_a_1a_apply (m ((c.tc : Thread nD τ).loc main_arg8) : S64.Idx → EReal) shapeCasts_S64_S1x64 0 j

set_option maxHeartbeats 400000 in
theorem host_bv2 : (V6 m outs c (Proc.devRef .tc main_v76) : S1x1.Idx → EReal) (ix2 0 0)
    = (m ((c.tc : Thread nD τ).loc main_arg10) : S1.Idx → EReal) (ix1 0) := by
  show StableHlo.after hostOps1_2 (V5 m outs c) (Proc.devRef .tc main_v76) (ix2 0 0) = _
  generalize hW : V5 m outs c = W
  have hW10 : W (Proc.devRef .tc main_arg10) = m ((c.tc : Thread nD τ).loc main_arg10) := by
    rw [← hW]; exact V5_arg m c outs main_arg10 (by decide) (by decide) (by decide) (by decide) (by decide)
  after_results
  rw [hW10]
  exact shapeCast_a_1a_apply (m ((c.tc : Thread nD τ).loc main_arg10) : S1.Idx → EReal) shapeCasts_S1_S1x1 0 0

set_option maxHeartbeats 400000 in
/-- The program's result is the second region's one entry. -/
theorem host_out : (V8 m outs c (Proc.devRef .tc main_v78) : S_.Idx → EReal)
    = fun _ => (outs 7 main_v77 c : S1x1.Idx → EReal) (ix2 0 0) := by
  show StableHlo.after hostOps2 (V7 m outs c) (Proc.devRef .tc main_v78) = _
  have h77 : V7 m outs c (Proc.devRef .tc main_v77) = outs 7 main_v77 c := by
    show Function.update (V6 m outs c) (Proc.devRef .tc main_v77) (outs 7 main_v77 c) (Proc.devRef .tc main_v77) = _
    rw [Function.update_self]
  generalize hW : V7 m outs c = W at h77
  after_results
  rw [h77]
  funext j
  refine shapeCast_apply (outs 7 main_v77 c : S1x1.Idx → EReal) shapeCasts_S1x1_S_ j (ix2 0 0) ?_
  show (Shape.rowMajor S1x1 (ix2 (0 : Fin 1) (0 : Fin 1))).val = (Shape.rowMajor S_ j).val
  rw [Shape.rowMajor_val_two]
  have hj : (Shape.rowMajor S_ j).val < 1 := (Shape.rowMajor S_ j).isLt
  show 0 * 1 + 0 = _
  omega

end Cert.KernelIdeal.Hand

end
-- ==== Proof.RefRead.lean ====
/-
  The reference's value head read at an index, on the extended reals: from the total (the sum over all nodes of the
  per-node value, on top of the initial value zero) back through the output layer, the hidden layer with its maximum
  against zero, and the SAGE layer's two matrix products and bias, each stage read at an index from the stage before;
  the chain stops at the two arrays of node features the SAGE layer reads. A node's value is `Spec.vrow` of its rows
  of those two arrays. Likewise the GCN projection of the reference at `(p, q)` is `Spec.gcnrow`.
-/
import proofs.«103519_j18056042512980_1_alg».proof.Proof.Spec
import proofs.«103519_j18056042512980_1_alg».proof.Proof.RefReadP

noncomputable section

open scoped BigOperators

namespace Cert.ReferenceIdeal.RefRead

open Cert.ReferenceIdeal Cert.ReferenceIdeal.ReadP
open Idealize.ShloMosaic Idealize.ShloMosaic.ValueIdx

/-- The zero word of `f32` denotes the extended real `0`. -/
theorem ofBits_zero : (FloatOps.ofBits (F := Ideal) .f32 0x00000000#32 : EReal) = 0 := Ideal.ofBits_zero_f32

/-! The composed index maps of the stages, at an index given by its coordinates. -/

theorem l83 (r : Fin 50000) (u : Fin 1) (k : Fin 64) : lidx_main_v83 (ix2 r u) k = ix2 r k :=
  funext fun a => Fin.ext (by match a with | ⟨0, _⟩ => rfl | ⟨1, _⟩ => rfl)
theorem r83 (r : Fin 50000) (u : Fin 1) (k : Fin 64) : ridx_main_v83 (ix2 r u) k = ix2 k u :=
  funext fun a => Fin.ext (by match a with | ⟨0, _⟩ => rfl | ⟨1, _⟩ => rfl)
theorem l78 (r : Fin 50000) (j : Fin 64) (k : Fin 128) : lidx_main_v78 (ix2 r j) k = ix2 r k :=
  funext fun a => Fin.ext (by match a with | ⟨0, _⟩ => rfl | ⟨1, _⟩ => rfl)
theorem r78 (r : Fin 50000) (j : Fin 64) (k : Fin 128) : ridx_main_v78 (ix2 r j) k = ix2 k j :=
  funext fun a => Fin.ext (by match a with | ⟨0, _⟩ => rfl | ⟨1, _⟩ => rfl)
theorem l72 (r : Fin 50000) (k l : Fin 128) : lidx_main_v72 (ix2 r k) l = ix2 r l :=
  funext fun a => Fin.ext (by match a with | ⟨0, _⟩ => rfl | ⟨1, _⟩ => rfl)
theorem r72 (r : Fin 50000) (k l : Fin 128) : ridx_main_v72 (ix2 r k) l = ix2 l k :=
  funext fun a => Fin.ext (by match a with | ⟨0, _⟩ => rfl | ⟨1, _⟩ => rfl)
theorem l76 (r : Fin 50000) (k l : Fin 128) : lidx_main_v76 (ix2 r k) l = ix2 r l :=
  funext fun a => Fin.ext (by match a with | ⟨0, _⟩ => rfl | ⟨1, _⟩ => rfl)
theorem r76 (r : Fin 50000) (k l : Fin 128) : ridx_main_v76 (ix2 r k) l = ix2 l k :=
  funext fun a => Fin.ext (by match a with | ⟨0, _⟩ => rfl | ⟨1, _⟩ => rfl)
theorem l21 (p : Fin 50000) (q : Fin 128) (k : Fin 2) : lidx_main_v21 (ix2 p q) k = ix2 p k :=
  funext fun a => Fin.ext (by match a with | ⟨0, _⟩ => rfl | ⟨1, _⟩ => rfl)
theorem r21 (p : Fin 50000) (q : Fin 128) (k : Fin 2) : ridx_main_v21 (ix2 p q) k = ix2 k q :=
  funext fun a => Fin.ext (by match a with | ⟨0, _⟩ => rfl | ⟨1, _⟩ => rfl)
theorem i85 (r : Fin 50000) (u : Fin 1) : idx_main_v85 (ix2 r u) = ix2 0 0 :=
  funext fun a => Fin.ext (by match a with | ⟨0, _⟩ => rfl | ⟨1, _⟩ => rfl)
theorem i84 (u v : Fin 1) : idx_main_v84 (ix2 u v) = ix1 0 :=
  funext fun a => Fin.ext (by match a with | ⟨0, _⟩ => rfl)
theorem i80 (r : Fin 50000) (j : Fin 64) : idx_main_v80 (ix2 r j) = ix2 0 j :=
  funext fun a => Fin.ext (by match a with | ⟨0, _⟩ => rfl | ⟨1, _⟩ => rfl)
theorem i79 (u : Fin 1) (j : Fin 64) : idx_main_v79 (ix2 u j) = ix1 j :=
  funext fun a => Fin.ext (by match a with | ⟨0, _⟩ => rfl)
theorem i74 (r : Fin 50000) (k : Fin 128) : idx_main_v74 (ix2 r k) = ix2 0 k :=
  funext fun a => Fin.ext (by match a with | ⟨0, _⟩ => rfl | ⟨1, _⟩ => rfl)
theorem i73 (u : Fin 1) (k : Fin 128) : idx_main_v73 (ix2 u k) = ix1 k :=
  funext fun a => Fin.ext (by match a with | ⟨0, _⟩ => rfl)

/-- The SAGE layer of the reference at `(r, k)`: `Spec.a2row` of node `r`'s rows of the two feature arrays. -/
theorem sage_apply (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (r : Fin 50000) (k : Fin 128) :
    val_main_v77 (F := Ideal) x0 x1 x2 x3 x4 x5 x6 (ix2 r k)
      = Spec.a2row (fun l => val_main_v71 (F := Ideal) x0 x1 x2 x3 (ix2 r l)) (fun l => val_main_v53 (F := Ideal) x0 x1 x2 x3 (ix2 r l))
          (fun l k => x4 (ix2 l k)) (fun l k => x6 (ix2 l k)) (fun k => x5 (ix1 k)) k := by
  rw [val_main_v77_apply, val_main_v75_apply, val_main_v72_apply, val_main_v74_apply, val_main_v73_apply, val_main_v76_apply,
    Ideal.addf_def, Ideal.addf_def, i74, i73]
  unfold Spec.a2row
  generalize val_main_v71 (F := Ideal) x0 x1 x2 x3 = A
  generalize val_main_v53 (F := Ideal) x0 x1 x2 x3 = B
  refine congrArg₂ (· + ·) (congrArg₂ (· + ·) (Finset.sum_congr rfl fun l _ => ?_) rfl) (Finset.sum_congr rfl fun l _ => ?_)
  · rw [l72, r72]
  · rw [l76, r76]

/-- The hidden layer of the reference's value head at `(r, j)`: `Spec.h1row`. -/
theorem hidden_apply (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x64, .f32⟩ : BufTy).Contents (Elt Ideal)) (x8 : (⟨S64, .f32⟩ : BufTy).Contents (Elt Ideal)) (r : Fin 50000) (j : Fin 64) :
    val_main_v82 (F := Ideal) x0 x1 x2 x3 x4 x5 x6 x7 x8 (ix2 r j)
      = Spec.h1row (fun l => val_main_v71 (F := Ideal) x0 x1 x2 x3 (ix2 r l)) (fun l => val_main_v53 (F := Ideal) x0 x1 x2 x3 (ix2 r l))
          (fun l k => x4 (ix2 l k)) (fun l k => x6 (ix2 l k)) (fun k => x5 (ix1 k)) (fun k j => x7 (ix2 k j)) (fun j => x8 (ix1 j)) j := by
  rw [val_main_v82_apply, val_main_call2_v0_apply, val_main_call2_cst_apply, ofBits_zero, val_main_v81_apply, val_main_v80_apply,
    val_main_v79_apply, val_main_v78_apply, Ideal.maximumf_def, Ideal.addf_def, i80, i79]
  unfold Spec.h1row
  refine congrArg (max · 0) (congrArg₂ (· + ·) (Finset.sum_congr rfl fun k _ => ?_) rfl)
  rw [l78, r78, sage_apply]

/-- One node's value in the reference: `Spec.vrow` of the node's rows of the two feature arrays. -/
theorem node_value (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) (r : Fin 50000) :
    val_main_v86 (F := Ideal) x0 x1 x2 x3 x4 x5 x6 x7 x8 x9 x10 (ix2 r 0)
      = Spec.vrow (fun l => val_main_v71 (F := Ideal) x0 x1 x2 x3 (ix2 r l)) (fun l => val_main_v53 (F := Ideal) x0 x1 x2 x3 (ix2 r l))
          (fun l k => x4 (ix2 l k)) (fun l k => x6 (ix2 l k)) (fun k => x5 (ix1 k)) (fun k j => x7 (ix2 k j))
          (fun j => x8 (ix1 j)) (fun j => x9 (ix2 j 0)) (x10 (ix1 0)) := by
  rw [val_main_v86_apply, val_main_v85_apply, val_main_v84_apply, val_main_v83_apply, Ideal.addf_def, i85, i84]
  unfold Spec.vrow
  refine congrArg₂ (· + ·) (Finset.sum_congr rfl fun j _ => ?_) rfl
  rw [l83, r83, hidden_apply]

/-- The reference's total: zero plus the sum over the 50000 nodes of `Spec.vrow`. -/
theorem ref_total (x0 : (⟨S50000x1, .f32⟩ : BufTy).Contents (Elt Ideal)) (x1 : (⟨S2x1600000, .i32⟩ : BufTy).Contents (Elt Ideal)) (x2 : (⟨S2x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) :
    val_main_v87 (F := Ideal) x0 x1 x2 x3 x4 x5 x6 x7 x8 x9 x10
      = fun _ => 0 + ∑ r : Fin 50000,
          Spec.vrow (fun l => val_main_v71 (F := Ideal) x0 x1 x2 x3 (ix2 r l)) (fun l => val_main_v53 (F := Ideal) x0 x1 x2 x3 (ix2 r l))
          (fun l k => x4 (ix2 l k)) (fun l k => x6 (ix2 l k)) (fun k => x5 (ix1 k)) (fun k j => x7 (ix2 k j))
            (fun j => x8 (ix1 j)) (fun j => x9 (ix2 j 0)) (x10 (ix1 0)) := by
  funext i
  rw [val_main_v87_apply, val_main_cst_16_apply, ofBits_zero, sum_idx2]
  refine congrArg (0 + ·) (Finset.sum_congr rfl fun r _ => ?_)
  exact (Spec.sum_fin_one _).trans (node_value x0 x1 x2 x3 x4 x5 x6 x7 x8 x9 x10 r)

/-- The reference's GCN projection at `(p, q)`: `Spec.gcnrow` of node `p`'s two input features. -/
theorem ref_gcn (x0 : (⟨S50000x1, .f32⟩ : BufTy).Contents (Elt Ideal)) (x1 : (⟨S2x1600000, .i32⟩ : BufTy).Contents (Elt Ideal)) (x2 : (⟨S2x128, .f32⟩ : BufTy).Contents (Elt Ideal)) (p : Fin 50000) (q : Fin 128) :
    val_main_v21 (F := Ideal) x0 x1 x2 (ix2 p q)
      = Spec.gcnrow (fun k => val_main_v9 (F := Ideal) x0 x1 (ix2 p k)) (fun k q => x2 (ix2 k q)) q := by
  rw [val_main_v21_apply]
  unfold Spec.gcnrow
  generalize val_main_v9 (F := Ideal) x0 x1 = A
  refine Finset.sum_congr rfl fun k _ => ?_
  rw [l21, r21]

end Cert.ReferenceIdeal.RefRead

end
-- ==== Proof.Alg.lean ====
/-
  The two idealized programs end with the same number.

  Kernel side. The first region leaves `h = xin · W`, which is the reference's matrix product entry by entry, and
  `xin` is the same host chain of the arguments in both programs; so the host operations between the two regions,
  being the same operations in both programs, produce the reference's aggregated features `agg` and activations
  `a1` (a change of float format is the identity over the extended reals). The second region leaves
  `0 + ∑ over all 50000 nodes` of the per-node value of those two matrices and the head's weights and biases, and
  the last host operation only drops the two unit axes. Reference side: its result is the same sum of the same
  per-node values, read off its matrix products, bias broadcasts, maxima and its final sum.
-/
import proofs.«103519_j18056042512980_1_alg».proof.Defs
import proofs.«103519_j18056042512980_1_alg».proof.Proof.Gen.KernelIdeal
import proofs.«103519_j18056042512980_1_alg».proof.Proof.Gen.ReferenceIdeal
import proofs.«103519_j18056042512980_1_alg».proof.Proof.Gen.Pre_finite_inputs
import proofs.«103519_j18056042512980_1_alg».proof.Proof.KI.Run
import proofs.«103519_j18056042512980_1_alg».proof.Proof.KI.Val0
import proofs.«103519_j18056042512980_1_alg».proof.Proof.KI.Val1
import proofs.«103519_j18056042512980_1_alg».proof.Proof.KI.Host
import proofs.«103519_j18056042512980_1_alg».proof.Proof.KI.HostSmall
import proofs.«103519_j18056042512980_1_alg».proof.Proof.RefRead
import proofs.«103519_j18056042512980_1_alg».proof.Proof.RefRunP
import proofs.«103519_j18056042512980_1_alg».proof.Proof.RefReadP

set_option maxRecDepth 16384

noncomputable section

namespace Cert.Proof

open Cert.KernelIdeal Cert.KernelIdeal.Gen Cert.KernelIdeal.Hand
open Idealize.ShloMosaic Idealize.ShloMosaic.TcCoe Idealize.SL.Sem Idealize.ShloMosaic.ValueIdx
open Cert.ReferenceIdeal.ReadP (val_main_v9 val_main_v21 val_main_v53 val_main_v71 val_main_v87)

variable (m : (ℓ : Loc nD τ sig) → Buf (Elt Ideal) ℓ) (c : Dev nD)

set_option quotPrecheck false

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)

/-- The first region's `h` is the reference's matrix product. -/
theorem h_is_ref : V3 m (outsA m) c (Proc.devRef .tc main_v21) = val_main_v21 (F := Ideal) x0 x1 x2 := by
  show Function.update (V2 m c) (Proc.devRef .tc main_v21) (outsA m 3 main_v21 c) (Proc.devRef .tc main_v21) = _
  rw [Function.update_self, outsA_three]
  unfold hOut
  rw [h_final]
  funext i
  obtain ⟨p, q, rfl⟩ : ∃ (p : Fin 50000) (q : Fin 128), i = ix2 p q := ⟨i 0, i 1, eq_ix2 i⟩
  rw [Cert.ReferenceIdeal.RefRead.ref_gcn]
  show Cert.Spec.gcnrow (fun k => (V2 m c (Proc.devRef .tc main_v9) : S50000x2.Idx → EReal) (ix2 p k))
      (fun k q => (V2 m c (Proc.devRef .tc main_arg2) : S2x128.Idx → EReal) (ix2 k q)) q = _
  rw [host_xin, host_w2]

/-- One node's value from the second region's operands is the reference's per-node value. -/
theorem node_is_ref (i : Fin 50000) : nodeVal (atTc (V6 m (outsA m))) c i
    = Cert.Spec.vrow (fun l => val_main_v71 (F := Ideal) x0 x1 x2 x3 (ix2 i l)) (fun l => val_main_v53 (F := Ideal) x0 x1 x2 x3 (ix2 i l))
        (fun l k => x4 (ix2 l k)) (fun l k => x6 (ix2 l k)) (fun k => x5 (ix1 k)) (fun k j => x7 (ix2 k j)) (fun j => x8 (ix1 j))
        (fun j => x9 (ix2 j 0)) (x10 (ix1 0)) := by
  unfold nodeVal
  show Cert.Spec.vrow (fun l => (V6 m (outsA m) c (Proc.devRef .tc main_v72) : S50000x128.Idx → EReal) (ix2 i l))
      (fun l => (V6 m (outsA m) c (Proc.devRef .tc main_v73) : S50000x128.Idx → EReal) (ix2 i l))
      (fun l k => (V6 m (outsA m) c (Proc.devRef .tc main_arg4) : S128x128.Idx → EReal) (ix2 l k))
      (fun l k => (V6 m (outsA m) c (Proc.devRef .tc main_arg6) : S128x128.Idx → EReal) (ix2 l k))
      (fun k => (V6 m (outsA m) c (Proc.devRef .tc main_v74) : S1x128.Idx → EReal) (ix2 0 k))
      (fun k j => (V6 m (outsA m) c (Proc.devRef .tc main_arg7) : S128x64.Idx → EReal) (ix2 k j))
      (fun j => (V6 m (outsA m) c (Proc.devRef .tc main_v75) : S1x64.Idx → EReal) (ix2 0 j))
      (fun j => (V6 m (outsA m) c (Proc.devRef .tc main_arg9) : S64x1.Idx → EReal) (ix2 j 0))
      ((V6 m (outsA m) c (Proc.devRef .tc main_v76) : S1x1.Idx → EReal) (ix2 0 0)) = _
  have e1 : (fun k : Fin 128 => (V6 m (outsA m) c (Proc.devRef .tc main_v74) : S1x128.Idx → EReal) (ix2 0 k))
      = fun k => (x5 : S128.Idx → EReal) (ix1 k) := funext fun k => host_bl m c (outsA m) k
  have e2 : (fun j : Fin 64 => (V6 m (outsA m) c (Proc.devRef .tc main_v75) : S1x64.Idx → EReal) (ix2 0 j))
      = fun j => (x8 : S64.Idx → EReal) (ix1 j) := funext fun j => host_bv1 m c (outsA m) j
  rw [e1, e2, host_agg m c (outsA m) (h_is_ref m c), host_a1 m c (outsA m) (h_is_ref m c), host_w4, host_w6, host_w7, host_w9, host_bv2]

/-- The kernel program's result. -/
theorem kernel_result : (V8 m (outsH m) c (Proc.devRef .tc main_v78) : S_.Idx → EReal)
    = fun _ => 0 + ∑ i : Fin 50000, Cert.Spec.vrow (fun l => val_main_v71 (F := Ideal) x0 x1 x2 x3 (ix2 i l)) (fun l => val_main_v53 (F := Ideal) x0 x1 x2 x3 (ix2 i l))
        (fun l k => x4 (ix2 l k)) (fun l k => x6 (ix2 l k)) (fun k => x5 (ix1 k)) (fun k j => x7 (ix2 k j)) (fun j => x8 (ix1 j))
        (fun j => x9 (ix2 j 0)) (x10 (ix1 0)) := by
  rw [host_out, outsH_seven]
  unfold sOut
  rw [D1_eq, s_final]
  funext _
  exact congrArg (fun s => (0 : EReal) + s) (Finset.sum_congr rfl fun i _ => node_is_ref m c i)

/-- Both idealized programs, from memories agreeing on the arguments, run to the end, leave their arguments as they
    were, and end with the same result. -/
theorem algebraic : Cert.algebraic_KernelIdeal_ReferenceIdeal := by
  intro m ρ m' ρ' _ hagree
  refine ⟨fun c => V8 m (outsH m) c (Proc.devRef .tc main_v78), ?_, ?_⟩
  · refine (θ_run Cert.KernelIdeal.defs _ _).mono (fun r h c => ?_) (run_all m ρ)
    exact ⟨h c _ (mem_uc main_v78 (by decide)),
      (h c _ (mem_uc main_arg0 (by decide))).trans (V8_main_arg0 m (outsH m) c),
      (h c _ (mem_uc main_arg1 (by decide))).trans (V8_main_arg1 m (outsH m) c),
      (h c _ (mem_uc main_arg2 (by decide))).trans (V8_main_arg2 m (outsH m) c),
      (h c _ (mem_uc main_arg3 (by decide))).trans (V8_main_arg3 m (outsH m) c),
      (h c _ (mem_uc main_arg4 (by decide))).trans (V8_main_arg4 m (outsH m) c),
      (h c _ (mem_uc main_arg5 (by decide))).trans (V8_main_arg5 m (outsH m) c),
      (h c _ (mem_uc main_arg6 (by decide))).trans (V8_main_arg6 m (outsH m) c),
      (h c _ (mem_uc main_arg7 (by decide))).trans (V8_main_arg7 m (outsH m) c),
      (h c _ (mem_uc main_arg8 (by decide))).trans (V8_main_arg8 m (outsH m) c),
      (h c _ (mem_uc main_arg9 (by decide))).trans (V8_main_arg9 m (outsH m) c),
      (h c _ (mem_uc main_arg10 (by decide))).trans (V8_main_arg10 m (outsH m) c)⟩
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v87_eq]
    obtain ⟨a0, a1, a2, a3, a4, a5, a6, a7, a8, a9, a10⟩ := hagree c
    rw [a0, a1, a2, a3, a4, a5, a6, a7, a8, a9, a10, Cert.ReferenceIdeal.RefRead.ref_total]
    exact (kernel_result m c).symm

end Cert.Proof

end
-- ==== Proof.lean ====
/-
  Kernel against reference for a small graph network (a graph convolution, a mean-aggregating layer and a two-layer
  value head summed over all 50000 nodes).

  The kernel program runs two tiled regions between stretches of host operations: `h = xin · W` in 25 row tiles, and,
  again in 25 row tiles, the per-node value head with a one-element accumulator carried from tile to tile. The
  reference computes the same quantities with whole-array operations. Over the extended reals a change of float
  format is the identity and every sum is the exact sum, so the two programs differ only in how the sums are
  grouped: a matrix product tile by tile is the whole product restricted to the tile's rows, and the 25 partial sums
  of 2000 node values add up to the sum over all nodes because addition of extended reals is commutative and
  associative. Everything between the two regions — degree counts, normalisation, gathers and scatter-adds over the
  edge list — is the same chain of operations in both programs, applied to equal inputs.

  The three frame claims: each program terminates without a fault and leaves its eleven argument arrays as they
  were; for the two kernel programs this is read off the run of the host stretches and the two regions, for the
  reference off the run of its operation list. The ideal pass rewrote nothing, so the sanction claim is `True`.
-/
import proofs.«103519_j18056042512980_1_alg».proof.Defs
import proofs.«103519_j18056042512980_1_alg».proof.Proof.Gen.Kernel
import proofs.«103519_j18056042512980_1_alg».proof.Proof.Gen.KernelIdeal
import proofs.«103519_j18056042512980_1_alg».proof.Proof.Gen.ReferenceIdeal
import proofs.«103519_j18056042512980_1_alg».proof.Proof.Gen.Pre_finite_inputs
import proofs.«103519_j18056042512980_1_alg».proof.Proof.K.Run
import proofs.«103519_j18056042512980_1_alg».proof.Proof.KI.Run
import proofs.«103519_j18056042512980_1_alg».proof.Proof.RefRunP
import proofs.«103519_j18056042512980_1_alg».proof.Proof.Alg
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame_all (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.algebraic⟩

end Cert.Proof

end
